-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128x1 .f32) (main_arg15 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg14
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg15 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x1 .f32) (main_arg15 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S10000x128 : Shape := ⟨2, ![10000, 128]⟩
abbrev S640000x128 : Shape := ⟨2, ![640000, 128]⟩
abbrev S1x128 : Shape := ⟨2, ![1, 128]⟩
abbrev S10000x1 : Shape := ⟨2, ![10000, 1]⟩
abbrev S1x1 : Shape := ⟨2, ![1, 1]⟩

abbrev nBuf : Space → Nat
  | .hbm => 89
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x640000, .i32⟩
  | .hbm, ⟨17, _⟩ => ⟨S640000, .i32⟩
  | .hbm, ⟨18, _⟩ => ⟨S1x640000, .i32⟩
  | .hbm, ⟨19, _⟩ => ⟨S640000, .i32⟩
  | .hbm, ⟨20, _⟩ => ⟨S_, .f32⟩
  | .hbm, ⟨21, _⟩ => ⟨S640000, .f32⟩
  | .hbm, ⟨22, _⟩ => ⟨S_, .f32⟩
  | .hbm, ⟨23, _⟩ => ⟨S100000, .f32⟩
  | .hbm, ⟨24, _⟩ => ⟨S640000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S_, .f32⟩
  | .hbm, ⟨46, _⟩ => ⟨S100000x128, .f32⟩
  | .hbm, ⟨47, _⟩ => ⟨S640000x1, .i32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S640000, .i32⟩
  | .hbm, ⟨55, _⟩ => ⟨S640000, .i1⟩
  | .hbm, ⟨56, _⟩ => ⟨S_, .i32⟩
  | .hbm, ⟨57, _⟩ => ⟨S640000, .i32⟩
  | .hbm, ⟨58, _⟩ => ⟨S640000, .i32⟩
  | .hbm, ⟨59, _⟩ => ⟨S640000, .i32⟩
  | .hbm, ⟨60, _⟩ => ⟨S640000x1, .i32⟩
  | .hbm, ⟨61, _⟩ => ⟨S640000x128, .f32⟩
  | .hbm, ⟨62, _⟩ => ⟨S_, .f32⟩
  | .hbm, ⟨63, _⟩ => ⟨S100000x128, .f32⟩
  | .hbm, ⟨64, _⟩ => ⟨S640000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S640000, .i32⟩
  | .hbm, ⟨72, _⟩ => ⟨S640000, .i1⟩
  | .hbm, ⟨73, _⟩ => ⟨S_, .i32⟩
  | .hbm, ⟨74, _⟩ => ⟨S640000, .i32⟩
  | .hbm, ⟨75, _⟩ => ⟨S640000, .i32⟩
  | .hbm, ⟨76, _⟩ => ⟨S640000, .i32⟩
  | .hbm, ⟨77, _⟩ => ⟨S640000x1, .i32⟩
  | .hbm, ⟨78, _⟩ => ⟨S640000x128, .f32⟩
  | .hbm, ⟨79, _⟩ => ⟨S_, .f32⟩
  | .hbm, ⟨80, _⟩ => ⟨S100000x128, .f32⟩
  | .hbm, ⟨81, _⟩ => ⟨S640000x1, .i32⟩
  | .hbm, ⟨82, _⟩ => ⟨S100000x128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S1x128, .f32⟩
  | .hbm, ⟨87, _⟩ => ⟨S1x1, .f32⟩
  | .hbm, ⟨88, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x1, .f32⟩
  | .local _ .vmem, ⟨10, _⟩ => ⟨S10000x1, .f32⟩
  | .local _ .vmem, ⟨11, _⟩ => ⟨S10000x1, .f32⟩
  | .local _ .vmem, ⟨12, _⟩ => ⟨S10000x1, .f32⟩
  | .local _ .vmem, ⟨13, _⟩ => ⟨S1x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x1, .f32⟩
  | .local _ .vmem, ⟨22, _⟩ => ⟨S10000x1, .f32⟩
  | .local _ .vmem, ⟨23, _⟩ => ⟨S10000x1, .f32⟩
  | .local _ .vmem, ⟨24, _⟩ => ⟨S10000x1, .f32⟩
  | .local _ .vmem, ⟨25, _⟩ => ⟨S1x128, .f32⟩
  | .local _ .vmem, ⟨26, _⟩ => ⟨S128x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x1, .f32⟩
  | .local _ .vmem, ⟨34, _⟩ => ⟨S10000x1, .f32⟩
  | .local _ .vmem, ⟨35, _⟩ => ⟨S10000x1, .f32⟩
  | .local _ .vmem, ⟨36, _⟩ => ⟨S10000x1, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S128x1, .f32⟩
  | .local _ .vmem, ⟨45, _⟩ => ⟨S1x1, .f32⟩
  | .local _ .vmem, ⟨46, _⟩ => ⟨S10000x1, .f32⟩
  | .local _ .vmem, ⟨47, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_7 : Ref sig .tc := ⟨.hbm, 70, rfl⟩
abbrev main_v45 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg9_0 : Ref sig .tc := ⟨.vmem, 42, rfl⟩
abbrev cc3_stg10_0 : Ref sig .tc := ⟨.vmem, 43, rfl⟩
abbrev cc3_stg11_0 : Ref sig .tc := ⟨.vmem, 44, rfl⟩
abbrev cc3_stg12_0 : Ref sig .tc := ⟨.vmem, 45, rfl⟩
abbrev cc3_stg13_0 : Ref sig .tc := ⟨.vmem, 46, rfl⟩
abbrev cc3_stg13_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem6_0 : DmaSem sig := 27
abbrev cc2_sem6_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem8_0 : DmaSem sig := 41
abbrev cc3_sem9_0 : DmaSem sig := 42
abbrev cc3_sem10_0 : DmaSem sig := 43
abbrev cc3_sem11_0 : DmaSem sig := 44
abbrev cc3_sem12_0 : DmaSem sig := 45
abbrev cc3_sem13_0 : DmaSem sig := 46
abbrev cc3_sem13_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S128x1 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x1 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 2 → Memref sig .tc .vmem S10000x1 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S640000x1_S640000_n_0_0_1_wf : ScatterDims.WF S100000 S640000x1 S640000 [] [0] [0] 1
  dot_S10000x128_S128x128_S10000x128_1_0_0_1_n_n_wf : DotDims.WF S10000x128 S128x128 S10000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S100000x128.size a
  hwx2_6 : ∀ i : grid2.Coords, EltTy.bits .f32 = 32 ∨ (Rect.block (s := S100000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x1.size a ≤ S100000x1.size a
  hwx3_3 : ∀ i : grid3.Coords, EltTy.bits .f32 = 32 ∨ (Rect.block (s := S100000x1) S10000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x128.size a ≤ S128x128.size a
  hwx3_9 : ∀ i : grid3.Coords, EltTy.bits .f32 = 32 ∨ (Rect.block (s := S128x128) S128x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S128x1.size a ≤ S128x1.size a
  hwx3_11 : ∀ i : grid3.Coords, EltTy.bits .f32 = 32 ∨ (Rect.block (s := S128x1) S128x1.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x1.size a ≤ S1x1.size a
  hwx3_12 : ∀ i : grid3.Coords, EltTy.bits .f32 = 32 ∨ (Rect.block (s := S1x1) S1x1.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S10000x1.size a ≤ S100000x1.size a
  hwx3_13 : ∀ i : grid3.Coords, EltTy.bits .f32 = 32 ∨ (Rect.block (s := S100000x1) S10000x1.size (cc3_transform_13 i) (hinb3_13 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S10000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v40) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v13) S10000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v54) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v13) S10000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v55) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg10) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v57) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg12) S128x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v58) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_arg14) S128x1.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v59) S1x1.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v60) S10000x1.size cc3_transform_13 reads3_13 true false 2 stage3_13 sem3_13
    hrank3 hreads3_13 hinb3_13 nbuf3_13 (Memref.isWhole_whole _) hwx3_13 hstage3_13

abbrev win3 : Fin 14 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | ⟨_ + 14, h⟩ => absurd h (Nat.not_lt.2 (Nat.le_add_left _ _))
abbrev spec3 : Fin 14 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S100000x1 : Shape := ⟨2, ![100000, 1]⟩
abbrev S1x128 : Shape := ⟨2, ![1, 128]⟩
abbrev S1x1 : Shape := ⟨2, ![1, 1]⟩

abbrev nBuf : Space → Nat
  | .hbm => 272
  | .vmem => 0
  | .smem => 0
  | _ => 0

abbrev hbmTy0_0 (i : Nat) : BufTy := match i % 128 with
  | 0 => ⟨S100000x128, .f32⟩
  | 1 => ⟨S2x640000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x1, .f32⟩
  | 15 => ⟨S1, .f32⟩
  | 16 => ⟨S1x640000, .i32⟩
  | 17 => ⟨S640000, .i32⟩
  | 18 => ⟨S1x640000, .i32⟩
  | 19 => ⟨S640000, .i32⟩
  | 20 => ⟨S100000x128, .f32⟩
  | 21 => ⟨S_, .f32⟩
  | 22 => ⟨S640000, .f32⟩
  | 23 => ⟨S_, .f32⟩
  | 24 => ⟨S100000, .f32⟩
  | 25 => ⟨S640000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000, .f32⟩
  | 40 => ⟨S_, .i32⟩
  | 41 => ⟨S640000, .i32⟩
  | 42 => ⟨S640000, .i1⟩
  | 43 => ⟨S_, .i32⟩
  | 44 => ⟨S640000, .i32⟩
  | 45 => ⟨S640000, .i32⟩
  | 46 => ⟨S640000, .i32⟩
  | 47 => ⟨S640000x1, .i32⟩
  | 48 => ⟨S640000, .f32⟩
  | 49 => ⟨S640000, .f32⟩
  | 50 => ⟨S_, .i32⟩
  | 51 => ⟨S640000, .i32⟩
  | 52 => ⟨S640000, .i1⟩
  | 53 => ⟨S_, .i32⟩
  | 54 => ⟨S640000, .i32⟩
  | 55 => ⟨S640000, .i32⟩
  | 56 => ⟨S640000, .i32⟩
  | 57 => ⟨S640000x1, .i32⟩
  | 58 => ⟨S640000x128, .f32⟩
  | 59 => ⟨S640000x1, .f32⟩
  | 60 => ⟨S640000x128, .f32⟩
  | 61 => ⟨S640000x128, .f32⟩
  | 62 => ⟨S_, .f32⟩
  | 63 => ⟨S100000x128, .f32⟩
  | 64 => ⟨S640000x1, .i32⟩
  | 65 => ⟨S100000x128, .f32⟩
  | 66 => ⟨S100000, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .f32⟩
  | 79 => ⟨S640000, .f32⟩
  | 80 => ⟨S_, .f32⟩
  | 81 => ⟨S100000, .f32⟩
  | 82 => ⟨S640000x1, .i32⟩
  | 83 => ⟨S100000, .f32⟩
  | 84 => ⟨S_, .f32⟩
  | 85 => ⟨S100000, .f32⟩
  | 86 => ⟨S100000, .f32⟩
  | 87 => ⟨S100000, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000, .f32⟩
  | 97 => ⟨S_, .i32⟩
  | 98 => ⟨S640000, .i32⟩
  | 99 => ⟨S640000, .i1⟩
  | 100 => ⟨S_, .i32⟩
  | 101 => ⟨S640000, .i32⟩
  | 102 => ⟨S640000, .i32⟩
  | 103 => ⟨S640000, .i32⟩
  | 104 => ⟨S640000x1, .i32⟩
  | 105 => ⟨S640000, .f32⟩
  | 106 => ⟨S640000, .f32⟩
  | 107 => ⟨S_, .i32⟩
  | 108 => ⟨S640000, .i32⟩
  | 109 => ⟨S640000, .i1⟩
  | 110 => ⟨S_, .i32⟩
  | 111 => ⟨S640000, .i32⟩
  | 112 => ⟨S640000, .i32⟩
  | 113 => ⟨S640000, .i32⟩
  | 114 => ⟨S640000x1, .i32⟩
  | 115 => ⟨S640000x128, .f32⟩
  | 116 => ⟨S640000x1, .f32⟩
  | 117 => ⟨S640000x128, .f32⟩
  | 118 => ⟨S640000x128, .f32⟩
  | 119 => ⟨S_, .f32⟩
  | 120 => ⟨S100000x128, .f32⟩
  | 121 => ⟨S640000x1, .i32⟩
  | 122 => ⟨S100000x128, .f32⟩
  | 123 => ⟨S100000, .f32⟩
  | 124 => ⟨S100000x1, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S_, .f32⟩
  | 8 => ⟨S640000, .f32⟩
  | 9 => ⟨S_, .f32⟩
  | 10 => ⟨S100000, .f32⟩
  | 11 => ⟨S640000x1, .i32⟩
  | 12 => ⟨S100000, .f32⟩
  | 13 => ⟨S_, .f32⟩
  | 14 => ⟨S100000, .f32⟩
  | 15 => ⟨S100000, .f32⟩
  | 16 => ⟨S100000, .f32⟩
  | 17 => ⟨S_, .i32⟩
  | 18 => ⟨S640000, .i32⟩
  | 19 => ⟨S640000, .i1⟩
  | 20 => ⟨S_, .i32⟩
  | 21 => ⟨S640000, .i32⟩
  | 22 => ⟨S640000, .i32⟩
  | 23 => ⟨S640000, .i32⟩
  | 24 => ⟨S640000x1, .i32⟩
  | 25 => ⟨S640000, .f32⟩
  | 26 => ⟨S_, .i32⟩
  | 27 => ⟨S640000, .i32⟩
  | 28 => ⟨S640000, .i1⟩
  | 29 => ⟨S_, .i32⟩
  | 30 => ⟨S640000, .i32⟩
  | 31 => ⟨S640000, .i32⟩
  | 32 => ⟨S640000, .i32⟩
  | 33 => ⟨S640000x1, .i32⟩
  | 34 => ⟨S640000, .f32⟩
  | 35 => ⟨S640000, .f32⟩
  | 36 => ⟨S_, .i32⟩
  | 37 => ⟨S640000, .i32⟩
  | 38 => ⟨S640000, .i1⟩
  | 39 => ⟨S_, .i32⟩
  | 40 => ⟨S640000, .i32⟩
  | 41 => ⟨S640000, .i32⟩
  | 42 => ⟨S640000, .i32⟩
  | 43 => ⟨S640000x1, .i32⟩
  | 44 => ⟨S640000x128, .f32⟩
  | 45 => ⟨S640000x1, .f32⟩
  | 46 => ⟨S640000x128, .f32⟩
  | 47 => ⟨S640000x128, .f32⟩
  | 48 => ⟨S_, .f32⟩
  | 49 => ⟨S100000x128, .f32⟩
  | 50 => ⟨S640000x1, .i32⟩
  | 51 => ⟨S100000x128, .f32⟩
  | 52 => ⟨S100000, .f32⟩
  | 53 => ⟨S100000x1, .f32⟩
  | 54 => ⟨S100000x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .i1⟩
  | 67 => ⟨S_, .f32⟩
  | 68 => ⟨S100000x128, .f32⟩
  | 69 => ⟨S100000x128, .i1⟩
  | 70 => ⟨S_, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .i1⟩
  | 86 => ⟨S_, .f32⟩
  | 87 => ⟨S100000x128, .f32⟩
  | 88 => ⟨S100000x128, .i1⟩
  | 89 => ⟨S_, .f32⟩
  | 90 => ⟨S_, .f32⟩
  | 91 => ⟨S100000x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .i1⟩
  | 105 => ⟨S_, .f32⟩
  | 106 => ⟨S100000x128, .f32⟩
  | 107 => ⟨S100000x128, .i1⟩
  | 108 => ⟨S_, .f32⟩
  | 109 => ⟨S_, .f32⟩
  | 110 => ⟨S100000x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x128, .f32⟩
  | 117 => ⟨S100000x1, .f32⟩
  | 118 => ⟨S1x1, .f32⟩
  | 119 => ⟨S100000x1, .f32⟩
  | 120 => ⟨S100000x1, .f32⟩
  | 121 => ⟨S_, .f32⟩
  | 122 => ⟨S100000x1, .f32⟩
  | 123 => ⟨S100000x1, .i1⟩
  | 124 => ⟨S_, .f32⟩
  | 125 => ⟨S100000x1, .f32⟩
  | 126 => ⟨S100000x1, .i1⟩
  | 127 => ⟨S_, .f32⟩
  | _ => ⟨S100000x128, .f32⟩

abbrev hbmTy0_2 (i : Nat) : BufTy := match i % 128 with
  | 0 => ⟨S_, .f32⟩
  | 1 => ⟨S100000x1, .f32⟩
  | 2 => ⟨S100000x1, .f32⟩
  | 3 => ⟨S100000x1, .f32⟩
  | 4 => ⟨S_, .f32⟩
  | 5 => ⟨S100000x1, .f32⟩
  | 6 => ⟨S100000x1, .f32⟩
  | 7 => ⟨S100000x1, .f32⟩
  | 8 => ⟨S100000x1, .f32⟩
  | 9 => ⟨S100000x1, .f32⟩
  | 10 => ⟨S_, .f32⟩
  | 11 => ⟨S100000x1, .f32⟩
  | 12 => ⟨S100000x1, .f32⟩
  | 13 => ⟨S_, .f32⟩
  | 14 => ⟨S100000x1, .f32⟩
  | 15 => ⟨S100000x1, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call0_cst : Ref sig .tc := ⟨.hbm, 74, rfl⟩
abbrev main_call0_v0 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_15 : Ref sig .tc := ⟨.hbm, 107, rfl⟩
abbrev main_v72 : Ref sig .tc := ⟨.hbm, 108, rfl⟩
abbrev main_v73 : Ref sig .tc := ⟨.hbm, 109, rfl⟩
abbrev main_c_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_17 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_call1_cst : Ref sig .tc := ⟨.hbm, 131, rfl⟩
abbrev main_call1_v0 : Ref sig .tc := ⟨.hbm, 132, rfl⟩
abbrev main_v93 : Ref sig .tc := ⟨.hbm, 133, rfl⟩
abbrev main_v94 : Ref sig .tc := ⟨.hbm, 134, rfl⟩
abbrev main_cst_18 : Ref sig .tc := ⟨.hbm, 135, rfl⟩
abbrev main_v95 : Ref sig .tc := ⟨.hbm, 136, rfl⟩
abbrev main_cst_19 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_20 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_21 : Ref sig .tc := ⟨.hbm, 145, rfl⟩
abbrev main_v102 : Ref sig .tc := ⟨.hbm, 146, rfl⟩
abbrev main_v103 : Ref sig .tc := ⟨.hbm, 147, rfl⟩
abbrev main_c_22 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_23 : Ref sig .tc := ⟨.hbm, 154, rfl⟩
abbrev main_v109 : Ref sig .tc := ⟨.hbm, 155, rfl⟩
abbrev main_v110 : Ref sig .tc := ⟨.hbm, 156, rfl⟩
abbrev main_c_24 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_25 : Ref sig .tc := ⟨.hbm, 164, rfl⟩
abbrev main_v117 : Ref sig .tc := ⟨.hbm, 165, rfl⟩
abbrev main_v118 : Ref sig .tc := ⟨.hbm, 166, rfl⟩
abbrev main_c_26 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_27 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_call2_cst : Ref sig .tc := ⟨.hbm, 192, rfl⟩
abbrev main_call2_v0 : Ref sig .tc := ⟨.hbm, 193, rfl⟩
abbrev main_call2_v1 : Ref sig .tc := ⟨.hbm, 194, rfl⟩
abbrev main_call2_cst_0 : Ref sig .tc := ⟨.hbm, 195, rfl⟩
abbrev main_call2_v2 : Ref sig .tc := ⟨.hbm, 196, rfl⟩
abbrev main_call2_v3 : Ref sig .tc := ⟨.hbm, 197, rfl⟩
abbrev main_call2_cst_1 : Ref sig .tc := ⟨.hbm, 198, rfl⟩
abbrev main_call2_call0_v0 : Ref sig .tc := ⟨.hbm, 199, rfl⟩
abbrev main_call2_call0_v1 : Ref sig .tc := ⟨.hbm, 200, rfl⟩
abbrev main_call2_v4 : Ref sig .tc := ⟨.hbm, 201, rfl⟩
abbrev main_call2_v5 : Ref sig .tc := ⟨.hbm, 202, rfl⟩
abbrev main_call2_cst_2 : Ref sig .tc := ⟨.hbm, 203, rfl⟩
abbrev main_call2_v6 : Ref sig .tc := ⟨.hbm, 204, rfl⟩
abbrev main_call2_v7 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_call3_cst : Ref sig .tc := ⟨.hbm, 211, rfl⟩
abbrev main_call3_v0 : Ref sig .tc := ⟨.hbm, 212, rfl⟩
abbrev main_call3_v1 : Ref sig .tc := ⟨.hbm, 213, rfl⟩
abbrev main_call3_cst_0 : Ref sig .tc := ⟨.hbm, 214, rfl⟩
abbrev main_call3_v2 : Ref sig .tc := ⟨.hbm, 215, rfl⟩
abbrev main_call3_v3 : Ref sig .tc := ⟨.hbm, 216, rfl⟩
abbrev main_call3_cst_1 : Ref sig .tc := ⟨.hbm, 217, rfl⟩
abbrev main_call3_call0_v0 : Ref sig .tc := ⟨.hbm, 218, rfl⟩
abbrev main_call3_call0_v1 : Ref sig .tc := ⟨.hbm, 219, rfl⟩
abbrev main_call3_v4 : Ref sig .tc := ⟨.hbm, 220, rfl⟩
abbrev main_call3_v5 : Ref sig .tc := ⟨.hbm, 221, rfl⟩
abbrev main_call3_cst_2 : Ref sig .tc := ⟨.hbm, 222, rfl⟩
abbrev main_call3_v6 : Ref sig .tc := ⟨.hbm, 223, rfl⟩
abbrev main_call3_v7 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_call4_cst : Ref sig .tc := ⟨.hbm, 230, rfl⟩
abbrev main_call4_v0 : Ref sig .tc := ⟨.hbm, 231, rfl⟩
abbrev main_call4_v1 : Ref sig .tc := ⟨.hbm, 232, rfl⟩
abbrev main_call4_cst_0 : Ref sig .tc := ⟨.hbm, 233, rfl⟩
abbrev main_call4_v2 : Ref sig .tc := ⟨.hbm, 234, rfl⟩
abbrev main_call4_v3 : Ref sig .tc := ⟨.hbm, 235, rfl⟩
abbrev main_call4_cst_1 : Ref sig .tc := ⟨.hbm, 236, rfl⟩
abbrev main_call4_call0_v0 : Ref sig .tc := ⟨.hbm, 237, rfl⟩
abbrev main_call4_call0_v1 : Ref sig .tc := ⟨.hbm, 238, rfl⟩
abbrev main_call4_v4 : Ref sig .tc := ⟨.hbm, 239, rfl⟩
abbrev main_call4_v5 : Ref sig .tc := ⟨.hbm, 240, rfl⟩
abbrev main_call4_cst_2 : Ref sig .tc := ⟨.hbm, 241, rfl⟩
abbrev main_call4_v6 : Ref sig .tc := ⟨.hbm, 242, rfl⟩
abbrev main_call4_v7 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_v156 : Ref sig .tc := ⟨.hbm, 248, rfl⟩
abbrev main_call5_cst : Ref sig .tc := ⟨.hbm, 249, rfl⟩
abbrev main_call5_v0 : Ref sig .tc := ⟨.hbm, 250, rfl⟩
abbrev main_call5_v1 : Ref sig .tc := ⟨.hbm, 251, rfl⟩
abbrev main_call5_cst_0 : Ref sig .tc := ⟨.hbm, 252, rfl⟩
abbrev main_call5_v2 : Ref sig .tc := ⟨.hbm, 253, rfl⟩
abbrev main_call5_v3 : Ref sig .tc := ⟨.hbm, 254, rfl⟩
abbrev main_call5_cst_1 : Ref sig .tc := ⟨.hbm, 255, rfl⟩
abbrev main_call5_call0_v0 : Ref sig .tc := ⟨.hbm, 256, rfl⟩
abbrev main_call5_call0_v1 : Ref sig .tc := ⟨.hbm, 257, rfl⟩
abbrev main_call5_v4 : Ref sig .tc := ⟨.hbm, 258, rfl⟩
abbrev main_call5_v5 : Ref sig .tc := ⟨.hbm, 259, rfl⟩
abbrev main_call5_cst_2 : Ref sig .tc := ⟨.hbm, 260, rfl⟩
abbrev main_call5_v6 : Ref sig .tc := ⟨.hbm, 261, rfl⟩
abbrev main_call5_v7 : Ref sig .tc := ⟨.hbm, 262, rfl⟩
abbrev main_v157 : Ref sig .tc := ⟨.hbm, 263, rfl⟩
abbrev main_v158 : Ref sig .tc := ⟨.hbm, 264, rfl⟩
abbrev main_v159 : Ref sig .tc := ⟨.hbm, 265, rfl⟩
abbrev main_cst_28 : Ref sig .tc := ⟨.hbm, 266, rfl⟩
abbrev main_v160 : Ref sig .tc := ⟨.hbm, 267, rfl⟩
abbrev main_v161 : Ref sig .tc := ⟨.hbm, 268, rfl⟩
abbrev main_cst_29 : Ref sig .tc := ⟨.hbm, 269, rfl⟩
abbrev main_v162 : Ref sig .tc := ⟨.hbm, 270, rfl⟩
abbrev main_v163 : Ref sig .tc := ⟨.hbm, 271, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x1_S100000x1_1_0_0_1_n_n_wf : DotDims.WF S100000x128 S128x1 S100000x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.Math.lean ====
/-
  The mathematics of the network, entry by entry, over the extended reals.

  A graph-convolution layer leaves at node `r`, feature `c`
    A (r, c) · d r + H (r, c) · d2 r + b c
  where `A` is the neighbourhood sum, `H` the projected features, `d` and `d2` one number per node (columns of
  width one) and `b` one number per feature (a row of height one): `comb`.  The dense tail adds a bias row to a
  matrix product (`bias`), applies the exponential linear unit `x ↦ x` for `x > 0`, `eˣ − 1` otherwise, written with
  `min x 0` under the exponential (`elu`), and ends in `1 / (1 + e^(−x))` (`sigm`).

  Every one of these acts on each row by itself: the rows `ρ 0, ρ 1, …` of the result are the result of the same
  function at those rows of the row-indexed operands (`rowsBy`), the bias rows and the right factors of the
  products unchanged.  That is what lets a program that works on a block of rows at a time be compared with one
  that works on all rows at once.
-/
import proofs.«142762_j63788854280505_2_alg».proof.Proof.LibMatProd

noncomputable section

open scoped BigOperators

namespace Cert.Gcn

open Idealize.ShloMosaic Idealize.ShloMosaic.ValueIdx Cert.Linear

variable {R r C K : Nat}

/-- The combine of a graph convolution: `A · d + H · d2 + b`, `d`, `d2` per row and `b` per column. -/
def comb (A H : (Mat R C).Idx → EReal) (d d2 : (Mat R 1).Idx → EReal) (b : (Mat 1 C).Idx → EReal) :
    (Mat R C).Idx → EReal :=
  fun i => A i * d (ix2 (n0 := R) (n1 := 1) (i 0) 0) + H i * d2 (ix2 (n0 := R) (n1 := 1) (i 0) 0)
    + b (ix2 (n0 := 1) (n1 := C) 0 (i 1))

/-- The positive part, entry by entry. -/
def relu (h : (Mat R C).Idx → EReal) : (Mat R C).Idx → EReal := fun i => max (h i) 0

/-- A row `b` added to every row of `h`. -/
def bias (h : (Mat R C).Idx → EReal) (b : (Mat 1 C).Idx → EReal) : (Mat R C).Idx → EReal :=
  fun i => h i + b (ix2 (n0 := 1) (n1 := C) 0 (i 1))

/-- The exponential linear unit: `x` where `x > 0`, `e^(min x 0) − 1` elsewhere. -/
def elu (h : (Mat R C).Idx → EReal) : (Mat R C).Idx → EReal :=
  fun i => Scalar.select (Ideal.cmp .ogt (h i) 0) (h i) (Ideal.exp (min (h i) 0) - 1)

/-- The logistic function written as a quotient: `1 / (1 + e^(0 − x))`. -/
def sigm (h : (Mat R C).Idx → EReal) : (Mat R C).Idx → EReal :=
  fun i => Ideal.div 1 (1 + Ideal.exp (0 - h i))

/-- A hidden convolution layer followed by the next layer's projection: `relu (A·d + H·d2 + b) · W`. -/
def convNext (A H : (Mat R C).Idx → EReal) (d d2 : (Mat R 1).Idx → EReal) (b : (Mat 1 C).Idx → EReal)
    (W : (Mat C K).Idx → EReal) : (Mat R K).Idx → EReal :=
  matProd (relu (comb A H d d2 b)) W

/-- The last convolution (no positive part) followed by the four dense layers and the logistic function. -/
def tail (A H : (Mat R C).Idx → EReal) (d d2 : (Mat R 1).Idx → EReal) (gb : (Mat 1 C).Idx → EReal)
    (W0 : (Mat C C).Idx → EReal) (b0 : (Mat 1 C).Idx → EReal) (W1 : (Mat C C).Idx → EReal) (b1 : (Mat 1 C).Idx → EReal)
    (W2 : (Mat C C).Idx → EReal) (b2 : (Mat 1 C).Idx → EReal) (W3 : (Mat C 1).Idx → EReal) (b3 : (Mat 1 1).Idx → EReal) :
    (Mat R 1).Idx → EReal :=
  sigm (elu (bias (matProd (elu (bias (matProd (elu (bias (matProd (elu (bias (matProd (comb A H d d2 gb) W0) b0)) W1) b1))
    W2) b2)) W3) b3))

/-! ## Rows -/

/-- The rows `ρ 0, ρ 1, …` of a matrix, as a matrix of `r` rows. -/
def rowsBy (ρ : Fin r → Fin R) (x : (Mat R C).Idx → EReal) : (Mat r C).Idx → EReal :=
  fun y => x (ix2 (n0 := R) (n1 := C) (ρ (y 0)) (y 1))

theorem comb_rows (ρ : Fin r → Fin R) (A H : (Mat R C).Idx → EReal) (d d2 : (Mat R 1).Idx → EReal)
    (b : (Mat 1 C).Idx → EReal) :
    comb (rowsBy ρ A) (rowsBy ρ H) (rowsBy ρ d) (rowsBy ρ d2) b = rowsBy ρ (comb A H d d2 b) := rfl

theorem relu_rows (ρ : Fin r → Fin R) (h : (Mat R C).Idx → EReal) : relu (rowsBy ρ h) = rowsBy ρ (relu h) := rfl

theorem bias_rows (ρ : Fin r → Fin R) (h : (Mat R C).Idx → EReal) (b : (Mat 1 C).Idx → EReal) :
    bias (rowsBy ρ h) b = rowsBy ρ (bias h b) := rfl

theorem elu_rows (ρ : Fin r → Fin R) (h : (Mat R C).Idx → EReal) : elu (rowsBy ρ h) = rowsBy ρ (elu h) := rfl

theorem sigm_rows (ρ : Fin r → Fin R) (h : (Mat R C).Idx → EReal) : sigm (rowsBy ρ h) = rowsBy ρ (sigm h) := rfl

/-- A row of a product depends on that row of the left factor only. -/
theorem matProd_rows (ρ : Fin r → Fin R) (X : (Mat R C).Idx → EReal) (W : (Mat C K).Idx → EReal) :
    matProd (rowsBy ρ X) W = rowsBy ρ (matProd X W) := rfl

theorem convNext_rows (ρ : Fin r → Fin R) (A H : (Mat R C).Idx → EReal) (d d2 : (Mat R 1).Idx → EReal)
    (b : (Mat 1 C).Idx → EReal) (W : (Mat C K).Idx → EReal) :
    convNext (rowsBy ρ A) (rowsBy ρ H) (rowsBy ρ d) (rowsBy ρ d2) b W = rowsBy ρ (convNext A H d d2 b W) := rfl

theorem tail_rows (ρ : Fin r → Fin R) (A H : (Mat R C).Idx → EReal) (d d2 : (Mat R 1).Idx → EReal) (gb : (Mat 1 C).Idx → EReal)
    (W0 : (Mat C C).Idx → EReal) (b0 : (Mat 1 C).Idx → EReal) (W1 : (Mat C C).Idx → EReal) (b1 : (Mat 1 C).Idx → EReal)
    (W2 : (Mat C C).Idx → EReal) (b2 : (Mat 1 C).Idx → EReal) (W3 : (Mat C 1).Idx → EReal) (b3 : (Mat 1 1).Idx → EReal) :
    tail (rowsBy ρ A) (rowsBy ρ H) (rowsBy ρ d) (rowsBy ρ d2) gb W0 b0 W1 b1 W2 b2 W3 b3
      = rowsBy ρ (tail A H d d2 gb W0 b0 W1 b1 W2 b2 W3 b3) := rfl

end Cert.Gcn

end
-- ==== Proof.KStages.lean ====
/-
  The kernel program's host side as named stages, and the whole program's result over them.

  Around its four kernels the program computes, with the host's operations: the two rows of the edge list, the
  in-degree scale `dinv = 1 / sqrt (1 + in-degree)` and its square as vectors and as columns (`dcol`, `d2col`), and
  before each of the last three kernels the neighbourhood sum `agg xw s d` of the rows `xw · dinv` gathered along the
  edges' sources and scattered to their targets.  The kernels then compute, a block of rows at a time, the first
  projection (`matProd`), two hidden layers (`convNext`) and the last layer with the dense tail (`tail`).
-/
import proofs.«142762_j63788854280505_2_alg».proof.KernelIdeal
import proofs.«142762_j63788854280505_2_alg».proof.Proof.Math
import Idealize.ShloMosaic.PureOps.Ideal

noncomputable section

namespace Cert.KernelIdeal.Stg

open Cert.KernelIdeal Idealize.ShloMosaic

variable [Facts]
open Facts₀ Facts

abbrev XV := FVec Ideal S100000x128 .f32
abbrev YV := FVec Ideal S100000x1 .f32
abbrev WV := FVec Ideal S128x128 .f32
abbrev BV := FVec Ideal S128 .f32
abbrev EV := IVec S640000 32
abbrev EI := IVec S2x640000 32

def zeroS : FVec Ideal S_ .f32 := constant (F := Ideal) S_ .f32 0x00000000#32
def oneS : FVec Ideal S_ .f32 := constant (F := Ideal) S_ .f32 0x3F800000#32

def srcV (ei : EI) : EV :=
  shapeCast S640000 (extractStridedSlice S1x640000 ![0, 0] ei slices_S2x640000_S1x640000_0_0) shapeCasts_S1x640000_S640000
def dstV (ei : EI) : EV :=
  shapeCast S640000 (extractStridedSlice S1x640000 ![1, 0] ei slices_S2x640000_S1x640000_1_0) shapeCasts_S1x640000_S640000

def col (v : EV) : IVec S640000x1 32 := broadcastInDim S640000x1 ![0] bcast_S640000_S640000x1_0 v

def wrapCol (v : EV) : IVec S640000x1 32 :=
  col (select (cmpi .slt v (broadcastInDim S640000 ![] bcast_S_S640000 (constantI S_ 32 0#32)))
    (addi v (broadcastInDim S640000 ![] bcast_S_S640000 (constantI S_ 32 100000#32))) v)

def dinv (d : EV) : FVec Ideal S100000 .f32 :=
  Host.rsqrt (addf
    (Host.scatterAdd scatter_S100000_S640000x1_S640000_n_0_0_1 (broadcastInDim S100000 ![] bcast_S_S100000 zeroS) (col d)
      (broadcastInDim S640000 ![] bcast_S_S640000 oneS))
    (broadcastInDim S100000 ![] bcast_S_S100000 oneS))

def dcol (d : EV) : YV := shapeCast S100000x1 (dinv d) shapeCasts_S100000_S100000x1
def d2col (d : EV) : YV := shapeCast S100000x1 (mulf (dinv d) (dinv d)) shapeCasts_S100000_S100000x1

/-- The neighbourhood sum: rows of `xw` scaled by `dinv`, gathered along the sources, summed at the targets. -/
def agg (xw : XV) (s d : EV) : XV :=
  Host.scatterAdd scatter_S100000x128_S640000x1_S640000x128_1_0_0_1
    (broadcastInDim S100000x128 ![] bcast_S_S100000x128 zeroS) (col d)
    (Host.gather gather_S100000x128_S640000x1_S640000x128_1_0_n_n_0_1_1128
      (mulf xw (broadcastInDim S100000x128 ![0, 1] bcast_S100000x1_S100000x128_0_1 (dcol d))) (wrapCol s))

def brow (b : BV) : FVec Ideal S1x128 .f32 := shapeCast S1x128 b shapeCasts_S128_S1x128
def b11 (b : FVec Ideal S1 .f32) : FVec Ideal S1x1 .f32 := shapeCast S1x1 b shapeCasts_S1_S1x1

/-- The program's result as one function of its sixteen arguments. -/
def kerOut (x : XV) (ei : EI) (w0 : WV) (b0 : BV) (w1 : WV) (b1 : BV) (w2 : WV) (b2 : BV)
    (lw0 : WV) (lb0 : BV) (lw1 : WV) (lb1 : BV) (lw2 : WV) (lb2 : BV) (lw3 : FVec Ideal S128x1 .f32) (lb3 : FVec Ideal S1 .f32) : YV :=
  let s := srcV ei
  let d := dstV ei
  let xw0 : XV := Cert.Linear.matProd x w0
  let xw1 : XV := Cert.Gcn.convNext (agg xw0 s d) xw0 (dcol d) (d2col d) (brow b0) w1
  let xw2 : XV := Cert.Gcn.convNext (agg xw1 s d) xw1 (dcol d) (d2col d) (brow b1) w2
  Cert.Gcn.tail (agg xw2 s d) xw2 (dcol d) (d2col d) (brow b2) lw0 (brow lb0) lw1 (brow lb1) lw2 (brow lb2) lw3 (b11 lb3)

end Cert.KernelIdeal.Stg

end
-- ==== Proof.KHost.lean ====
/-
  What the program's four stretches of host operations leave, each read for an arbitrary valuation of the buffers
  before the stretch: the edge list's rows and the in-degree scale (first stretch); the neighbourhood sum of the
  previous kernel's result and the bias as a row (second and third); the same and the dense layers' biases as rows
  (fourth).
-/
import proofs.«142762_j63788854280505_2_alg».proof.Proof.Gen.KernelIdeal.Launch
import proofs.«142762_j63788854280505_2_alg».proof.Proof.KStages
import Idealize.ShloMosaic.Lib.StableHlo.Run

set_option maxRecDepth 16384

noncomputable section

namespace Cert.KernelIdeal.HostRead

open Cert.KernelIdeal Cert.KernelIdeal.Gen Cert.KernelIdeal.Stg Idealize.ShloMosaic Idealize.ShloMosaic.TcCoe Idealize.SL.Sem
open Idealize.ShloMosaic.StableHlo

/-- The neighbourhood sum with the in-degree column given: `Stg.agg` is this at `Stg.dcol d`. -/
def aggAt (xw : XV) (dc : YV) (s d : EV) : XV :=
  Host.scatterAdd scatter_S100000x128_S640000x1_S640000x128_1_0_0_1
    (broadcastInDim S100000x128 ![] bcast_S_S100000x128 zeroS) (col d)
    (Host.gather gather_S100000x128_S640000x1_S640000x128_1_0_n_n_0_1_1128
      (mulf xw (broadcastInDim S100000x128 ![0, 1] bcast_S100000x1_S100000x128_0_1 dc)) (wrapCol s))

theorem agg_eq (xw : XV) (s d : EV) : Stg.agg xw s d = aggAt xw (Stg.dcol d) s d := rfl

variable (W : Valuation τ sig (Elt Ideal))

set_option maxHeartbeats 1000000

attribute [local irreducible] Host.scatterAdd Host.gather

/-! ## The first stretch -/

theorem h0_v1 : after (hostOps0 (F := Ideal)) W (Proc.devRef .tc main_v1) = srcV (W (Proc.devRef .tc main_arg1)) := by
  dsimp only [hostOps0]; after_results_simp; rfl
theorem h0_v3 : after (hostOps0 (F := Ideal)) W (Proc.devRef .tc main_v3) = dstV (W (Proc.devRef .tc main_arg1)) := by
  dsimp only [hostOps0]; after_results_simp; rfl
theorem h0_v12 : after (hostOps0 (F := Ideal)) W (Proc.devRef .tc main_v12) = dcol (dstV (W (Proc.devRef .tc main_arg1))) := by
  dsimp only [hostOps0]; after_results_simp; rfl
theorem h0_v13 : after (hostOps0 (F := Ideal)) W (Proc.devRef .tc main_v13) = d2col (dstV (W (Proc.devRef .tc main_arg1))) := by
  dsimp only [hostOps0]; after_results_simp; rfl

/-! ## The second stretch -/

theorem h1_v26 : after (hostOps1 (F := Ideal)) W (Proc.devRef .tc main_v26)
    = aggAt (W (Proc.devRef .tc main_v14)) (W (Proc.devRef .tc main_v12)) (W (Proc.devRef .tc main_v1)) (W (Proc.devRef .tc main_v3)) := by
  dsimp only [hostOps1]; after_results_simp; rfl
theorem h1_v27 : after (hostOps1 (F := Ideal)) W (Proc.devRef .tc main_v27) = brow (W (Proc.devRef .tc main_arg3)) := by
  dsimp only [hostOps1]; after_results_simp; rfl

/-! ## The third stretch -/

theorem h2_v40 : after (hostOps2 (F := Ideal)) W (Proc.devRef .tc main_v40)
    = aggAt (W (Proc.devRef .tc main_v28)) (W (Proc.devRef .tc main_v12)) (W (Proc.devRef .tc main_v1)) (W (Proc.devRef .tc main_v3)) := by
  dsimp only [hostOps2]; after_results_simp; rfl
theorem h2_v41 : after (hostOps2 (F := Ideal)) W (Proc.devRef .tc main_v41) = brow (W (Proc.devRef .tc main_arg5)) := by
  dsimp only [hostOps2]; after_results_simp; rfl

/-! ## The fourth stretch -/

theorem h3_v54 : after (hostOps3 (F := Ideal)) W (Proc.devRef .tc main_v54)
    = aggAt (W (Proc.devRef .tc main_v42)) (W (Proc.devRef .tc main_v12)) (W (Proc.devRef .tc main_v1)) (W (Proc.devRef .tc main_v3)) := by
  dsimp only [hostOps3]; after_results_simp; rfl
theorem h3_v55 : after (hostOps3 (F := Ideal)) W (Proc.devRef .tc main_v55) = brow (W (Proc.devRef .tc main_arg7)) := by
  dsimp only [hostOps3]; after_results_simp; rfl
theorem h3_v56 : after (hostOps3 (F := Ideal)) W (Proc.devRef .tc main_v56) = brow (W (Proc.devRef .tc main_arg9)) := by
  dsimp only [hostOps3]; after_results_simp; rfl
theorem h3_v57 : after (hostOps3 (F := Ideal)) W (Proc.devRef .tc main_v57) = brow (W (Proc.devRef .tc main_arg11)) := by
  dsimp only [hostOps3]; after_results_simp; rfl
theorem h3_v58 : after (hostOps3 (F := Ideal)) W (Proc.devRef .tc main_v58) = brow (W (Proc.devRef .tc main_arg13)) := by
  dsimp only [hostOps3]; after_results_simp; rfl
theorem h3_v59 : after (hostOps3 (F := Ideal)) W (Proc.devRef .tc main_v59) = b11 (W (Proc.devRef .tc main_arg15)) := by
  dsimp only [hostOps3]; after_results_simp; rfl

end Cert.KernelIdeal.HostRead

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«142762_j63788854280505_2_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.KReg0.lean ====
/-
  The first kernel: one matrix product, a block of 10000 rows at each of ten grid points.

  At point `t` the body multiplies rows `10000·t … 10000·t + 9999` of the left array by the whole right array and
  writes the product to the same rows of the result.  A row of a product depends on that row of the left factor
  only, so what the ten points leave is the product of the two whole arrays.
-/
import proofs.«142762_j63788854280505_2_alg».proof.Proof.Gen.KernelIdeal.Frame
import proofs.«142762_j63788854280505_2_alg».proof.Proof.Math
import proofs.«142762_j63788854280505_2_alg».proof.Proof.LibDotLists
import Idealize.ShloMosaic.Lib.Pipeline.Value

set_option maxRecDepth 16384

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row `y` of block `t` is row `10000·t + y` of the array. -/
def blockRow (t : Nat) (ht : t < 10) : Fin 10000 → Fin 100000 := fun y => ⟨t * 10000 + y.val, by have := y.isLt; omega⟩

theorem lt0 (t : Fin cfg0.N) : t.val < 10 := by have h := t.isLt; have e : cfg0.N = 10 := N_0; omega

/-- The body's one value is the product of its two loaded blocks. -/
theorem pay0 (x0 : Vec Ideal S10000x128 .f32) (x1 : Vec Ideal S128x128 .f32) :
    k0_pay1 x0 x1 = Cert.Linear.matProd x0 x1 :=
  Cert.Linear.matmul_zero_eq (Cert.Linear.contracts_of_lists _ rfl rfl rfl rfl rfl rfl) (some .fp32) x0 x1

/-- The printed index maps over the grid: the row-blocked windows are at block `(t, 0)`, the right factor at `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem read0_0 (t : Fin cfg0.N) (G : S100000x128.Idx → EReal) :
    ((cfg0.win 0).blk t).view.read (Elt Ideal) G = Cert.Gcn.rowsBy (blockRow t.val (lt0 t)) G := by
  obtain ⟨e0, e1, -, -, -, -⟩ := idx0 t
  funext y
  rw [View.read_apply]
  show G (((cfg0.win 0).blk t).view.emb y) = G (ix2 (blockRow t.val (lt0 t) (y 0)) (y 1))
  congr 1
  funext a; apply Fin.ext
  match a with
  | ⟨0, _⟩ => show win0_0.index t (0 : Fin 2) * 10000 + 1 * (y 0).val = t.val * 10000 + (y 0).val; rw [e0]; omega
  | ⟨1, _⟩ => show win0_0.index t (1 : Fin 2) * 128 + 1 * (y 1).val = (y 1).val; rw [e1]; omega

theorem read0_1 (t : Fin cfg0.N) (G : S128x128.Idx → EReal) :
    ((cfg0.win 1).blk t).view.read (Elt Ideal) G = G := by
  obtain ⟨-, -, e0, e1, -, -⟩ := idx0 t
  funext y
  rw [View.read_apply]
  show G (((cfg0.win 1).blk t).view.emb y) = G y
  congr 1
  funext a; apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

theorem read0_2 (t : Fin cfg0.N) (G : S100000x128.Idx → EReal) :
    ((cfg0.win 2).blk t).view.read (Elt Ideal) G = Cert.Gcn.rowsBy (blockRow t.val (lt0 t)) G := by
  obtain ⟨-, -, -, -, e0, e1⟩ := idx0 t
  funext y
  rw [View.read_apply]
  show G (((cfg0.win 2).blk t).view.emb y) = G (ix2 (blockRow t.val (lt0 t) (y 0)) (y 1))
  congr 1
  funext a; apply Fin.ext
  match a with
  | ⟨0, _⟩ => show win0_2.index t (0 : Fin 2) * 10000 + 1 * (y 0).val = t.val * 10000 + (y 0).val; rw [e0]; omega
  | ⟨1, _⟩ => show win0_2.index t (1 : Fin 2) * 128 + 1 * (y 1).val = (y 1).val; rw [e1]; omega

/-- What point `t` writes back is block `t` of the product of the two arrays as the region finds them. -/
theorem flushed0 (c : Dev nD) (t : Fin cfg0.N) :
    (dat0 V c).flushed 2 t = ((cfg0.win 2).blk t).view.read (Elt Ideal)
      (Cert.Linear.matProd (V c main_arg0 : S100000x128.Idx → EReal) (V c main_arg2 : S128x128.Idx → EReal)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  rw [pay0, read0_2]
  have h0 : iblk0 V c 0 t = Cert.Gcn.rowsBy (blockRow t.val (lt0 t)) (V c main_arg0 : S100000x128.Idx → EReal) := read0_0 t _
  have h1 : iblk0 V c 1 t = (V c main_arg2 : S128x128.Idx → EReal) := read0_1 t _
  rw [h0, h1]
  exact Cert.Gcn.matProd_rows _ _ _

/-- Every row of the result array is in some point's block. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 10000, by have e : cfg0.N = 10 := N_0; omega⟩
  obtain ⟨-, -, -, -, e0, e1⟩ := idx0 t
  refine ⟨t, flush0_2 t, ?_⟩
  show i ∈ ((View.whole main_v14).slice (win0_2.rect t)).set
  rw [View.set_slice_whole, Rect.mem_set_unit]
  intro a
  match a with
  | ⟨0, _⟩ =>
    show win0_2.index t (0 : Fin 2) * 10000 ≤ (i 0).val ∧ (i 0).val < win0_2.index t (0 : Fin 2) * 10000 + 10000
    rw [e0]; show (i 0).val / 10000 * 10000 ≤ (i 0).val ∧ (i 0).val < (i 0).val / 10000 * 10000 + 10000; omega
  | ⟨1, _⟩ =>
    show win0_2.index t (1 : Fin 2) * 128 ≤ (i 1).val ∧ (i 1).val < win0_2.index t (1 : Fin 2) * 128 + 128
    rw [e1]; omega

/-- The result array after the region: the product of the two arrays. -/
theorem final0 (c : Dev nD) :
    (dat0 V c).arrAt 2 cfg0.N
      = Cert.Linear.matProd (V c main_arg0 : S100000x128.Idx → EReal) (V c main_arg2 : S128x128.Idx → EReal) :=
  (dat0 V c).arrAt_eq_of_cover 2 _ (fun t _ => flushed0 V c t) cover0

end Cert.KernelIdeal.Reg

end
-- ==== Proof.LibSelfLoop.lean ====
/-
  GENERAL LEMMAS: a graph convolution's self-loop combine, and a bias row added to every row, each written two ways.

  * `selfLoopMax A H D B z`: entry `(r, q)` is `max ((A (r, q) + H (r, q) · D (r, 0)) + B (0, q)) z` — an aggregated
    message matrix `A`, the node's own features `H` scaled by a per-row factor held as an `R × 1` column `D`, a
    `1 × K` bias row `B`, and the maximum with a constant `z`. `selfLoopMax_of_vector_ops` reads a kernel body's
    vector operations (each operand first cast to its own shape, the column and the row broadcast to the block) as it;
    `selfLoopMax_of_host_ops` reads the host's spelling (the column and a length-`K` bias vector spread by
    `broadcast_in_dim`, the constant splat) as it, at the vector reshaped to one row.
  * `rowBias A B`: entry `(r, q)` is `A (r, q) + B (0, q)`; `rowBias_of_vector_ops` and `rowBias_of_host_ops` read
    the two spellings of a bias added to every row.
  * `broadcastTo_a1_ab_apply`, `broadcastInDim_a1_ab_apply`, `broadcastInDim_b_1b_apply`,
    `broadcastInDim_1b_ab_apply`, `broadcastInDim_scalar_apply`: the layout forms these use, read at an index.

  Everything is over the extended reals with no finiteness hypothesis: the two spellings are the same expression entry
  by entry. Imports the library only.
-/
import Idealize.ShloMosaic.PureOps.Ideal.Laws
import Idealize.ShloMosaic.Lib.ValueIdx
import Idealize.ShloMosaic.Lib.ValueLayout
import Idealize.ShloMosaic.Lib.Pipeline.Value

noncomputable section

namespace Cert.SelfLoop

open Idealize.ShloMosaic Idealize.ShloMosaic.ValueIdx

/-- The shape of a matrix of `a` rows and `b` columns. -/
abbrev Mat (a b : Nat) : Shape := ⟨2, ![a, b]⟩
/-- The shape of a vector of `a` entries. -/
abbrev Vc (a : Nat) : Shape := ⟨1, ![a]⟩
/-- The shape of a scalar. -/
abbrev Sc : Shape := ⟨0, ![]⟩

variable {α : Type}

/-- An `[a, 1]` column broadcast to `[a, b]` reads, at `(p, q)`, the column's entry of row `p`. -/
theorem broadcastTo_a1_ab_apply {a b : ℕ} (v : (Mat a 1).Idx → α) (h : (Mat a 1).Broadcasts (Mat a b))
    (p : Fin a) (q : Fin b) : broadcastTo (Mat a b) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a, 1]` column to `[a, b]` along both axes reads, at `(p, q)`, the column's
    entry of row `p`. -/
theorem broadcastInDim_a1_ab_apply {a b : ℕ} (v : (Mat a 1).Idx → α) (h : (Mat a 1).BroadcastsInDim (Mat a b) ![0, 1])
    (p : Fin a) (q : Fin b) : broadcastInDim (Mat a b) ![0, 1] h v (ix2 p q) = v (ix2 p (0 : Fin 1)) :=
  broadcastInDim_apply ![0, 1] h v (ix2 p q) (ix2 p (0 : Fin 1)) fun ax => by
    match ax with
    | ⟨0, _⟩ =>
      show p.val = if a = 1 then 0 else p.val
      split
      · have := p.isLt; omega
      · rfl
    | ⟨1, _⟩ => rfl

/-- The host's `broadcast_in_dim` of a length-`b` vector to one row `[1, b]` reads, at `(0, q)`, the vector at `q`. -/
theorem broadcastInDim_b_1b_apply {b : ℕ} (v : (Vc b).Idx → α) (h : (Vc b).BroadcastsInDim (Mat 1 b) ![1])
    (q : Fin b) : broadcastInDim (Mat 1 b) ![1] h v (ix2 (0 : Fin 1) q) = v (ix1 q) :=
  broadcastInDim_apply ![1] h v (ix2 (0 : Fin 1) q) (ix1 q) fun ax => by
    match ax with
    | ⟨0, _⟩ =>
      show q.val = if b = 1 then 0 else q.val
      split
      · have := q.isLt; omega
      · rfl

/-- The host's `broadcast_in_dim` of one row `[1, b]` to `[a, b]` along both axes reads, at `(p, q)`, the row at `q`. -/
theorem broadcastInDim_1b_ab_apply {a b : ℕ} (v : (Mat 1 b).Idx → α) (h : (Mat 1 b).BroadcastsInDim (Mat a b) ![0, 1])
    (p : Fin a) (q : Fin b) : broadcastInDim (Mat a b) ![0, 1] h v (ix2 p q) = v (ix2 (0 : Fin 1) q) :=
  broadcastInDim_apply ![0, 1] h v (ix2 p q) (ix2 (0 : Fin 1) q) fun ax => by
    match ax with
    | ⟨0, _⟩ => rfl
    | ⟨1, _⟩ =>
      show q.val = if b = 1 then 0 else q.val
      split
      · have := q.isLt; omega
      · rfl

/-- The host's splat of a scalar reads, at any index, the scalar. -/
theorem broadcastInDim_scalar_apply {t : Shape} (v : Sc.Idx → α) (h : Sc.BroadcastsInDim t ![]) (j : t.Idx) :
    broadcastInDim t ![] h v j = v ix0 :=
  broadcastInDim_apply ![] h v j ix0 fun ax => ax.elim0

/-! ## The self-loop combine -/

/-- `max ((A + H · D) + B) z`, entry by entry: `D` an `R × 1` column read at the entry's row, `B` a `1 × K` row
    read at the entry's column. -/
def selfLoopMax {R K : Nat} (A H : (Mat R K).Idx → EReal) (D : (Mat R 1).Idx → EReal) (B : (Mat 1 K).Idx → EReal) (z : EReal) :
    (Mat R K).Idx → EReal :=
  fun i => max ((A i + H i * D (ix2 (n0 := R) (n1 := 1) (i 0) 0)) + B (ix2 (n0 := 1) (n1 := K) 0 (i 1))) z

/-- A kernel body's vector operations `max ((a + h · broadcast d) + broadcast b) (splat z)` over `R × K` blocks `a`,
    `h`, an `R × 1` column `d` and a `1 × K` row `b` (each first cast to its own shape) are `selfLoopMax`. -/
theorem selfLoopMax_of_vector_ops {R K : Nat} (a h : FVec Ideal (Mat R K) .f32) (d : FVec Ideal (Mat R 1) .f32)
    (b : FVec Ideal (Mat 1 K) .f32) (z : Ideal .f32)
    (h1 : (Mat R K).ShapeCasts (Mat R K)) (h2 : (Mat R 1).ShapeCasts (Mat R 1)) (h3 : (Mat R 1).Broadcasts (Mat R K))
    (h4 : (Mat 1 K).ShapeCasts (Mat 1 K)) (h5 : (Mat 1 K).Broadcasts (Mat R K)) :
    maximumf (addf (addf (shapeCast (Mat R K) a h1)
        (mulf (shapeCast (Mat R K) h h1) (broadcastTo (Mat R K) (shapeCast (Mat R 1) d h2) h3)))
        (broadcastTo (Mat R K) (shapeCast (Mat 1 K) b h4) h5)) (broadcast (Mat R K) z)
      = selfLoopMax a h d b z := by
  rw [shapeCast_self, shapeCast_self, shapeCast_self, shapeCast_self]
  funext i
  obtain ⟨p, q, rfl⟩ : ∃ (p : Fin R) (q : Fin K), i = ix2 p q := ⟨i 0, i 1, eq_ix2 i⟩
  show max ((a (ix2 p q) + h (ix2 p q) * broadcastTo (Mat R K) d h3 (ix2 p q)) + broadcastTo (Mat R K) b h5 (ix2 p q)) z
    = max ((a (ix2 p q) + h (ix2 p q) * d (ix2 p (0 : Fin 1))) + b (ix2 (0 : Fin 1) q)) z
  rw [broadcastTo_a1_ab_apply d h3 p q, broadcastTo_1b_ab_apply b h5 p q]

/-- The host's spelling — the column spread over the columns and a length-`K` bias vector made a row and then `R` rows
    by `broadcast_in_dim`s, the sums, and the maximum with a splat constant — is `selfLoopMax` at the vector reshaped to
    one row. -/
theorem selfLoopMax_of_host_ops {R K : Nat} (A H : FVec Ideal (Mat R K) .f32) (D : FVec Ideal (Mat R 1) .f32)
    (b : FVec Ideal (Vc K) .f32) (zb : BitVec 32)
    (h1 : (Mat R 1).BroadcastsInDim (Mat R K) ![0, 1]) (h2 : (Vc K).BroadcastsInDim (Mat 1 K) ![1])
    (h3 : (Mat 1 K).BroadcastsInDim (Mat R K) ![0, 1]) (h4 : Sc.BroadcastsInDim (Mat R K) ![])
    (h5 : (Vc K).ShapeCasts (Mat 1 K)) :
    maximumf (addf (addf A (mulf H (broadcastInDim (Mat R K) ![0, 1] h1 D)))
        (broadcastInDim (Mat R K) ![0, 1] h3 (broadcastInDim (Mat 1 K) ![1] h2 b)))
        (broadcastInDim (Mat R K) ![] h4 (constant (F := Ideal) Sc .f32 zb))
      = selfLoopMax A H D (shapeCast (Mat 1 K) b h5) (Ideal.ofBits .f32 zb) := by
  funext i
  obtain ⟨p, q, rfl⟩ : ∃ (p : Fin R) (q : Fin K), i = ix2 p q := ⟨i 0, i 1, eq_ix2 i⟩
  show max ((A (ix2 p q) + H (ix2 p q) * broadcastInDim (Mat R K) ![0, 1] h1 D (ix2 p q))
        + broadcastInDim (Mat R K) ![0, 1] h3 (broadcastInDim (Mat 1 K) ![1] h2 b) (ix2 p q))
      (broadcastInDim (Mat R K) ![] h4 (constant (F := Ideal) Sc .f32 zb) (ix2 p q))
    = max ((A (ix2 p q) + H (ix2 p q) * D (ix2 p (0 : Fin 1))) + shapeCast (Mat 1 K) b h5 (ix2 (0 : Fin 1) q)) (Ideal.ofBits .f32 zb)
  rw [broadcastInDim_a1_ab_apply D h1 p q, broadcastInDim_1b_ab_apply _ h3 p q, broadcastInDim_b_1b_apply b h2 q,
    broadcastInDim_scalar_apply _ h4, shapeCast_a_1a_apply b h5 0 q]
  rfl

/-! ## A bias row added to every row -/

/-- `A + B`, the `1 × K` row `B` added to every row of `A`. -/
def rowBias {R K : Nat} (A : (Mat R K).Idx → EReal) (B : (Mat 1 K).Idx → EReal) : (Mat R K).Idx → EReal :=
  fun i => A i + B (ix2 (n0 := 1) (n1 := K) 0 (i 1))

/-- A kernel body's `x + broadcast b` over an `R × K` block and a `1 × K` row (cast twice to its own shape) is `rowBias`. -/
theorem rowBias_of_vector_ops {R K : Nat} (x : FVec Ideal (Mat R K) .f32) (b : FVec Ideal (Mat 1 K) .f32)
    (h1 h2 : (Mat 1 K).ShapeCasts (Mat 1 K)) (h3 : (Mat 1 K).Broadcasts (Mat R K)) :
    addf x (broadcastTo (Mat R K) (shapeCast (Mat 1 K) (shapeCast (Mat 1 K) b h1) h2) h3) = rowBias x b := by
  rw [shapeCast_self, shapeCast_self]
  funext i
  obtain ⟨p, q, rfl⟩ : ∃ (p : Fin R) (q : Fin K), i = ix2 p q := ⟨i 0, i 1, eq_ix2 i⟩
  show x (ix2 p q) + broadcastTo (Mat R K) b h3 (ix2 p q) = x (ix2 p q) + b (ix2 (0 : Fin 1) q)
  rw [broadcastTo_1b_ab_apply b h3 p q]

/-- The host's spelling — a length-`K` vector made a row and then `R` rows by two `broadcast_in_dim`s, added — is
    `rowBias` at the vector reshaped to one row. -/
theorem rowBias_of_host_ops {R K : Nat} (A : FVec Ideal (Mat R K) .f32) (b : FVec Ideal (Vc K) .f32)
    (h2 : (Vc K).BroadcastsInDim (Mat 1 K) ![1]) (h3 : (Mat 1 K).BroadcastsInDim (Mat R K) ![0, 1])
    (h5 : (Vc K).ShapeCasts (Mat 1 K)) :
    addf A (broadcastInDim (Mat R K) ![0, 1] h3 (broadcastInDim (Mat 1 K) ![1] h2 b))
      = rowBias A (shapeCast (Mat 1 K) b h5) := by
  funext i
  obtain ⟨p, q, rfl⟩ : ∃ (p : Fin R) (q : Fin K), i = ix2 p q := ⟨i 0, i 1, eq_ix2 i⟩
  show A (ix2 p q) + broadcastInDim (Mat R K) ![0, 1] h3 (broadcastInDim (Mat 1 K) ![1] h2 b) (ix2 p q)
    = A (ix2 p q) + shapeCast (Mat 1 K) b h5 (ix2 (0 : Fin 1) q)
  rw [broadcastInDim_1b_ab_apply _ h3 p q, broadcastInDim_b_1b_apply b h2 q, shapeCast_a_1a_apply b h5 0 q]

end Cert.SelfLoop

end
-- ==== Proof.KPay.lean ====
/-
  A kernel body's vector operations read as the network's entry-by-entry functions, for a block of any number of
  rows: the convolution's combine `a · d + h · d2 + b` (the two columns and the bias row spread over the block),
  the positive part, a bias row added, the exponential linear unit written with `min x 0` under the exponential,
  and `1 / (1 + e^(0 − x))`.  The float words `0x00000000` and `0x3F800000` are the numbers 0 and 1.
-/
import proofs.«142762_j63788854280505_2_alg».proof.Proof.Math
import proofs.«142762_j63788854280505_2_alg».proof.Proof.LibSelfLoop
import Idealize.ShloMosaic.Lib.ValueLayout
import Idealize.ShloMosaic.Lib.Pipeline.Value

noncomputable section

namespace Cert.Gcn

open Idealize.ShloMosaic Idealize.ShloMosaic.ValueIdx Cert.Linear

variable {R C : Nat}

/-- The float word of one is the number 1. -/
theorem one_word : Ideal.ofBits .f32 0x3F800000#32 = 1 := by simp [Ideal.ofBits, Ideal.ieee, -EReal.coe_mul]; norm_num

/-- A matrix unit's product into the zero accumulator is the plain product, for a record that contracts the left
    factor's columns with the right factor's rows. -/
theorem matmul_of_vector_ops {K N : Nat} (d : DotDims (Mat R K) (Mat K N) (Mat R N)) (h : Contracts d)
    (prec : Option ContractPrecision) (X : FVec Ideal (Mat R K) .f32) (W : FVec Ideal (Mat K N) .f32) :
    matmul d prec X W (constant (F := Ideal) (Mat R N) .f32 0x00000000#32) = matProd X W :=
  matmul_zero_eq h prec X W

theorem comb_of_vector_ops (a h : FVec Ideal (Mat R C) .f32) (d d2 : FVec Ideal (Mat R 1) .f32) (b : FVec Ideal (Mat 1 C) .f32)
    (h1 : (Mat R C).ShapeCasts (Mat R C)) (h2 : (Mat R 1).ShapeCasts (Mat R 1)) (h3 : (Mat R 1).Broadcasts (Mat R C))
    (h4 : (Mat 1 C).ShapeCasts (Mat 1 C)) (h5 : (Mat 1 C).Broadcasts (Mat R C)) :
    addf (addf (mulf (shapeCast (Mat R C) a h1) (broadcastTo (Mat R C) (shapeCast (Mat R 1) d h2) h3))
        (mulf (shapeCast (Mat R C) h h1) (broadcastTo (Mat R C) (shapeCast (Mat R 1) d2 h2) h3)))
      (broadcastTo (Mat R C) (shapeCast (Mat 1 C) b h4) h5) = comb a h d d2 b := by
  simp only [shapeCast_self]
  funext i
  obtain ⟨p, q, rfl⟩ : ∃ (p : Fin R) (q : Fin C), i = ix2 p q := ⟨i 0, i 1, eq_ix2 i⟩
  show a (ix2 p q) * broadcastTo (Mat R C) d h3 (ix2 p q) + h (ix2 p q) * broadcastTo (Mat R C) d2 h3 (ix2 p q)
      + broadcastTo (Mat R C) b h5 (ix2 p q)
    = a (ix2 p q) * d (ix2 p (0 : Fin 1)) + h (ix2 p q) * d2 (ix2 p (0 : Fin 1)) + b (ix2 (0 : Fin 1) q)
  rw [Cert.SelfLoop.broadcastTo_a1_ab_apply d h3 p q, Cert.SelfLoop.broadcastTo_a1_ab_apply d2 h3 p q,
    broadcastTo_1b_ab_apply b h5 p q]

theorem relu_of_vector_ops (x : FVec Ideal (Mat R C) .f32) :
    maximumf x (broadcast (Mat R C) (Scalar.ofBits (F := Ideal) .f32 0x00000000#32)) = relu x := by
  funext i
  show max (x i) (Ideal.ofBits .f32 0x00000000#32) = max (x i) 0
  rw [Ideal.ofBits_zero_f32]

theorem bias_of_vector_ops (x : FVec Ideal (Mat R C) .f32) (b : FVec Ideal (Mat 1 C) .f32)
    (h4 : (Mat 1 C).ShapeCasts (Mat 1 C)) (h5 : (Mat 1 C).Broadcasts (Mat R C)) :
    addf x (broadcastTo (Mat R C) (shapeCast (Mat 1 C) b h4) h5) = bias x b := by
  simp only [shapeCast_self]
  funext i
  obtain ⟨p, q, rfl⟩ : ∃ (p : Fin R) (q : Fin C), i = ix2 p q := ⟨i 0, i 1, eq_ix2 i⟩
  show x (ix2 p q) + broadcastTo (Mat R C) b h5 (ix2 p q) = x (ix2 p q) + b (ix2 (0 : Fin 1) q)
  rw [broadcastTo_1b_ab_apply b h5 p q]

theorem elu_of_vector_ops (x : FVec Ideal (Mat R C) .f32) :
    select (cmpf .ogt x (broadcast (Mat R C) (Scalar.ofBits (F := Ideal) .f32 0x00000000#32))) x
      (subf (exp (minimumf x (broadcast (Mat R C) (Scalar.ofBits (F := Ideal) .f32 0x00000000#32))))
        (broadcast (Mat R C) (Scalar.ofBits (F := Ideal) .f32 0x3F800000#32))) = elu x := by
  funext i
  show Scalar.select (Ideal.cmp .ogt (x i) (Ideal.ofBits .f32 0x00000000#32)) (x i)
      (Ideal.exp (min (x i) (Ideal.ofBits .f32 0x00000000#32)) - Ideal.ofBits .f32 0x3F800000#32)
    = Scalar.select (Ideal.cmp .ogt (x i) 0) (x i) (Ideal.exp (min (x i) 0) - 1)
  rw [Ideal.ofBits_zero_f32, one_word]

theorem sigm_of_vector_ops (x : FVec Ideal (Mat R C) .f32) :
    divf (broadcast (Mat R C) (Scalar.ofBits (F := Ideal) .f32 0x3F800000#32))
      (addf (broadcast (Mat R C) (Scalar.ofBits (F := Ideal) .f32 0x3F800000#32))
        (exp (subf (broadcast (Mat R C) (Scalar.ofBits (F := Ideal) .f32 0x00000000#32)) x))) = sigm x := by
  funext i
  show Ideal.div (Ideal.ofBits .f32 0x3F800000#32) (Ideal.ofBits .f32 0x3F800000#32 + Ideal.exp (Ideal.ofBits .f32 0x00000000#32 - x i))
    = Ideal.div 1 (1 + Ideal.exp (0 - x i))
  rw [Ideal.ofBits_zero_f32, one_word]

end Cert.Gcn

end
-- ==== Proof.KReg1.lean ====
/-
  A hidden layer's kernel: at each of ten grid points, for a block of 10000 rows, the convolution's combine of the
  neighbourhood sum and the projected features (scaled by the two in-degree columns, the bias row added), the positive
  part, and the product with the next layer's weights.  Every step acts on each row by itself, so the ten points
  together leave the same function of the whole arrays.
-/
import proofs.«142762_j63788854280505_2_alg».proof.Proof.KReg0
import proofs.«142762_j63788854280505_2_alg».proof.Proof.KPay

set_option maxRecDepth 16384

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lt1 (t : Fin cfg1.N) : t.val < 10 := by have h := t.isLt; have e : cfg1.N = 10 := N_1; omega

/-- The body's one value: the next projection of the positive part of the combine of its loaded blocks. -/
theorem pay1 (v0 : Vec Ideal S10000x128 .f32) (v2 : Vec Ideal S10000x1 .f32) (v6 : Vec Ideal S10000x128 .f32)
    (v8 : Vec Ideal S10000x1 .f32) (v13 : Vec Ideal S1x128 .f32) (v19 : Vec Ideal S128x128 .f32) :
    k1_pay1 v0 v2 v6 v8 v13 v19 = Cert.Gcn.convNext v0 v6 v2 v8 v13 v19 := by
  unfold k1_pay1 Cert.Gcn.convNext
  dsimp only
  rw [Cert.Gcn.comb_of_vector_ops, Cert.Gcn.relu_of_vector_ops]
  exact Cert.Linear.matmul_zero_eq (Cert.Linear.contracts_of_lists _ rfl rfl rfl rfl rfl rfl) (some .fp32) _ _

/-- The printed index maps over the grid: the row-blocked windows are at block `(t, 0)`, the bias row and the weights at `(0, 0)`. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

theorem read1_0 (t : Fin cfg1.N) (G : S100000x128.Idx → EReal) :
    ((cfg1.win 0).blk t).view.read (Elt Ideal) G = Cert.Gcn.rowsBy (blockRow t.val (lt1 t)) G := by
  have e0 := (idx1 t).1
  have e1 := (idx1 t).2.1
  funext y
  rw [View.read_apply]
  show G (((cfg1.win 0).blk t).view.emb y) = G (ix2 (blockRow t.val (lt1 t) (y 0)) (y 1))
  congr 1
  funext a; apply Fin.ext
  match a with
  | ⟨0, _⟩ => show win1_0.index t (0 : Fin 2) * 10000 + 1 * (y 0).val = t.val * 10000 + (y 0).val; rw [e0]; omega
  | ⟨1, _⟩ => show win1_0.index t (1 : Fin 2) * 128 + 1 * (y 1).val = (y 1).val; rw [e1]; omega

theorem read1_1 (t : Fin cfg1.N) (G : S100000x128.Idx → EReal) :
    ((cfg1.win 1).blk t).view.read (Elt Ideal) G = Cert.Gcn.rowsBy (blockRow t.val (lt1 t)) G := by
  have e0 := (idx1 t).2.2.1
  have e1 := (idx1 t).2.2.2.1
  funext y
  rw [View.read_apply]
  show G (((cfg1.win 1).blk t).view.emb y) = G (ix2 (blockRow t.val (lt1 t) (y 0)) (y 1))
  congr 1
  funext a; apply Fin.ext
  match a with
  | ⟨0, _⟩ => show win1_1.index t (0 : Fin 2) * 10000 + 1 * (y 0).val = t.val * 10000 + (y 0).val; rw [e0]; omega
  | ⟨1, _⟩ => show win1_1.index t (1 : Fin 2) * 128 + 1 * (y 1).val = (y 1).val; rw [e1]; omega

theorem read1_2 (t : Fin cfg1.N) (G : S100000x1.Idx → EReal) :
    ((cfg1.win 2).blk t).view.read (Elt Ideal) G = Cert.Gcn.rowsBy (blockRow t.val (lt1 t)) G := by
  have e0 := (idx1 t).2.2.2.2.1
  have e1 := (idx1 t).2.2.2.2.2.1
  funext y
  rw [View.read_apply]
  show G (((cfg1.win 2).blk t).view.emb y) = G (ix2 (blockRow t.val (lt1 t) (y 0)) (y 1))
  congr 1
  funext a; apply Fin.ext
  match a with
  | ⟨0, _⟩ => show win1_2.index t (0 : Fin 2) * 10000 + 1 * (y 0).val = t.val * 10000 + (y 0).val; rw [e0]; omega
  | ⟨1, _⟩ => show win1_2.index t (1 : Fin 2) * 1 + 1 * (y 1).val = (y 1).val; rw [e1]; omega

theorem read1_3 (t : Fin cfg1.N) (G : S100000x1.Idx → EReal) :
    ((cfg1.win 3).blk t).view.read (Elt Ideal) G = Cert.Gcn.rowsBy (blockRow t.val (lt1 t)) G := by
  have e0 := (idx1 t).2.2.2.2.2.2.1
  have e1 := (idx1 t).2.2.2.2.2.2.2.1
  funext y
  rw [View.read_apply]
  show G (((cfg1.win 3).blk t).view.emb y) = G (ix2 (blockRow t.val (lt1 t) (y 0)) (y 1))
  congr 1
  funext a; apply Fin.ext
  match a with
  | ⟨0, _⟩ => show win1_3.index t (0 : Fin 2) * 10000 + 1 * (y 0).val = t.val * 10000 + (y 0).val; rw [e0]; omega
  | ⟨1, _⟩ => show win1_3.index t (1 : Fin 2) * 1 + 1 * (y 1).val = (y 1).val; rw [e1]; omega

theorem read1_4 (t : Fin cfg1.N) (G : S1x128.Idx → EReal) :
    ((cfg1.win 4).blk t).view.read (Elt Ideal) G = G := by
  have e0 := (idx1 t).2.2.2.2.2.2.2.2.1
  have e1 := (idx1 t).2.2.2.2.2.2.2.2.2.1
  funext y
  rw [View.read_apply]
  show G (((cfg1.win 4).blk t).view.emb y) = G y
  congr 1
  funext a; apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

theorem read1_5 (t : Fin cfg1.N) (G : S128x128.Idx → EReal) :
    ((cfg1.win 5).blk t).view.read (Elt Ideal) G = G := by
  have e0 := (idx1 t).2.2.2.2.2.2.2.2.2.2.1
  have e1 := (idx1 t).2.2.2.2.2.2.2.2.2.2.2.1
  funext y
  rw [View.read_apply]
  show G (((cfg1.win 5).blk t).view.emb y) = G y
  congr 1
  funext a; apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem read1_6 (t : Fin cfg1.N) (G : S100000x128.Idx → EReal) :
    ((cfg1.win 6).blk t).view.read (Elt Ideal) G = Cert.Gcn.rowsBy (blockRow t.val (lt1 t)) G := by
  have e0 := (idx1 t).2.2.2.2.2.2.2.2.2.2.2.2.1
  have e1 := (idx1 t).2.2.2.2.2.2.2.2.2.2.2.2.2
  funext y
  rw [View.read_apply]
  show G (((cfg1.win 6).blk t).view.emb y) = G (ix2 (blockRow t.val (lt1 t) (y 0)) (y 1))
  congr 1
  funext a; apply Fin.ext
  match a with
  | ⟨0, _⟩ => show win1_6.index t (0 : Fin 2) * 10000 + 1 * (y 0).val = t.val * 10000 + (y 0).val; rw [e0]; omega
  | ⟨1, _⟩ => show win1_6.index t (1 : Fin 2) * 128 + 1 * (y 1).val = (y 1).val; rw [e1]; omega

/-- What point `t` writes back is block `t` of the layer's function of the arrays as the region finds them. -/
theorem flushed1 (c : Dev nD) (t : Fin cfg1.N) :
    (dat1 V c).flushed 6 t = ((cfg1.win 6).blk t).view.read (Elt Ideal)
      (Cert.Gcn.convNext (V c main_v26 : S100000x128.Idx → EReal) (V c main_v14 : S100000x128.Idx → EReal)
        (V c main_v12 : S100000x1.Idx → EReal) (V c main_v13 : S100000x1.Idx → EReal)
        (V c main_v27 : S1x128.Idx → EReal) (V c main_arg4 : S128x128.Idx → EReal)) := by
  show (cfg1.win 6).cut (grid1.coords t) ((dat1 V c).after 6 t) = _
  rw [after1_6]
  unfold out1_6
  rw [View.canon_unit_zero hz]
  simp only [View.ld_unit_zero (S := S10000x128) hz, View.ld_unit_zero (S := S10000x1) hz, View.ld_unit_zero (S := S1x128) hz,
    View.ld_unit_zero (S := S128x128) hz]
  rw [pay1, read1_6]
  have h0 : iblk1 V c 0 t = Cert.Gcn.rowsBy (blockRow t.val (lt1 t)) (V c main_v26 : S100000x128.Idx → EReal) := read1_0 t _
  have h1 : iblk1 V c 1 t = Cert.Gcn.rowsBy (blockRow t.val (lt1 t)) (V c main_v14 : S100000x128.Idx → EReal) := read1_1 t _
  have h2 : iblk1 V c 2 t = Cert.Gcn.rowsBy (blockRow t.val (lt1 t)) (V c main_v12 : S100000x1.Idx → EReal) := read1_2 t _
  have h3 : iblk1 V c 3 t = Cert.Gcn.rowsBy (blockRow t.val (lt1 t)) (V c main_v13 : S100000x1.Idx → EReal) := read1_3 t _
  have h4 : iblk1 V c 4 t = (V c main_v27 : S1x128.Idx → EReal) := read1_4 t _
  have h5 : iblk1 V c 5 t = (V c main_arg4 : S128x128.Idx → EReal) := read1_5 t _
  rw [h0, h1, h2, h3, h4, h5]
  exact Cert.Gcn.convNext_rows _ _ _ _ _ _ _

/-- Every row of the result array is in some point's block. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  let t : Fin cfg1.N := ⟨(i 0).val / 10000, by have e : cfg1.N = 10 := N_1; omega⟩
  have e0 := (idx1 t).2.2.2.2.2.2.2.2.2.2.2.2.1
  have e1 := (idx1 t).2.2.2.2.2.2.2.2.2.2.2.2.2
  refine ⟨t, flush1_6 t, ?_⟩
  show i ∈ ((View.whole main_v28).slice (win1_6.rect t)).set
  rw [View.set_slice_whole, Rect.mem_set_unit]
  intro a
  match a with
  | ⟨0, _⟩ =>
    show win1_6.index t (0 : Fin 2) * 10000 ≤ (i 0).val ∧ (i 0).val < win1_6.index t (0 : Fin 2) * 10000 + 10000
    rw [e0]; show (i 0).val / 10000 * 10000 ≤ (i 0).val ∧ (i 0).val < (i 0).val / 10000 * 10000 + 10000; omega
  | ⟨1, _⟩ =>
    show win1_6.index t (1 : Fin 2) * 128 ≤ (i 1).val ∧ (i 1).val < win1_6.index t (1 : Fin 2) * 128 + 128
    rw [e1]; omega

/-- The result array after the region: the layer's function of the arrays as the region finds them. -/
theorem final1 (c : Dev nD) :
    (dat1 V c).arrAt 6 cfg1.N
      = Cert.Gcn.convNext (V c main_v26 : S100000x128.Idx → EReal) (V c main_v14 : S100000x128.Idx → EReal)
        (V c main_v12 : S100000x1.Idx → EReal) (V c main_v13 : S100000x1.Idx → EReal)
        (V c main_v27 : S1x128.Idx → EReal) (V c main_arg4 : S128x128.Idx → EReal) :=
  (dat1 V c).arrAt_eq_of_cover 6 _ (fun t _ => flushed1 V c t) cover1

end Cert.KernelIdeal.Reg

end
-- ==== Proof.KReg2.lean ====
/-
  A hidden layer's kernel: at each of ten grid points, for a block of 10000 rows, the convolution's combine of the
  neighbourhood sum and the projected features (scaled by the two in-degree columns, the bias row added), the positive
  part, and the product with the next layer's weights.  Every step acts on each row by itself, so the ten points
  together leave the same function of the whole arrays.
-/
import proofs.«142762_j63788854280505_2_alg».proof.Proof.KReg0
import proofs.«142762_j63788854280505_2_alg».proof.Proof.KPay

set_option maxRecDepth 16384

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lt2 (t : Fin cfg2.N) : t.val < 10 := by have h := t.isLt; have e : cfg2.N = 10 := N_2; omega

/-- The body's one value: the next projection of the positive part of the combine of its loaded blocks. -/
theorem pay2 (v0 : Vec Ideal S10000x128 .f32) (v2 : Vec Ideal S10000x1 .f32) (v6 : Vec Ideal S10000x128 .f32)
    (v8 : Vec Ideal S10000x1 .f32) (v13 : Vec Ideal S1x128 .f32) (v19 : Vec Ideal S128x128 .f32) :
    k2_pay1 v0 v2 v6 v8 v13 v19 = Cert.Gcn.convNext v0 v6 v2 v8 v13 v19 := by
  unfold k2_pay1 Cert.Gcn.convNext
  dsimp only
  rw [Cert.Gcn.comb_of_vector_ops, Cert.Gcn.relu_of_vector_ops]
  exact Cert.Linear.matmul_zero_eq (Cert.Linear.contracts_of_lists _ rfl rfl rfl rfl rfl rfl) (some .fp32) _ _

/-- The printed index maps over the grid: the row-blocked windows are at block `(t, 0)`, the bias row and the weights at `(0, 0)`. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = t.val
    ∧ win2_6.index t (1 : Fin 2) = 0 :=
  (by decide +kernel : ∀ t : Fin grid2.N, _)

theorem read2_0 (t : Fin cfg2.N) (G : S100000x128.Idx → EReal) :
    ((cfg2.win 0).blk t).view.read (Elt Ideal) G = Cert.Gcn.rowsBy (blockRow t.val (lt2 t)) G := by
  have e0 := (idx2 t).1
  have e1 := (idx2 t).2.1
  funext y
  rw [View.read_apply]
  show G (((cfg2.win 0).blk t).view.emb y) = G (ix2 (blockRow t.val (lt2 t) (y 0)) (y 1))
  congr 1
  funext a; apply Fin.ext
  match a with
  | ⟨0, _⟩ => show win2_0.index t (0 : Fin 2) * 10000 + 1 * (y 0).val = t.val * 10000 + (y 0).val; rw [e0]; omega
  | ⟨1, _⟩ => show win2_0.index t (1 : Fin 2) * 128 + 1 * (y 1).val = (y 1).val; rw [e1]; omega

theorem read2_1 (t : Fin cfg2.N) (G : S100000x128.Idx → EReal) :
    ((cfg2.win 1).blk t).view.read (Elt Ideal) G = Cert.Gcn.rowsBy (blockRow t.val (lt2 t)) G := by
  have e0 := (idx2 t).2.2.1
  have e1 := (idx2 t).2.2.2.1
  funext y
  rw [View.read_apply]
  show G (((cfg2.win 1).blk t).view.emb y) = G (ix2 (blockRow t.val (lt2 t) (y 0)) (y 1))
  congr 1
  funext a; apply Fin.ext
  match a with
  | ⟨0, _⟩ => show win2_1.index t (0 : Fin 2) * 10000 + 1 * (y 0).val = t.val * 10000 + (y 0).val; rw [e0]; omega
  | ⟨1, _⟩ => show win2_1.index t (1 : Fin 2) * 128 + 1 * (y 1).val = (y 1).val; rw [e1]; omega

theorem read2_2 (t : Fin cfg2.N) (G : S100000x1.Idx → EReal) :
    ((cfg2.win 2).blk t).view.read (Elt Ideal) G = Cert.Gcn.rowsBy (blockRow t.val (lt2 t)) G := by
  have e0 := (idx2 t).2.2.2.2.1
  have e1 := (idx2 t).2.2.2.2.2.1
  funext y
  rw [View.read_apply]
  show G (((cfg2.win 2).blk t).view.emb y) = G (ix2 (blockRow t.val (lt2 t) (y 0)) (y 1))
  congr 1
  funext a; apply Fin.ext
  match a with
  | ⟨0, _⟩ => show win2_2.index t (0 : Fin 2) * 10000 + 1 * (y 0).val = t.val * 10000 + (y 0).val; rw [e0]; omega
  | ⟨1, _⟩ => show win2_2.index t (1 : Fin 2) * 1 + 1 * (y 1).val = (y 1).val; rw [e1]; omega

theorem read2_3 (t : Fin cfg2.N) (G : S100000x1.Idx → EReal) :
    ((cfg2.win 3).blk t).view.read (Elt Ideal) G = Cert.Gcn.rowsBy (blockRow t.val (lt2 t)) G := by
  have e0 := (idx2 t).2.2.2.2.2.2.1
  have e1 := (idx2 t).2.2.2.2.2.2.2.1
  funext y
  rw [View.read_apply]
  show G (((cfg2.win 3).blk t).view.emb y) = G (ix2 (blockRow t.val (lt2 t) (y 0)) (y 1))
  congr 1
  funext a; apply Fin.ext
  match a with
  | ⟨0, _⟩ => show win2_3.index t (0 : Fin 2) * 10000 + 1 * (y 0).val = t.val * 10000 + (y 0).val; rw [e0]; omega
  | ⟨1, _⟩ => show win2_3.index t (1 : Fin 2) * 1 + 1 * (y 1).val = (y 1).val; rw [e1]; omega

theorem read2_4 (t : Fin cfg2.N) (G : S1x128.Idx → EReal) :
    ((cfg2.win 4).blk t).view.read (Elt Ideal) G = G := by
  have e0 := (idx2 t).2.2.2.2.2.2.2.2.1
  have e1 := (idx2 t).2.2.2.2.2.2.2.2.2.1
  funext y
  rw [View.read_apply]
  show G (((cfg2.win 4).blk t).view.emb y) = G y
  congr 1
  funext a; apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

theorem read2_5 (t : Fin cfg2.N) (G : S128x128.Idx → EReal) :
    ((cfg2.win 5).blk t).view.read (Elt Ideal) G = G := by
  have e0 := (idx2 t).2.2.2.2.2.2.2.2.2.2.1
  have e1 := (idx2 t).2.2.2.2.2.2.2.2.2.2.2.1
  funext y
  rw [View.read_apply]
  show G (((cfg2.win 5).blk t).view.emb y) = G y
  congr 1
  funext a; apply Fin.ext
  match a with
  | ⟨0, _⟩ => show win2_5.index t (0 : Fin 2) * 128 + 1 * (y 0).val = (y 0).val; rw [e0]; omega
  | ⟨1, _⟩ => show win2_5.index t (1 : Fin 2) * 128 + 1 * (y 1).val = (y 1).val; rw [e1]; omega

theorem read2_6 (t : Fin cfg2.N) (G : S100000x128.Idx → EReal) :
    ((cfg2.win 6).blk t).view.read (Elt Ideal) G = Cert.Gcn.rowsBy (blockRow t.val (lt2 t)) G := by
  have e0 := (idx2 t).2.2.2.2.2.2.2.2.2.2.2.2.1
  have e1 := (idx2 t).2.2.2.2.2.2.2.2.2.2.2.2.2
  funext y
  rw [View.read_apply]
  show G (((cfg2.win 6).blk t).view.emb y) = G (ix2 (blockRow t.val (lt2 t) (y 0)) (y 1))
  congr 1
  funext a; apply Fin.ext
  match a with
  | ⟨0, _⟩ => show win2_6.index t (0 : Fin 2) * 10000 + 1 * (y 0).val = t.val * 10000 + (y 0).val; rw [e0]; omega
  | ⟨1, _⟩ => show win2_6.index t (1 : Fin 2) * 128 + 1 * (y 1).val = (y 1).val; rw [e1]; omega

/-- What point `t` writes back is block `t` of the layer's function of the arrays as the region finds them. -/
theorem flushed2 (c : Dev nD) (t : Fin cfg2.N) :
    (dat2 V c).flushed 6 t = ((cfg2.win 6).blk t).view.read (Elt Ideal)
      (Cert.Gcn.convNext (V c main_v40 : S100000x128.Idx → EReal) (V c main_v28 : S100000x128.Idx → EReal)
        (V c main_v12 : S100000x1.Idx → EReal) (V c main_v13 : S100000x1.Idx → EReal)
        (V c main_v41 : S1x128.Idx → EReal) (V c main_arg6 : S128x128.Idx → EReal)) := by
  show (cfg2.win 6).cut (grid2.coords t) ((dat2 V c).after 6 t) = _
  rw [after2_6]
  unfold out2_6
  rw [View.canon_unit_zero hz]
  simp only [View.ld_unit_zero (S := S10000x128) hz, View.ld_unit_zero (S := S10000x1) hz, View.ld_unit_zero (S := S1x128) hz,
    View.ld_unit_zero (S := S128x128) hz]
  rw [pay2, read2_6]
  have h0 : iblk2 V c 0 t = Cert.Gcn.rowsBy (blockRow t.val (lt2 t)) (V c main_v40 : S100000x128.Idx → EReal) := read2_0 t _
  have h1 : iblk2 V c 1 t = Cert.Gcn.rowsBy (blockRow t.val (lt2 t)) (V c main_v28 : S100000x128.Idx → EReal) := read2_1 t _
  have h2 : iblk2 V c 2 t = Cert.Gcn.rowsBy (blockRow t.val (lt2 t)) (V c main_v12 : S100000x1.Idx → EReal) := read2_2 t _
  have h3 : iblk2 V c 3 t = Cert.Gcn.rowsBy (blockRow t.val (lt2 t)) (V c main_v13 : S100000x1.Idx → EReal) := read2_3 t _
  have h4 : iblk2 V c 4 t = (V c main_v41 : S1x128.Idx → EReal) := read2_4 t _
  have h5 : iblk2 V c 5 t = (V c main_arg6 : S128x128.Idx → EReal) := read2_5 t _
  rw [h0, h1, h2, h3, h4, h5]
  exact Cert.Gcn.convNext_rows _ _ _ _ _ _ _

/-- Every row of the result array is in some point's block. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  let t : Fin cfg2.N := ⟨(i 0).val / 10000, by have e : cfg2.N = 10 := N_2; omega⟩
  have e0 := (idx2 t).2.2.2.2.2.2.2.2.2.2.2.2.1
  have e1 := (idx2 t).2.2.2.2.2.2.2.2.2.2.2.2.2
  refine ⟨t, flush2_6 t, ?_⟩
  show i ∈ ((View.whole main_v42).slice (win2_6.rect t)).set
  rw [View.set_slice_whole, Rect.mem_set_unit]
  intro a
  match a with
  | ⟨0, _⟩ =>
    show win2_6.index t (0 : Fin 2) * 10000 ≤ (i 0).val ∧ (i 0).val < win2_6.index t (0 : Fin 2) * 10000 + 10000
    rw [e0]; show (i 0).val / 10000 * 10000 ≤ (i 0).val ∧ (i 0).val < (i 0).val / 10000 * 10000 + 10000; omega
  | ⟨1, _⟩ =>
    show win2_6.index t (1 : Fin 2) * 128 ≤ (i 1).val ∧ (i 1).val < win2_6.index t (1 : Fin 2) * 128 + 128
    rw [e1]; omega

/-- The result array after the region: the layer's function of the arrays as the region finds them. -/
theorem final2 (c : Dev nD) :
    (dat2 V c).arrAt 6 cfg2.N
      = Cert.Gcn.convNext (V c main_v40 : S100000x128.Idx → EReal) (V c main_v28 : S100000x128.Idx → EReal)
        (V c main_v12 : S100000x1.Idx → EReal) (V c main_v13 : S100000x1.Idx → EReal)
        (V c main_v41 : S1x128.Idx → EReal) (V c main_arg6 : S128x128.Idx → EReal) :=
  (dat2 V c).arrAt_eq_of_cover 6 _ (fun t _ => flushed2 V c t) cover2

end Cert.KernelIdeal.Reg

end
-- ==== Proof.KReg3.lean ====
/-
  The last kernel: at each of ten grid points, for a block of 10000 rows, the last convolution's combine, then four
  dense layers (a product, a bias row, the exponential linear unit; the last of width one) and the logistic quotient.
  Every step acts on each row by itself, so the ten points together leave the same function of the whole arrays.
-/
import proofs.«142762_j63788854280505_2_alg».proof.Proof.KReg0
import proofs.«142762_j63788854280505_2_alg».proof.Proof.KPay

set_option maxRecDepth 16384

noncomputable section

namespace Cert.KernelIdeal.Reg

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem lt3 (t : Fin cfg3.N) : t.val < 10 := by have h := t.isLt; have e : cfg3.N = 10 := N_3; omega

theorem hdot128 : Cert.Linear.Contracts dot_S10000x128_S128x128_S10000x128_1_0_0_1_n_n :=
  Cert.Linear.contracts_of_lists _ rfl rfl rfl rfl rfl rfl
theorem hdot1 : Cert.Linear.Contracts dot_S10000x128_S128x1_S10000x1_1_0_0_1_n_n :=
  Cert.Linear.contracts_of_lists _ rfl rfl rfl rfl rfl rfl

/-- The body's value: the dense tail of the combine of its loaded blocks. -/
theorem pay3 (x0 x1 : Vec Ideal S10000x128 .f32) (x2 x3 : Vec Ideal S10000x1 .f32) (x4 : Vec Ideal S1x128 .f32)
    (x5 : Vec Ideal S128x128 .f32) (x6 : Vec Ideal S1x128 .f32) (x7 : Vec Ideal S128x128 .f32) (x8 : Vec Ideal S1x128 .f32)
    (x9 : Vec Ideal S128x128 .f32) (x10 : Vec Ideal S1x128 .f32) (x11 : Vec Ideal S128x1 .f32) (x12 : Vec Ideal S1x1 .f32) :
    k3_pay1 (k3_pay4 (k3_pay2 x0 x2 x1 x3 x4 x5 x6 x7) (k3_pay3 x8) x9 x10 x11 x12)
      = Cert.Gcn.tail x0 x1 x2 x3 x4 x5 x6 x7 x8 x9 x10 x11 x12 := by
  unfold k3_pay1 k3_pay4 k3_pay2 k3_pay3 Cert.Gcn.tail
  dsimp only
  rw [Cert.Gcn.comb_of_vector_ops]
  rw [Cert.Gcn.matmul_of_vector_ops _ hdot128, Cert.Gcn.bias_of_vector_ops, Cert.Gcn.elu_of_vector_ops]
  rw [Cert.Gcn.matmul_of_vector_ops _ hdot128, Cert.Gcn.bias_of_vector_ops, Cert.Gcn.elu_of_vector_ops]
  rw [Cert.Gcn.matmul_of_vector_ops _ hdot128, Cert.Gcn.bias_of_vector_ops, Cert.Gcn.elu_of_vector_ops]
  rw [Cert.Gcn.matmul_of_vector_ops _ hdot1, Cert.Gcn.bias_of_vector_ops, Cert.Gcn.elu_of_vector_ops]
  rw [Cert.Gcn.sigm_of_vector_ops]

/-- The printed index maps over the grid: the row-blocked windows are at block `(t, 0)`, the bias rows and the weights at `(0, 0)`. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = t.val
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 2) = 0
    ∧ win3_11.index t (1 : Fin 2) = 0
    ∧ win3_12.index t (0 : Fin 2) = 0
    ∧ win3_12.index t (1 : Fin 2) = 0
    ∧ win3_13.index t (0 : Fin 2) = t.val
    ∧ win3_13.index t (1 : Fin 2) = 0 :=
  (by decide +kernel : ∀ t : Fin grid3.N, _)

theorem read3_0 (t : Fin cfg3.N) (G : S100000x128.Idx → EReal) :
    ((cfg3.win 0).blk t).view.read (Elt Ideal) G = Cert.Gcn.rowsBy (blockRow t.val (lt3 t)) G := by
  have e0 := (idx3 t).1
  have e1 := (idx3 t).2.1
  funext y
  rw [View.read_apply]
  show G (((cfg3.win 0).blk t).view.emb y) = G (ix2 (blockRow t.val (lt3 t) (y 0)) (y 1))
  congr 1
  funext a; apply Fin.ext
  match a with
  | ⟨0, _⟩ => show win3_0.index t (0 : Fin 2) * 10000 + 1 * (y 0).val = t.val * 10000 + (y 0).val; rw [e0]; omega
  | ⟨1, _⟩ => show win3_0.index t (1 : Fin 2) * 128 + 1 * (y 1).val = (y 1).val; rw [e1]; omega

theorem read3_1 (t : Fin cfg3.N) (G : S100000x128.Idx → EReal) :
    ((cfg3.win 1).blk t).view.read (Elt Ideal) G = Cert.Gcn.rowsBy (blockRow t.val (lt3 t)) G := by
  have e0 := (idx3 t).2.2.1
  have e1 := (idx3 t).2.2.2.1
  funext y
  rw [View.read_apply]
  show G (((cfg3.win 1).blk t).view.emb y) = G (ix2 (blockRow t.val (lt3 t) (y 0)) (y 1))
  congr 1
  funext a; apply Fin.ext
  match a with
  | ⟨0, _⟩ => show win3_1.index t (0 : Fin 2) * 10000 + 1 * (y 0).val = t.val * 10000 + (y 0).val; rw [e0]; omega
  | ⟨1, _⟩ => show win3_1.index t (1 : Fin 2) * 128 + 1 * (y 1).val = (y 1).val; rw [e1]; omega

theorem read3_2 (t : Fin cfg3.N) (G : S100000x1.Idx → EReal) :
    ((cfg3.win 2).blk t).view.read (Elt Ideal) G = Cert.Gcn.rowsBy (blockRow t.val (lt3 t)) G := by
  have e0 := (idx3 t).2.2.2.2.1
  have e1 := (idx3 t).2.2.2.2.2.1
  funext y
  rw [View.read_apply]
  show G (((cfg3.win 2).blk t).view.emb y) = G (ix2 (blockRow t.val (lt3 t) (y 0)) (y 1))
  congr 1
  funext a; apply Fin.ext
  match a with
  | ⟨0, _⟩ => show win3_2.index t (0 : Fin 2) * 10000 + 1 * (y 0).val = t.val * 10000 + (y 0).val; rw [e0]; omega
  | ⟨1, _⟩ => show win3_2.index t (1 : Fin 2) * 1 + 1 * (y 1).val = (y 1).val; rw [e1]; omega

theorem read3_3 (t : Fin cfg3.N) (G : S100000x1.Idx → EReal) :
    ((cfg3.win 3).blk t).view.read (Elt Ideal) G = Cert.Gcn.rowsBy (blockRow t.val (lt3 t)) G := by
  have e0 := (idx3 t).2.2.2.2.2.2.1
  have e1 := (idx3 t).2.2.2.2.2.2.2.1
  funext y
  rw [View.read_apply]
  show G (((cfg3.win 3).blk t).view.emb y) = G (ix2 (blockRow t.val (lt3 t) (y 0)) (y 1))
  congr 1
  funext a; apply Fin.ext
  match a with
  | ⟨0, _⟩ => show win3_3.index t (0 : Fin 2) * 10000 + 1 * (y 0).val = t.val * 10000 + (y 0).val; rw [e0]; omega
  | ⟨1, _⟩ => show win3_3.index t (1 : Fin 2) * 1 + 1 * (y 1).val = (y 1).val; rw [e1]; omega

theorem read3_4 (t : Fin cfg3.N) (G : S1x128.Idx → EReal) :
    ((cfg3.win 4).blk t).view.read (Elt Ideal) G = G := by
  have e0 := (idx3 t).2.2.2.2.2.2.2.2.1
  have e1 := (idx3 t).2.2.2.2.2.2.2.2.2.1
  funext y
  rw [View.read_apply]
  show G (((cfg3.win 4).blk t).view.emb y) = G y
  congr 1
  funext a; apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

theorem read3_5 (t : Fin cfg3.N) (G : S128x128.Idx → EReal) :
    ((cfg3.win 5).blk t).view.read (Elt Ideal) G = G := by
  have e0 := (idx3 t).2.2.2.2.2.2.2.2.2.2.1
  have e1 := (idx3 t).2.2.2.2.2.2.2.2.2.2.2.1
  funext y
  rw [View.read_apply]
  show G (((cfg3.win 5).blk t).view.emb y) = G y
  congr 1
  funext a; apply Fin.ext
  match a with
  | ⟨0, _⟩ => show win3_5.index t (0 : Fin 2) * 128 + 1 * (y 0).val = (y 0).val; rw [e0]; omega
  | ⟨1, _⟩ => show win3_5.index t (1 : Fin 2) * 128 + 1 * (y 1).val = (y 1).val; rw [e1]; omega

theorem read3_6 (t : Fin cfg3.N) (G : S1x128.Idx → EReal) :
    ((cfg3.win 6).blk t).view.read (Elt Ideal) G = G := by
  have e0 := (idx3 t).2.2.2.2.2.2.2.2.2.2.2.2.1
  have e1 := (idx3 t).2.2.2.2.2.2.2.2.2.2.2.2.2.1
  funext y
  rw [View.read_apply]
  show G (((cfg3.win 6).blk t).view.emb y) = G y
  congr 1
  funext a; apply Fin.ext
  match a with
  | ⟨0, _⟩ => show win3_6.index t (0 : Fin 2) * 1 + 1 * (y 0).val = (y 0).val; rw [e0]; omega
  | ⟨1, _⟩ => show win3_6.index t (1 : Fin 2) * 128 + 1 * (y 1).val = (y 1).val; rw [e1]; omega

theorem read3_7 (t : Fin cfg3.N) (G : S128x128.Idx → EReal) :
    ((cfg3.win 7).blk t).view.read (Elt Ideal) G = G := by
  have e0 := (idx3 t).2.2.2.2.2.2.2.2.2.2.2.2.2.2.1
  have e1 := (idx3 t).2.2.2.2.2.2.2.2.2.2.2.2.2.2.2.1
  funext y
  rw [View.read_apply]
  show G (((cfg3.win 7).blk t).view.emb y) = G y
  congr 1
  funext a; apply Fin.ext
  match a with
  | ⟨0, _⟩ => show win3_7.index t (0 : Fin 2) * 128 + 1 * (y 0).val = (y 0).val; rw [e0]; omega
  | ⟨1, _⟩ => show win3_7.index t (1 : Fin 2) * 128 + 1 * (y 1).val = (y 1).val; rw [e1]; omega

theorem read3_8 (t : Fin cfg3.N) (G : S1x128.Idx → EReal) :
    ((cfg3.win 8).blk t).view.read (Elt Ideal) G = G := by
  have e0 := (idx3 t).2.2.2.2.2.2.2.2.2.2.2.2.2.2.2.2.1
  have e1 := (idx3 t).2.2.2.2.2.2.2.2.2.2.2.2.2.2.2.2.2.1
  funext y
  rw [View.read_apply]
  show G (((cfg3.win 8).blk t).view.emb y) = G y
  congr 1
  funext a; apply Fin.ext
  match a with
  | ⟨0, _⟩ => show win3_8.index t (0 : Fin 2) * 1 + 1 * (y 0).val = (y 0).val; rw [e0]; omega
  | ⟨1, _⟩ => show win3_8.index t (1 : Fin 2) * 128 + 1 * (y 1).val = (y 1).val; rw [e1]; omega

theorem read3_9 (t : Fin cfg3.N) (G : S128x128.Idx → EReal) :
    ((cfg3.win 9).blk t).view.read (Elt Ideal) G = G := by
  have e0 := (idx3 t).2.2.2.2.2.2.2.2.2.2.2.2.2.2.2.2.2.2.1
  have e1 := (idx3 t).2.2.2.2.2.2.2.2.2.2.2.2.2.2.2.2.2.2.2.1
  funext y
  rw [View.read_apply]
  show G (((cfg3.win 9).blk t).view.emb y) = G y
  congr 1
  funext a; apply Fin.ext
  match a with
  | ⟨0, _⟩ => show win3_9.index t (0 : Fin 2) * 128 + 1 * (y 0).val = (y 0).val; rw [e0]; omega
  | ⟨1, _⟩ => show win3_9.index t (1 : Fin 2) * 128 + 1 * (y 1).val = (y 1).val; rw [e1]; omega

theorem read3_10 (t : Fin cfg3.N) (G : S1x128.Idx → EReal) :
    ((cfg3.win 10).blk t).view.read (Elt Ideal) G = G := by
  have e0 := (idx3 t).2.2.2.2.2.2.2.2.2.2.2.2.2.2.2.2.2.2.2.2.1
  have e1 := (idx3 t).2.2.2.2.2.2.2.2.2.2.2.2.2.2.2.2.2.2.2.2.2.1
  funext y
  rw [View.read_apply]
  show G (((cfg3.win 10).blk t).view.emb y) = G y
  congr 1
  funext a; apply Fin.ext
  match a with
  | ⟨0, _⟩ => show win3_10.index t (0 : Fin 2) * 1 + 1 * (y 0).val = (y 0).val; rw [e0]; omega
  | ⟨1, _⟩ => show win3_10.index t (1 : Fin 2) * 128 + 1 * (y 1).val = (y 1).val; rw [e1]; omega

theorem read3_11 (t : Fin cfg3.N) (G : S128x1.Idx → EReal) :
    ((cfg3.win 11).blk t).view.read (Elt Ideal) G = G := by
  have e0 := (idx3 t).2.2.2.2.2.2.2.2.2.2.2.2.2.2.2.2.2.2.2.2.2.2.1
  have e1 := (idx3 t).2.2.2.2.2.2.2.2.2.2.2.2.2.2.2.2.2.2.2.2.2.2.2.1
  funext y
  rw [View.read_apply]
  show G (((cfg3.win 11).blk t).view.emb y) = G y
  congr 1
  funext a; apply Fin.ext
  match a with
  | ⟨0, _⟩ => show win3_11.index t (0 : Fin 2) * 128 + 1 * (y 0).val = (y 0).val; rw [e0]; omega
  | ⟨1, _⟩ => show win3_11.index t (1 : Fin 2) * 1 + 1 * (y 1).val = (y 1).val; rw [e1]; omega

theorem read3_12 (t : Fin cfg3.N) (G : S1x1.Idx → EReal) :
    ((cfg3.win 12).blk t).view.read (Elt Ideal) G = G := by
  have e0 := (idx3 t).2.2.2.2.2.2.2.2.2.2.2.2.2.2.2.2.2.2.2.2.2.2.2.2.1
  have e1 := (idx3 t).2.2.2.2.2.2.2.2.2.2.2.2.2.2.2.2.2.2.2.2.2.2.2.2.2.1
  funext y
  rw [View.read_apply]
  show G (((cfg3.win 12).blk t).view.emb y) = G y
  congr 1
  funext a; apply Fin.ext
  match a with
  | ⟨0, _⟩ => show win3_12.index t (0 : Fin 2) * 1 + 1 * (y 0).val = (y 0).val; rw [e0]; omega
  | ⟨1, _⟩ => show win3_12.index t (1 : Fin 2) * 1 + 1 * (y 1).val = (y 1).val; rw [e1]; omega

theorem read3_13 (t : Fin cfg3.N) (G : S100000x1.Idx → EReal) :
    ((cfg3.win 13).blk t).view.read (Elt Ideal) G = Cert.Gcn.rowsBy (blockRow t.val (lt3 t)) G := by
  have e0 := (idx3 t).2.2.2.2.2.2.2.2.2.2.2.2.2.2.2.2.2.2.2.2.2.2.2.2.2.2.1
  have e1 := (idx3 t).2.2.2.2.2.2.2.2.2.2.2.2.2.2.2.2.2.2.2.2.2.2.2.2.2.2.2
  funext y
  rw [View.read_apply]
  show G (((cfg3.win 13).blk t).view.emb y) = G (ix2 (blockRow t.val (lt3 t) (y 0)) (y 1))
  congr 1
  funext a; apply Fin.ext
  match a with
  | ⟨0, _⟩ => show win3_13.index t (0 : Fin 2) * 10000 + 1 * (y 0).val = t.val * 10000 + (y 0).val; rw [e0]; omega
  | ⟨1, _⟩ => show win3_13.index t (1 : Fin 2) * 1 + 1 * (y 1).val = (y 1).val; rw [e1]; omega

set_option maxHeartbeats 2000000 in
/-- What point `t` writes back is block `t` of the tail's function of the arrays as the region finds them. -/
theorem flushed3 (c : Dev nD) (t : Fin cfg3.N) :
    (dat3 V c).flushed 13 t = ((cfg3.win 13).blk t).view.read (Elt Ideal)
      (Cert.Gcn.tail (V c main_v54 : S100000x128.Idx → EReal) (V c main_v42 : S100000x128.Idx → EReal) (V c main_v12 : S100000x1.Idx → EReal) (V c main_v13 : S100000x1.Idx → EReal)
        (V c main_v55 : S1x128.Idx → EReal) (V c main_arg8 : S128x128.Idx → EReal) (V c main_v56 : S1x128.Idx → EReal) (V c main_arg10 : S128x128.Idx → EReal) (V c main_v57 : S1x128.Idx → EReal)
        (V c main_arg12 : S128x128.Idx → EReal) (V c main_v58 : S1x128.Idx → EReal) (V c main_arg14 : S128x1.Idx → EReal) (V c main_v59 : S1x1.Idx → EReal)) := by
  show (cfg3.win 13).cut (grid3.coords t) ((dat3 V c).after 13 t) = _
  rw [after3_13]
  unfold out3_13
  rw [View.canon_unit_zero hz]
  simp only [View.ld_unit_zero (S := S10000x128) hz, View.ld_unit_zero (S := S10000x1) hz, View.ld_unit_zero (S := S1x128) hz,
    View.ld_unit_zero (S := S128x128) hz, View.ld_unit_zero (S := S128x1) hz, View.ld_unit_zero (S := S1x1) hz]
  rw [pay3, read3_13]
  have h0 : iblk3 V c 0 t = Cert.Gcn.rowsBy (blockRow t.val (lt3 t)) (V c main_v54 : S100000x128.Idx → EReal) := read3_0 t _
  have h1 : iblk3 V c 1 t = Cert.Gcn.rowsBy (blockRow t.val (lt3 t)) (V c main_v42 : S100000x128.Idx → EReal) := read3_1 t _
  have h2 : iblk3 V c 2 t = Cert.Gcn.rowsBy (blockRow t.val (lt3 t)) (V c main_v12 : S100000x1.Idx → EReal) := read3_2 t _
  have h3 : iblk3 V c 3 t = Cert.Gcn.rowsBy (blockRow t.val (lt3 t)) (V c main_v13 : S100000x1.Idx → EReal) := read3_3 t _
  have h4 : iblk3 V c 4 t = (V c main_v55 : S1x128.Idx → EReal) := read3_4 t _
  have h5 : iblk3 V c 5 t = (V c main_arg8 : S128x128.Idx → EReal) := read3_5 t _
  have h6 : iblk3 V c 6 t = (V c main_v56 : S1x128.Idx → EReal) := read3_6 t _
  have h7 : iblk3 V c 7 t = (V c main_arg10 : S128x128.Idx → EReal) := read3_7 t _
  have h8 : iblk3 V c 8 t = (V c main_v57 : S1x128.Idx → EReal) := read3_8 t _
  have h9 : iblk3 V c 9 t = (V c main_arg12 : S128x128.Idx → EReal) := read3_9 t _
  have h10 : iblk3 V c 10 t = (V c main_v58 : S1x128.Idx → EReal) := read3_10 t _
  have h11 : iblk3 V c 11 t = (V c main_arg14 : S128x1.Idx → EReal) := read3_11 t _
  have h12 : iblk3 V c 12 t = (V c main_v59 : S1x1.Idx → EReal) := read3_12 t _
  rw [h0, h1, h2, h3, h4, h5, h6, h7, h8, h9, h10, h11, h12]
  exact Cert.Gcn.tail_rows _ _ _ _ _ _ _ _ _ _ _ _ _ _

/-- Every row of the result array is in some point's block. -/
theorem cover3 (i : S100000x1.Idx) :
    ∃ t : Fin cfg3.N, (cfg3.win 13).flush t = true ∧ i ∈ ((cfg3.win 13).blk t).view.set := by
  have hi0 : (i 0).val < 100000 := (i 0).isLt
  have hi1 : (i 1).val < 1 := (i 1).isLt
  let t : Fin cfg3.N := ⟨(i 0).val / 10000, by have e : cfg3.N = 10 := N_3; omega⟩
  have e0 := (idx3 t).2.2.2.2.2.2.2.2.2.2.2.2.2.2.2.2.2.2.2.2.2.2.2.2.2.2.1
  have e1 := (idx3 t).2.2.2.2.2.2.2.2.2.2.2.2.2.2.2.2.2.2.2.2.2.2.2.2.2.2.2
  refine ⟨t, flush3_13 t, ?_⟩
  show i ∈ ((View.whole main_v60).slice (win3_13.rect t)).set
  rw [View.set_slice_whole, Rect.mem_set_unit]
  intro a
  match a with
  | ⟨0, _⟩ =>
    show win3_13.index t (0 : Fin 2) * 10000 ≤ (i 0).val ∧ (i 0).val < win3_13.index t (0 : Fin 2) * 10000 + 10000
    rw [e0]; show (i 0).val / 10000 * 10000 ≤ (i 0).val ∧ (i 0).val < (i 0).val / 10000 * 10000 + 10000; omega
  | ⟨1, _⟩ =>
    show win3_13.index t (1 : Fin 2) * 1 ≤ (i 1).val ∧ (i 1).val < win3_13.index t (1 : Fin 2) * 1 + 1
    rw [e1]; omega

/-- The result array after the region: the tail's function of the arrays as the region finds them. -/
theorem final3 (c : Dev nD) :
    (dat3 V c).arrAt 13 cfg3.N
      = Cert.Gcn.tail (V c main_v54 : S100000x128.Idx → EReal) (V c main_v42 : S100000x128.Idx → EReal) (V c main_v12 : S100000x1.Idx → EReal) (V c main_v13 : S100000x1.Idx → EReal)
        (V c main_v55 : S1x128.Idx → EReal) (V c main_arg8 : S128x128.Idx → EReal) (V c main_v56 : S1x128.Idx → EReal) (V c main_arg10 : S128x128.Idx → EReal) (V c main_v57 : S1x128.Idx → EReal)
        (V c main_arg12 : S128x128.Idx → EReal) (V c main_v58 : S1x128.Idx → EReal) (V c main_arg14 : S128x1.Idx → EReal) (V c main_v59 : S1x1.Idx → EReal) :=
  (dat3 V c).arrAt_eq_of_cover 13 _ (fun t _ => flushed3 V c t) cover3

end Cert.KernelIdeal.Reg

end
-- ==== Proof.KRun.lean ====
/-
  The kernel program's run, read: what each buffer that is still needed holds at each boundary between a stretch of
  host operations and a kernel, from the launch to the return, as a function of the sixteen argument arrays; at the
  end the result buffer holds `Stg.kerOut` of the arguments.

  A stretch leaves alone every buffer it does not write; a kernel leaves alone every buffer that is not one of its
  arrays, and its input arrays too; what a stretch computes is read in `HostRead`, what a kernel leaves in its
  output array in `Reg.final0 … final3`.
-/
import proofs.«142762_j63788854280505_2_alg».proof.Proof.Gen.KernelIdeal.Frame
import proofs.«142762_j63788854280505_2_alg».proof.Proof.KStages
import proofs.«142762_j63788854280505_2_alg».proof.Proof.KHost
import proofs.«142762_j63788854280505_2_alg».proof.Proof.KReg0
import proofs.«142762_j63788854280505_2_alg».proof.Proof.KReg1
import proofs.«142762_j63788854280505_2_alg».proof.Proof.KReg2
import proofs.«142762_j63788854280505_2_alg».proof.Proof.KReg3
import Idealize.ShloMosaic.Lib.Pipeline.Value
import Idealize.ShloMosaic.Lib.StableHlo.Run

set_option maxRecDepth 16384

noncomputable section

namespace Cert.KernelIdeal.Run

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.HostRead

local notation "𝕄" => MT nD τ sig Unit (Elt Ideal) ℕ (UR sig nD τ) ℕ

/-! ## A stretch leaves alone what it does not write -/

/-- No operation of the stretch writes the buffer: decided reference by reference. -/
macro "host_keep " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, Finset.mem_singleton]
    repeat' apply And.intro
    all_goals exact StableHlo.devRef_ne_of_ne (by decide))))

section Keep
variable (W : Valuation τ sig (Elt Ideal))
theorem keep0_arg0 : StableHlo.after (hostOps0 (F := Ideal)) W (Proc.devRef .tc main_arg0) = W (Proc.devRef .tc main_arg0) := by host_keep hostOps0
theorem keep0_arg2 : StableHlo.after (hostOps0 (F := Ideal)) W (Proc.devRef .tc main_arg2) = W (Proc.devRef .tc main_arg2) := by host_keep hostOps0
theorem keep0_arg3 : StableHlo.after (hostOps0 (F := Ideal)) W (Proc.devRef .tc main_arg3) = W (Proc.devRef .tc main_arg3) := by host_keep hostOps0
theorem keep0_arg4 : StableHlo.after (hostOps0 (F := Ideal)) W (Proc.devRef .tc main_arg4) = W (Proc.devRef .tc main_arg4) := by host_keep hostOps0
theorem keep0_arg5 : StableHlo.after (hostOps0 (F := Ideal)) W (Proc.devRef .tc main_arg5) = W (Proc.devRef .tc main_arg5) := by host_keep hostOps0
theorem keep0_arg6 : StableHlo.after (hostOps0 (F := Ideal)) W (Proc.devRef .tc main_arg6) = W (Proc.devRef .tc main_arg6) := by host_keep hostOps0
theorem keep0_arg7 : StableHlo.after (hostOps0 (F := Ideal)) W (Proc.devRef .tc main_arg7) = W (Proc.devRef .tc main_arg7) := by host_keep hostOps0
theorem keep0_arg8 : StableHlo.after (hostOps0 (F := Ideal)) W (Proc.devRef .tc main_arg8) = W (Proc.devRef .tc main_arg8) := by host_keep hostOps0
theorem keep0_arg9 : StableHlo.after (hostOps0 (F := Ideal)) W (Proc.devRef .tc main_arg9) = W (Proc.devRef .tc main_arg9) := by host_keep hostOps0
theorem keep0_arg10 : StableHlo.after (hostOps0 (F := Ideal)) W (Proc.devRef .tc main_arg10) = W (Proc.devRef .tc main_arg10) := by host_keep hostOps0
theorem keep0_arg11 : StableHlo.after (hostOps0 (F := Ideal)) W (Proc.devRef .tc main_arg11) = W (Proc.devRef .tc main_arg11) := by host_keep hostOps0
theorem keep0_arg12 : StableHlo.after (hostOps0 (F := Ideal)) W (Proc.devRef .tc main_arg12) = W (Proc.devRef .tc main_arg12) := by host_keep hostOps0
theorem keep0_arg13 : StableHlo.after (hostOps0 (F := Ideal)) W (Proc.devRef .tc main_arg13) = W (Proc.devRef .tc main_arg13) := by host_keep hostOps0
theorem keep0_arg14 : StableHlo.after (hostOps0 (F := Ideal)) W (Proc.devRef .tc main_arg14) = W (Proc.devRef .tc main_arg14) := by host_keep hostOps0
theorem keep0_arg15 : StableHlo.after (hostOps0 (F := Ideal)) W (Proc.devRef .tc main_arg15) = W (Proc.devRef .tc main_arg15) := by host_keep hostOps0
theorem keep1_v14 : StableHlo.after (hostOps1 (F := Ideal)) W (Proc.devRef .tc main_v14) = W (Proc.devRef .tc main_v14) := by host_keep hostOps1
theorem keep1_v12 : StableHlo.after (hostOps1 (F := Ideal)) W (Proc.devRef .tc main_v12) = W (Proc.devRef .tc main_v12) := by host_keep hostOps1
theorem keep1_v13 : StableHlo.after (hostOps1 (F := Ideal)) W (Proc.devRef .tc main_v13) = W (Proc.devRef .tc main_v13) := by host_keep hostOps1
theorem keep1_v1 : StableHlo.after (hostOps1 (F := Ideal)) W (Proc.devRef .tc main_v1) = W (Proc.devRef .tc main_v1) := by host_keep hostOps1
theorem keep1_v3 : StableHlo.after (hostOps1 (F := Ideal)) W (Proc.devRef .tc main_v3) = W (Proc.devRef .tc main_v3) := by host_keep hostOps1
theorem keep1_arg4 : StableHlo.after (hostOps1 (F := Ideal)) W (Proc.devRef .tc main_arg4) = W (Proc.devRef .tc main_arg4) := by host_keep hostOps1
theorem keep1_arg5 : StableHlo.after (hostOps1 (F := Ideal)) W (Proc.devRef .tc main_arg5) = W (Proc.devRef .tc main_arg5) := by host_keep hostOps1
theorem keep1_arg6 : StableHlo.after (hostOps1 (F := Ideal)) W (Proc.devRef .tc main_arg6) = W (Proc.devRef .tc main_arg6) := by host_keep hostOps1
theorem keep1_arg7 : StableHlo.after (hostOps1 (F := Ideal)) W (Proc.devRef .tc main_arg7) = W (Proc.devRef .tc main_arg7) := by host_keep hostOps1
theorem keep1_arg8 : StableHlo.after (hostOps1 (F := Ideal)) W (Proc.devRef .tc main_arg8) = W (Proc.devRef .tc main_arg8) := by host_keep hostOps1
theorem keep1_arg9 : StableHlo.after (hostOps1 (F := Ideal)) W (Proc.devRef .tc main_arg9) = W (Proc.devRef .tc main_arg9) := by host_keep hostOps1
theorem keep1_arg10 : StableHlo.after (hostOps1 (F := Ideal)) W (Proc.devRef .tc main_arg10) = W (Proc.devRef .tc main_arg10) := by host_keep hostOps1
theorem keep1_arg11 : StableHlo.after (hostOps1 (F := Ideal)) W (Proc.devRef .tc main_arg11) = W (Proc.devRef .tc main_arg11) := by host_keep hostOps1
theorem keep1_arg12 : StableHlo.after (hostOps1 (F := Ideal)) W (Proc.devRef .tc main_arg12) = W (Proc.devRef .tc main_arg12) := by host_keep hostOps1
theorem keep1_arg13 : StableHlo.after (hostOps1 (F := Ideal)) W (Proc.devRef .tc main_arg13) = W (Proc.devRef .tc main_arg13) := by host_keep hostOps1
theorem keep1_arg14 : StableHlo.after (hostOps1 (F := Ideal)) W (Proc.devRef .tc main_arg14) = W (Proc.devRef .tc main_arg14) := by host_keep hostOps1
theorem keep1_arg15 : StableHlo.after (hostOps1 (F := Ideal)) W (Proc.devRef .tc main_arg15) = W (Proc.devRef .tc main_arg15) := by host_keep hostOps1
theorem keep2_v28 : StableHlo.after (hostOps2 (F := Ideal)) W (Proc.devRef .tc main_v28) = W (Proc.devRef .tc main_v28) := by host_keep hostOps2
theorem keep2_v12 : StableHlo.after (hostOps2 (F := Ideal)) W (Proc.devRef .tc main_v12) = W (Proc.devRef .tc main_v12) := by host_keep hostOps2
theorem keep2_v13 : StableHlo.after (hostOps2 (F := Ideal)) W (Proc.devRef .tc main_v13) = W (Proc.devRef .tc main_v13) := by host_keep hostOps2
theorem keep2_v1 : StableHlo.after (hostOps2 (F := Ideal)) W (Proc.devRef .tc main_v1) = W (Proc.devRef .tc main_v1) := by host_keep hostOps2
theorem keep2_v3 : StableHlo.after (hostOps2 (F := Ideal)) W (Proc.devRef .tc main_v3) = W (Proc.devRef .tc main_v3) := by host_keep hostOps2
theorem keep2_arg6 : StableHlo.after (hostOps2 (F := Ideal)) W (Proc.devRef .tc main_arg6) = W (Proc.devRef .tc main_arg6) := by host_keep hostOps2
theorem keep2_arg7 : StableHlo.after (hostOps2 (F := Ideal)) W (Proc.devRef .tc main_arg7) = W (Proc.devRef .tc main_arg7) := by host_keep hostOps2
theorem keep2_arg8 : StableHlo.after (hostOps2 (F := Ideal)) W (Proc.devRef .tc main_arg8) = W (Proc.devRef .tc main_arg8) := by host_keep hostOps2
theorem keep2_arg9 : StableHlo.after (hostOps2 (F := Ideal)) W (Proc.devRef .tc main_arg9) = W (Proc.devRef .tc main_arg9) := by host_keep hostOps2
theorem keep2_arg10 : StableHlo.after (hostOps2 (F := Ideal)) W (Proc.devRef .tc main_arg10) = W (Proc.devRef .tc main_arg10) := by host_keep hostOps2
theorem keep2_arg11 : StableHlo.after (hostOps2 (F := Ideal)) W (Proc.devRef .tc main_arg11) = W (Proc.devRef .tc main_arg11) := by host_keep hostOps2
theorem keep2_arg12 : StableHlo.after (hostOps2 (F := Ideal)) W (Proc.devRef .tc main_arg12) = W (Proc.devRef .tc main_arg12) := by host_keep hostOps2
theorem keep2_arg13 : StableHlo.after (hostOps2 (F := Ideal)) W (Proc.devRef .tc main_arg13) = W (Proc.devRef .tc main_arg13) := by host_keep hostOps2
theorem keep2_arg14 : StableHlo.after (hostOps2 (F := Ideal)) W (Proc.devRef .tc main_arg14) = W (Proc.devRef .tc main_arg14) := by host_keep hostOps2
theorem keep2_arg15 : StableHlo.after (hostOps2 (F := Ideal)) W (Proc.devRef .tc main_arg15) = W (Proc.devRef .tc main_arg15) := by host_keep hostOps2
theorem keep3_v42 : StableHlo.after (hostOps3 (F := Ideal)) W (Proc.devRef .tc main_v42) = W (Proc.devRef .tc main_v42) := by host_keep hostOps3
theorem keep3_v12 : StableHlo.after (hostOps3 (F := Ideal)) W (Proc.devRef .tc main_v12) = W (Proc.devRef .tc main_v12) := by host_keep hostOps3
theorem keep3_v13 : StableHlo.after (hostOps3 (F := Ideal)) W (Proc.devRef .tc main_v13) = W (Proc.devRef .tc main_v13) := by host_keep hostOps3
theorem keep3_arg8 : StableHlo.after (hostOps3 (F := Ideal)) W (Proc.devRef .tc main_arg8) = W (Proc.devRef .tc main_arg8) := by host_keep hostOps3
theorem keep3_arg10 : StableHlo.after (hostOps3 (F := Ideal)) W (Proc.devRef .tc main_arg10) = W (Proc.devRef .tc main_arg10) := by host_keep hostOps3
theorem keep3_arg12 : StableHlo.after (hostOps3 (F := Ideal)) W (Proc.devRef .tc main_arg12) = W (Proc.devRef .tc main_arg12) := by host_keep hostOps3
theorem keep3_arg14 : StableHlo.after (hostOps3 (F := Ideal)) W (Proc.devRef .tc main_arg14) = W (Proc.devRef .tc main_arg14) := by host_keep hostOps3
end Keep

/-! ## The values -/

section Values
variable (m : (ℓ : Loc nD τ sig) → Buf (Elt Ideal) ℓ) (ρ : Dev nD → PrngReg) (c : Dev nD)

/-- An argument array as launched. -/
abbrev ar (b : Ref sig .tc) : Buf (Elt Ideal) ((c : Thread nD τ).loc b) := m ((c : Thread nD τ).loc b)

/-- The edges' sources and targets. -/
abbrev sV : Stg.EV := Stg.srcV (ar m c main_arg1)
abbrev dV : Stg.EV := Stg.dstV (ar m c main_arg1)
/-- The projected features entering each convolution. -/
def xw0 : Stg.XV := Cert.Linear.matProd (ar m c main_arg0 : S100000x128.Idx → EReal) (ar m c main_arg2 : S128x128.Idx → EReal)
def xw1 : Stg.XV :=
  Cert.Gcn.convNext (Stg.agg (xw0 m c) (sV m c) (dV m c)) (xw0 m c) (Stg.dcol (dV m c)) (Stg.d2col (dV m c))
    (Stg.brow (ar m c main_arg3)) (ar m c main_arg4 : S128x128.Idx → EReal)
def xw2 : Stg.XV :=
  Cert.Gcn.convNext (Stg.agg (xw1 m c) (sV m c) (dV m c)) (xw1 m c) (Stg.dcol (dV m c)) (Stg.d2col (dV m c))
    (Stg.brow (ar m c main_arg5)) (ar m c main_arg6 : S128x128.Idx → EReal)

/-! ### After the first stretch -/
theorem w1_arg0 : W1 m ρ c (Proc.devRef .tc main_arg0) = ar m c main_arg0 := keep0_arg0 (W0 m ρ c)
theorem w1_arg2 : W1 m ρ c (Proc.devRef .tc main_arg2) = ar m c main_arg2 := keep0_arg2 (W0 m ρ c)
theorem w1_arg3 : W1 m ρ c (Proc.devRef .tc main_arg3) = ar m c main_arg3 := keep0_arg3 (W0 m ρ c)
theorem w1_arg4 : W1 m ρ c (Proc.devRef .tc main_arg4) = ar m c main_arg4 := keep0_arg4 (W0 m ρ c)
theorem w1_arg5 : W1 m ρ c (Proc.devRef .tc main_arg5) = ar m c main_arg5 := keep0_arg5 (W0 m ρ c)
theorem w1_arg6 : W1 m ρ c (Proc.devRef .tc main_arg6) = ar m c main_arg6 := keep0_arg6 (W0 m ρ c)
theorem w1_arg7 : W1 m ρ c (Proc.devRef .tc main_arg7) = ar m c main_arg7 := keep0_arg7 (W0 m ρ c)
theorem w1_arg8 : W1 m ρ c (Proc.devRef .tc main_arg8) = ar m c main_arg8 := keep0_arg8 (W0 m ρ c)
theorem w1_arg9 : W1 m ρ c (Proc.devRef .tc main_arg9) = ar m c main_arg9 := keep0_arg9 (W0 m ρ c)
theorem w1_arg10 : W1 m ρ c (Proc.devRef .tc main_arg10) = ar m c main_arg10 := keep0_arg10 (W0 m ρ c)
theorem w1_arg11 : W1 m ρ c (Proc.devRef .tc main_arg11) = ar m c main_arg11 := keep0_arg11 (W0 m ρ c)
theorem w1_arg12 : W1 m ρ c (Proc.devRef .tc main_arg12) = ar m c main_arg12 := keep0_arg12 (W0 m ρ c)
theorem w1_arg13 : W1 m ρ c (Proc.devRef .tc main_arg13) = ar m c main_arg13 := keep0_arg13 (W0 m ρ c)
theorem w1_arg14 : W1 m ρ c (Proc.devRef .tc main_arg14) = ar m c main_arg14 := keep0_arg14 (W0 m ρ c)
theorem w1_arg15 : W1 m ρ c (Proc.devRef .tc main_arg15) = ar m c main_arg15 := keep0_arg15 (W0 m ρ c)
theorem w1_v1 : W1 m ρ c (Proc.devRef .tc main_v1) = sV m c := h0_v1 (W0 m ρ c)
theorem w1_v3 : W1 m ρ c (Proc.devRef .tc main_v3) = dV m c := h0_v3 (W0 m ρ c)
theorem w1_v12 : W1 m ρ c (Proc.devRef .tc main_v12) = Stg.dcol (dV m c) := h0_v12 (W0 m ρ c)
theorem w1_v13 : W1 m ρ c (Proc.devRef .tc main_v13) = Stg.d2col (dV m c) := h0_v13 (W0 m ρ c)

/-! ### After the first kernel -/
theorem w2_v1 : W2 m ρ c (Proc.devRef .tc main_v1) = sV m c := (W2_of_ne m ρ c main_v1 (by decide)).trans (w1_v1 m ρ c)
theorem w2_v3 : W2 m ρ c (Proc.devRef .tc main_v3) = dV m c := (W2_of_ne m ρ c main_v3 (by decide)).trans (w1_v3 m ρ c)
theorem w2_v12 : W2 m ρ c (Proc.devRef .tc main_v12) = Stg.dcol (dV m c) := (W2_of_ne m ρ c main_v12 (by decide)).trans (w1_v12 m ρ c)
theorem w2_v13 : W2 m ρ c (Proc.devRef .tc main_v13) = Stg.d2col (dV m c) := (W2_of_ne m ρ c main_v13 (by decide)).trans (w1_v13 m ρ c)
theorem w2_arg3 : W2 m ρ c (Proc.devRef .tc main_arg3) = ar m c main_arg3 := (W2_of_ne m ρ c main_arg3 (by decide)).trans (w1_arg3 m ρ c)
theorem w2_arg4 : W2 m ρ c (Proc.devRef .tc main_arg4) = ar m c main_arg4 := (W2_of_ne m ρ c main_arg4 (by decide)).trans (w1_arg4 m ρ c)
theorem w2_arg5 : W2 m ρ c (Proc.devRef .tc main_arg5) = ar m c main_arg5 := (W2_of_ne m ρ c main_arg5 (by decide)).trans (w1_arg5 m ρ c)
theorem w2_arg6 : W2 m ρ c (Proc.devRef .tc main_arg6) = ar m c main_arg6 := (W2_of_ne m ρ c main_arg6 (by decide)).trans (w1_arg6 m ρ c)
theorem w2_arg7 : W2 m ρ c (Proc.devRef .tc main_arg7) = ar m c main_arg7 := (W2_of_ne m ρ c main_arg7 (by decide)).trans (w1_arg7 m ρ c)
theorem w2_arg8 : W2 m ρ c (Proc.devRef .tc main_arg8) = ar m c main_arg8 := (W2_of_ne m ρ c main_arg8 (by decide)).trans (w1_arg8 m ρ c)
theorem w2_arg9 : W2 m ρ c (Proc.devRef .tc main_arg9) = ar m c main_arg9 := (W2_of_ne m ρ c main_arg9 (by decide)).trans (w1_arg9 m ρ c)
theorem w2_arg10 : W2 m ρ c (Proc.devRef .tc main_arg10) = ar m c main_arg10 := (W2_of_ne m ρ c main_arg10 (by decide)).trans (w1_arg10 m ρ c)
theorem w2_arg11 : W2 m ρ c (Proc.devRef .tc main_arg11) = ar m c main_arg11 := (W2_of_ne m ρ c main_arg11 (by decide)).trans (w1_arg11 m ρ c)
theorem w2_arg12 : W2 m ρ c (Proc.devRef .tc main_arg12) = ar m c main_arg12 := (W2_of_ne m ρ c main_arg12 (by decide)).trans (w1_arg12 m ρ c)
theorem w2_arg13 : W2 m ρ c (Proc.devRef .tc main_arg13) = ar m c main_arg13 := (W2_of_ne m ρ c main_arg13 (by decide)).trans (w1_arg13 m ρ c)
theorem w2_arg14 : W2 m ρ c (Proc.devRef .tc main_arg14) = ar m c main_arg14 := (W2_of_ne m ρ c main_arg14 (by decide)).trans (w1_arg14 m ρ c)
theorem w2_arg15 : W2 m ρ c (Proc.devRef .tc main_arg15) = ar m c main_arg15 := (W2_of_ne m ρ c main_arg15 (by decide)).trans (w1_arg15 m ρ c)
theorem w2_v14 : W2 m ρ c (Proc.devRef .tc main_v14) = xw0 m c := by
  refine (W2_arr m ρ c 2).trans ((Reg.final0 (V1 m ρ) c).trans ?_)
  have e0 : V1 m ρ c main_arg0 = _ := w1_arg0 m ρ c
  have e1 : V1 m ρ c main_arg2 = _ := w1_arg2 m ρ c
  rw [e0, e1]; rfl

/-! ### After the second stretch -/
theorem w3_v14 : W3 m ρ c (Proc.devRef .tc main_v14) = xw0 m c := (keep1_v14 (W2 m ρ c)).trans (w2_v14 m ρ c)
theorem w3_v12 : W3 m ρ c (Proc.devRef .tc main_v12) = Stg.dcol (dV m c) := (keep1_v12 (W2 m ρ c)).trans (w2_v12 m ρ c)
theorem w3_v13 : W3 m ρ c (Proc.devRef .tc main_v13) = Stg.d2col (dV m c) := (keep1_v13 (W2 m ρ c)).trans (w2_v13 m ρ c)
theorem w3_v1 : W3 m ρ c (Proc.devRef .tc main_v1) = sV m c := (keep1_v1 (W2 m ρ c)).trans (w2_v1 m ρ c)
theorem w3_v3 : W3 m ρ c (Proc.devRef .tc main_v3) = dV m c := (keep1_v3 (W2 m ρ c)).trans (w2_v3 m ρ c)
theorem w3_arg4 : W3 m ρ c (Proc.devRef .tc main_arg4) = ar m c main_arg4 := (keep1_arg4 (W2 m ρ c)).trans (w2_arg4 m ρ c)
theorem w3_arg5 : W3 m ρ c (Proc.devRef .tc main_arg5) = ar m c main_arg5 := (keep1_arg5 (W2 m ρ c)).trans (w2_arg5 m ρ c)
theorem w3_arg6 : W3 m ρ c (Proc.devRef .tc main_arg6) = ar m c main_arg6 := (keep1_arg6 (W2 m ρ c)).trans (w2_arg6 m ρ c)
theorem w3_arg7 : W3 m ρ c (Proc.devRef .tc main_arg7) = ar m c main_arg7 := (keep1_arg7 (W2 m ρ c)).trans (w2_arg7 m ρ c)
theorem w3_arg8 : W3 m ρ c (Proc.devRef .tc main_arg8) = ar m c main_arg8 := (keep1_arg8 (W2 m ρ c)).trans (w2_arg8 m ρ c)
theorem w3_arg9 : W3 m ρ c (Proc.devRef .tc main_arg9) = ar m c main_arg9 := (keep1_arg9 (W2 m ρ c)).trans (w2_arg9 m ρ c)
theorem w3_arg10 : W3 m ρ c (Proc.devRef .tc main_arg10) = ar m c main_arg10 := (keep1_arg10 (W2 m ρ c)).trans (w2_arg10 m ρ c)
theorem w3_arg11 : W3 m ρ c (Proc.devRef .tc main_arg11) = ar m c main_arg11 := (keep1_arg11 (W2 m ρ c)).trans (w2_arg11 m ρ c)
theorem w3_arg12 : W3 m ρ c (Proc.devRef .tc main_arg12) = ar m c main_arg12 := (keep1_arg12 (W2 m ρ c)).trans (w2_arg12 m ρ c)
theorem w3_arg13 : W3 m ρ c (Proc.devRef .tc main_arg13) = ar m c main_arg13 := (keep1_arg13 (W2 m ρ c)).trans (w2_arg13 m ρ c)
theorem w3_arg14 : W3 m ρ c (Proc.devRef .tc main_arg14) = ar m c main_arg14 := (keep1_arg14 (W2 m ρ c)).trans (w2_arg14 m ρ c)
theorem w3_arg15 : W3 m ρ c (Proc.devRef .tc main_arg15) = ar m c main_arg15 := (keep1_arg15 (W2 m ρ c)).trans (w2_arg15 m ρ c)
theorem w3_v26 : W3 m ρ c (Proc.devRef .tc main_v26) = Stg.agg (xw0 m c) (sV m c) (dV m c) := by
  refine (h1_v26 (W2 m ρ c)).trans ?_
  rw [w2_v14 m ρ c, w2_v12 m ρ c, w2_v1 m ρ c, w2_v3 m ρ c]
  exact (agg_eq _ _ _).symm
theorem w3_v27 : W3 m ρ c (Proc.devRef .tc main_v27) = Stg.brow (ar m c main_arg3) := by
  refine (h1_v27 (W2 m ρ c)).trans ?_
  rw [w2_arg3 m ρ c]

/-! ### After the second kernel -/
theorem w4_v1 : W4 m ρ c (Proc.devRef .tc main_v1) = sV m c := (W4_of_ne m ρ c main_v1 (by decide)).trans (w3_v1 m ρ c)
theorem w4_v3 : W4 m ρ c (Proc.devRef .tc main_v3) = dV m c := (W4_of_ne m ρ c main_v3 (by decide)).trans (w3_v3 m ρ c)
theorem w4_v12 : W4 m ρ c (Proc.devRef .tc main_v12) = Stg.dcol (dV m c) :=
  ((W4_arr m ρ c 2).trans (((dat1 (V3 m ρ) c).arrAt_in 2 rfl _).trans (A_eq1 (V3 m ρ) c 2))).trans (w3_v12 m ρ c)
theorem w4_v13 : W4 m ρ c (Proc.devRef .tc main_v13) = Stg.d2col (dV m c) :=
  ((W4_arr m ρ c 3).trans (((dat1 (V3 m ρ) c).arrAt_in 3 rfl _).trans (A_eq1 (V3 m ρ) c 3))).trans (w3_v13 m ρ c)
theorem w4_arg5 : W4 m ρ c (Proc.devRef .tc main_arg5) = ar m c main_arg5 := (W4_of_ne m ρ c main_arg5 (by decide)).trans (w3_arg5 m ρ c)
theorem w4_arg6 : W4 m ρ c (Proc.devRef .tc main_arg6) = ar m c main_arg6 := (W4_of_ne m ρ c main_arg6 (by decide)).trans (w3_arg6 m ρ c)
theorem w4_arg7 : W4 m ρ c (Proc.devRef .tc main_arg7) = ar m c main_arg7 := (W4_of_ne m ρ c main_arg7 (by decide)).trans (w3_arg7 m ρ c)
theorem w4_arg8 : W4 m ρ c (Proc.devRef .tc main_arg8) = ar m c main_arg8 := (W4_of_ne m ρ c main_arg8 (by decide)).trans (w3_arg8 m ρ c)
theorem w4_arg9 : W4 m ρ c (Proc.devRef .tc main_arg9) = ar m c main_arg9 := (W4_of_ne m ρ c main_arg9 (by decide)).trans (w3_arg9 m ρ c)
theorem w4_arg10 : W4 m ρ c (Proc.devRef .tc main_arg10) = ar m c main_arg10 := (W4_of_ne m ρ c main_arg10 (by decide)).trans (w3_arg10 m ρ c)
theorem w4_arg11 : W4 m ρ c (Proc.devRef .tc main_arg11) = ar m c main_arg11 := (W4_of_ne m ρ c main_arg11 (by decide)).trans (w3_arg11 m ρ c)
theorem w4_arg12 : W4 m ρ c (Proc.devRef .tc main_arg12) = ar m c main_arg12 := (W4_of_ne m ρ c main_arg12 (by decide)).trans (w3_arg12 m ρ c)
theorem w4_arg13 : W4 m ρ c (Proc.devRef .tc main_arg13) = ar m c main_arg13 := (W4_of_ne m ρ c main_arg13 (by decide)).trans (w3_arg13 m ρ c)
theorem w4_arg14 : W4 m ρ c (Proc.devRef .tc main_arg14) = ar m c main_arg14 := (W4_of_ne m ρ c main_arg14 (by decide)).trans (w3_arg14 m ρ c)
theorem w4_arg15 : W4 m ρ c (Proc.devRef .tc main_arg15) = ar m c main_arg15 := (W4_of_ne m ρ c main_arg15 (by decide)).trans (w3_arg15 m ρ c)
theorem w4_v28 : W4 m ρ c (Proc.devRef .tc main_v28) = xw1 m c := by
  refine (W4_arr m ρ c 6).trans ((Reg.final1 (V3 m ρ) c).trans ?_)
  have e0 : V3 m ρ c main_v26 = _ := w3_v26 m ρ c
  have e1 : V3 m ρ c main_v14 = _ := w3_v14 m ρ c
  have e2 : V3 m ρ c main_v12 = _ := w3_v12 m ρ c
  have e3 : V3 m ρ c main_v13 = _ := w3_v13 m ρ c
  have e4 : V3 m ρ c main_v27 = _ := w3_v27 m ρ c
  have e5 : V3 m ρ c main_arg4 = _ := w3_arg4 m ρ c
  rw [e0, e1, e2, e3, e4, e5]; rfl

/-! ### After the third stretch -/
theorem w5_v28 : W5 m ρ c (Proc.devRef .tc main_v28) = xw1 m c := (keep2_v28 (W4 m ρ c)).trans (w4_v28 m ρ c)
theorem w5_v12 : W5 m ρ c (Proc.devRef .tc main_v12) = Stg.dcol (dV m c) := (keep2_v12 (W4 m ρ c)).trans (w4_v12 m ρ c)
theorem w5_v13 : W5 m ρ c (Proc.devRef .tc main_v13) = Stg.d2col (dV m c) := (keep2_v13 (W4 m ρ c)).trans (w4_v13 m ρ c)
theorem w5_v1 : W5 m ρ c (Proc.devRef .tc main_v1) = sV m c := (keep2_v1 (W4 m ρ c)).trans (w4_v1 m ρ c)
theorem w5_v3 : W5 m ρ c (Proc.devRef .tc main_v3) = dV m c := (keep2_v3 (W4 m ρ c)).trans (w4_v3 m ρ c)
theorem w5_arg6 : W5 m ρ c (Proc.devRef .tc main_arg6) = ar m c main_arg6 := (keep2_arg6 (W4 m ρ c)).trans (w4_arg6 m ρ c)
theorem w5_arg7 : W5 m ρ c (Proc.devRef .tc main_arg7) = ar m c main_arg7 := (keep2_arg7 (W4 m ρ c)).trans (w4_arg7 m ρ c)
theorem w5_arg8 : W5 m ρ c (Proc.devRef .tc main_arg8) = ar m c main_arg8 := (keep2_arg8 (W4 m ρ c)).trans (w4_arg8 m ρ c)
theorem w5_arg9 : W5 m ρ c (Proc.devRef .tc main_arg9) = ar m c main_arg9 := (keep2_arg9 (W4 m ρ c)).trans (w4_arg9 m ρ c)
theorem w5_arg10 : W5 m ρ c (Proc.devRef .tc main_arg10) = ar m c main_arg10 := (keep2_arg10 (W4 m ρ c)).trans (w4_arg10 m ρ c)
theorem w5_arg11 : W5 m ρ c (Proc.devRef .tc main_arg11) = ar m c main_arg11 := (keep2_arg11 (W4 m ρ c)).trans (w4_arg11 m ρ c)
theorem w5_arg12 : W5 m ρ c (Proc.devRef .tc main_arg12) = ar m c main_arg12 := (keep2_arg12 (W4 m ρ c)).trans (w4_arg12 m ρ c)
theorem w5_arg13 : W5 m ρ c (Proc.devRef .tc main_arg13) = ar m c main_arg13 := (keep2_arg13 (W4 m ρ c)).trans (w4_arg13 m ρ c)
theorem w5_arg14 : W5 m ρ c (Proc.devRef .tc main_arg14) = ar m c main_arg14 := (keep2_arg14 (W4 m ρ c)).trans (w4_arg14 m ρ c)
theorem w5_arg15 : W5 m ρ c (Proc.devRef .tc main_arg15) = ar m c main_arg15 := (keep2_arg15 (W4 m ρ c)).trans (w4_arg15 m ρ c)
theorem w5_v40 : W5 m ρ c (Proc.devRef .tc main_v40) = Stg.agg (xw1 m c) (sV m c) (dV m c) := by
  refine (h2_v40 (W4 m ρ c)).trans ?_
  rw [w4_v28 m ρ c, w4_v12 m ρ c, w4_v1 m ρ c, w4_v3 m ρ c]
  exact (agg_eq _ _ _).symm
theorem w5_v41 : W5 m ρ c (Proc.devRef .tc main_v41) = Stg.brow (ar m c main_arg5) := by
  refine (h2_v41 (W4 m ρ c)).trans ?_
  rw [w4_arg5 m ρ c]

/-! ### After the third kernel -/
theorem w6_v1 : W6 m ρ c (Proc.devRef .tc main_v1) = sV m c := (W6_of_ne m ρ c main_v1 (by decide)).trans (w5_v1 m ρ c)
theorem w6_v3 : W6 m ρ c (Proc.devRef .tc main_v3) = dV m c := (W6_of_ne m ρ c main_v3 (by decide)).trans (w5_v3 m ρ c)
theorem w6_v12 : W6 m ρ c (Proc.devRef .tc main_v12) = Stg.dcol (dV m c) :=
  ((W6_arr m ρ c 2).trans (((dat2 (V5 m ρ) c).arrAt_in 2 rfl _).trans (A_eq2 (V5 m ρ) c 2))).trans (w5_v12 m ρ c)
theorem w6_v13 : W6 m ρ c (Proc.devRef .tc main_v13) = Stg.d2col (dV m c) :=
  ((W6_arr m ρ c 3).trans (((dat2 (V5 m ρ) c).arrAt_in 3 rfl _).trans (A_eq2 (V5 m ρ) c 3))).trans (w5_v13 m ρ c)
theorem w6_arg7 : W6 m ρ c (Proc.devRef .tc main_arg7) = ar m c main_arg7 := (W6_of_ne m ρ c main_arg7 (by decide)).trans (w5_arg7 m ρ c)
theorem w6_arg8 : W6 m ρ c (Proc.devRef .tc main_arg8) = ar m c main_arg8 := (W6_of_ne m ρ c main_arg8 (by decide)).trans (w5_arg8 m ρ c)
theorem w6_arg9 : W6 m ρ c (Proc.devRef .tc main_arg9) = ar m c main_arg9 := (W6_of_ne m ρ c main_arg9 (by decide)).trans (w5_arg9 m ρ c)
theorem w6_arg10 : W6 m ρ c (Proc.devRef .tc main_arg10) = ar m c main_arg10 := (W6_of_ne m ρ c main_arg10 (by decide)).trans (w5_arg10 m ρ c)
theorem w6_arg11 : W6 m ρ c (Proc.devRef .tc main_arg11) = ar m c main_arg11 := (W6_of_ne m ρ c main_arg11 (by decide)).trans (w5_arg11 m ρ c)
theorem w6_arg12 : W6 m ρ c (Proc.devRef .tc main_arg12) = ar m c main_arg12 := (W6_of_ne m ρ c main_arg12 (by decide)).trans (w5_arg12 m ρ c)
theorem w6_arg13 : W6 m ρ c (Proc.devRef .tc main_arg13) = ar m c main_arg13 := (W6_of_ne m ρ c main_arg13 (by decide)).trans (w5_arg13 m ρ c)
theorem w6_arg14 : W6 m ρ c (Proc.devRef .tc main_arg14) = ar m c main_arg14 := (W6_of_ne m ρ c main_arg14 (by decide)).trans (w5_arg14 m ρ c)
theorem w6_arg15 : W6 m ρ c (Proc.devRef .tc main_arg15) = ar m c main_arg15 := (W6_of_ne m ρ c main_arg15 (by decide)).trans (w5_arg15 m ρ c)
theorem w6_v42 : W6 m ρ c (Proc.devRef .tc main_v42) = xw2 m c := by
  refine (W6_arr m ρ c 6).trans ((Reg.final2 (V5 m ρ) c).trans ?_)
  have e0 : V5 m ρ c main_v40 = _ := w5_v40 m ρ c
  have e1 : V5 m ρ c main_v28 = _ := w5_v28 m ρ c
  have e2 : V5 m ρ c main_v12 = _ := w5_v12 m ρ c
  have e3 : V5 m ρ c main_v13 = _ := w5_v13 m ρ c
  have e4 : V5 m ρ c main_v41 = _ := w5_v41 m ρ c
  have e5 : V5 m ρ c main_arg6 = _ := w5_arg6 m ρ c
  rw [e0, e1, e2, e3, e4, e5]; rfl

/-! ### After the fourth stretch -/
theorem w7_v42 : W7 m ρ c (Proc.devRef .tc main_v42) = xw2 m c := (keep3_v42 (W6 m ρ c)).trans (w6_v42 m ρ c)
theorem w7_v12 : W7 m ρ c (Proc.devRef .tc main_v12) = Stg.dcol (dV m c) := (keep3_v12 (W6 m ρ c)).trans (w6_v12 m ρ c)
theorem w7_v13 : W7 m ρ c (Proc.devRef .tc main_v13) = Stg.d2col (dV m c) := (keep3_v13 (W6 m ρ c)).trans (w6_v13 m ρ c)
theorem w7_arg8 : W7 m ρ c (Proc.devRef .tc main_arg8) = ar m c main_arg8 := (keep3_arg8 (W6 m ρ c)).trans (w6_arg8 m ρ c)
theorem w7_arg10 : W7 m ρ c (Proc.devRef .tc main_arg10) = ar m c main_arg10 := (keep3_arg10 (W6 m ρ c)).trans (w6_arg10 m ρ c)
theorem w7_arg12 : W7 m ρ c (Proc.devRef .tc main_arg12) = ar m c main_arg12 := (keep3_arg12 (W6 m ρ c)).trans (w6_arg12 m ρ c)
theorem w7_arg14 : W7 m ρ c (Proc.devRef .tc main_arg14) = ar m c main_arg14 := (keep3_arg14 (W6 m ρ c)).trans (w6_arg14 m ρ c)
theorem w7_v54 : W7 m ρ c (Proc.devRef .tc main_v54) = Stg.agg (xw2 m c) (sV m c) (dV m c) := by
  refine (h3_v54 (W6 m ρ c)).trans ?_
  rw [w6_v42 m ρ c, w6_v12 m ρ c, w6_v1 m ρ c, w6_v3 m ρ c]
  exact (agg_eq _ _ _).symm
theorem w7_v55 : W7 m ρ c (Proc.devRef .tc main_v55) = Stg.brow (ar m c main_arg7) := by
  refine (h3_v55 (W6 m ρ c)).trans ?_
  rw [w6_arg7 m ρ c]
theorem w7_v56 : W7 m ρ c (Proc.devRef .tc main_v56) = Stg.brow (ar m c main_arg9) := by
  refine (h3_v56 (W6 m ρ c)).trans ?_
  rw [w6_arg9 m ρ c]
theorem w7_v57 : W7 m ρ c (Proc.devRef .tc main_v57) = Stg.brow (ar m c main_arg11) := by
  refine (h3_v57 (W6 m ρ c)).trans ?_
  rw [w6_arg11 m ρ c]
theorem w7_v58 : W7 m ρ c (Proc.devRef .tc main_v58) = Stg.brow (ar m c main_arg13) := by
  refine (h3_v58 (W6 m ρ c)).trans ?_
  rw [w6_arg13 m ρ c]
theorem w7_v59 : W7 m ρ c (Proc.devRef .tc main_v59) = Stg.b11 (ar m c main_arg15) := by
  refine (h3_v59 (W6 m ρ c)).trans ?_
  rw [w6_arg15 m ρ c]

/-! ### After the last kernel -/

set_option maxHeartbeats 2000000 in
/-- The result buffer at the return: the program's result function of the arguments. -/
theorem w8_v60 : W8 m ρ c (Proc.devRef .tc main_v60)
    = Stg.kerOut (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15) := by
  refine (W8_arr m ρ c 13).trans ((Reg.final3 (V7 m ρ) c).trans ?_)
  have e0 : V7 m ρ c main_v54 = _ := w7_v54 m ρ c
  have e1 : V7 m ρ c main_v42 = _ := w7_v42 m ρ c
  have e2 : V7 m ρ c main_v12 = _ := w7_v12 m ρ c
  have e3 : V7 m ρ c main_v13 = _ := w7_v13 m ρ c
  have e4 : V7 m ρ c main_v55 = _ := w7_v55 m ρ c
  have e5 : V7 m ρ c main_arg8 = _ := w7_arg8 m ρ c
  have e6 : V7 m ρ c main_v56 = _ := w7_v56 m ρ c
  have e7 : V7 m ρ c main_arg10 = _ := w7_arg10 m ρ c
  have e8 : V7 m ρ c main_v57 = _ := w7_v57 m ρ c
  have e9 : V7 m ρ c main_arg12 = _ := w7_arg12 m ρ c
  have e10 : V7 m ρ c main_v58 = _ := w7_v58 m ρ c
  have e11 : V7 m ρ c main_arg14 = _ := w7_arg14 m ρ c
  have e12 : V7 m ρ c main_v59 = _ := w7_v59 m ρ c
  rw [e0, e1, e2, e3, e4, e5, e6, e7, e8, e9, e10, e11, e12]; rfl

end Values

/-! ## The run -/

variable (m : (ℓ : Loc nD τ sig) → Buf (Elt Ideal) ℓ) (ρ : Dev nD → PrngReg)

set_option backward.isDefEq.respectTransparency.types false in
/-- Every weakly fair execution of the program terminates, nothing faulting, with the result buffer at the last
    boundary's contents: the launch over the segments, as for the frame, the result buffer read off the last thread
    state. -/
theorem run_last : θ_run defs (onTc (τ := τ) (main (F := Ideal))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

/-- The program's run: the result buffer ends at `Stg.kerOut` of the argument arrays as launched, and the
    argument arrays end as launched. -/
theorem run : θ_run defs (onTc (τ := τ) (main (F := Ideal))) ⟨m, fun _ => 0, ρ⟩ (fun r => ∀ c : Dev nD,
      r.2.mem ((c.tc : Thread nD τ).loc main_v60)
        = Stg.kerOut (ar m c main_arg0) (ar m c main_arg1) (ar m c main_arg2) (ar m c main_arg3) (ar m c main_arg4) (ar m c main_arg5) (ar m c main_arg6) (ar m c main_arg7) (ar m c main_arg8) (ar m c main_arg9) (ar m c main_arg10) (ar m c main_arg11) (ar m c main_arg12) (ar m c main_arg13) (ar m c main_arg14) (ar m c main_arg15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (w8_v60 m ρ c), (h c).2⟩) (run_last m ρ)

end Cert.KernelIdeal.Run

end
-- ==== Proof.RefOps.lean ====
/- (run in the unit directory). It lists, in order, the 256 host operations of the reference program: the statements of its
   four windows with the six calls written out at their call sites over the calls' records, cut into 20 consecutive pieces;
   and, per piece, the buffers its operations write. Window ends (operation counts): 62, 124, 212, 256. -/
import proofs.«142762_j63788854280505_2_alg».proof.ReferenceIdeal
import Idealize.ShloMosaic.Lib.StableHlo.Run

noncomputable section

namespace Cert.ReferenceIdeal.RefOps

open Cert.ReferenceIdeal Idealize.ShloMosaic Idealize.ShloMosaic.TcCoe Idealize.SL.Sem Idealize.ShloMosaic.StableHlo

variable {F : FTy → Type} [FloatOps F] [Facts]
open Facts₀ Facts

/-- 4 operations, ending at `main_v3`. -/
abbrev s0 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000 ]

/-- The buffers the operations of `s0` write. -/
abbrev s0_W : List (Ref sig .tc) :=
  [main_v0, main_v1, main_v2, main_v3]

/-- 11 operations, ending at `main_v11`. -/
abbrev d0 : List (HloOp τ sig (Elt F)) :=
  [ StableHlo.binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst (constant S_ .f32 0x3F800000#32),
    StableHlo.unary main_cst main_v5 (broadcastInDim S640000 ![] bcast_S_S640000 : (⟨S_, .f32⟩ : BufTy).Contents (Elt F) → (⟨S640000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S640000x1 ![0] bcast_S640000_S640000x1_0 : (⟨S640000, .i32⟩ : BufTy).Contents (Elt F) → (⟨S640000x1, .i32⟩ : BufTy).Contents (Elt F)),
    StableHlo.ternary main_v6 main_v7 main_v5 main_v8 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_1 (constant S_ .f32 0x3F800000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)) ]

/-- The buffers the operations of `d0` write. -/
abbrev d0_W : List (Ref sig .tc) :=
  [main_v4, main_cst, main_v5, main_cst_0, main_v6, main_v7, main_v8, main_cst_1, main_v9, main_v10, main_v11]

/-- 19 operations, ending at `main_v26`. -/
abbrev e0 : List (HloOp τ sig (Elt F)) :=
  [ StableHlo.nullary main_c (constantI S_ 32 0#32),
    StableHlo.unary main_c main_v12 (broadcastInDim S640000 ![] bcast_S_S640000 : (⟨S_, .i32⟩ : BufTy).Contents (Elt F) → (⟨S640000, .i32⟩ : BufTy).Contents (Elt F)),
    StableHlo.binary main_v1 main_v12 main_v13 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 100000#32),
    StableHlo.unary main_c_2 main_v14 (broadcastInDim S640000 ![] bcast_S_S640000 : (⟨S_, .i32⟩ : BufTy).Contents (Elt F) → (⟨S640000, .i32⟩ : BufTy).Contents (Elt F)),
    StableHlo.binary main_v1 main_v14 main_v15 (addi : (⟨S640000, .i32⟩ : BufTy).Contents (Elt F) → (⟨S640000, .i32⟩ : BufTy).Contents (Elt F) → (⟨S640000, .i32⟩ : BufTy).Contents (Elt F)),
    StableHlo.ternary main_v13 main_v15 main_v1 main_v16 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v16 main_v17 (broadcastInDim S640000x1 ![0] bcast_S640000_S640000x1_0 : (⟨S640000, .i32⟩ : BufTy).Contents (Elt F) → (⟨S640000x1, .i32⟩ : BufTy).Contents (Elt F)),
    StableHlo.binary main_v11 main_v17 main_v18 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    StableHlo.nullary main_c_3 (constantI S_ 32 0#32),
    StableHlo.unary main_c_3 main_v19 (broadcastInDim S640000 ![] bcast_S_S640000 : (⟨S_, .i32⟩ : BufTy).Contents (Elt F) → (⟨S640000, .i32⟩ : BufTy).Contents (Elt F)),
    StableHlo.binary main_v3 main_v19 main_v20 (cmpi .slt : (⟨S640000, .i32⟩ : BufTy).Contents (Elt F) → (⟨S640000, .i32⟩ : BufTy).Contents (Elt F) → (⟨S640000, .i1⟩ : BufTy).Contents (Elt F)),
    StableHlo.nullary main_c_4 (constantI S_ 32 100000#32),
    StableHlo.unary main_c_4 main_v21 (broadcastInDim S640000 ![] bcast_S_S640000 : (⟨S_, .i32⟩ : BufTy).Contents (Elt F) → (⟨S640000, .i32⟩ : BufTy).Contents (Elt F)),
    StableHlo.binary main_v3 main_v21 main_v22 (addi : (⟨S640000, .i32⟩ : BufTy).Contents (Elt F) → (⟨S640000, .i32⟩ : BufTy).Contents (Elt F) → (⟨S640000, .i32⟩ : BufTy).Contents (Elt F)),
    StableHlo.ternary main_v20 main_v22 main_v3 main_v23 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v23 main_v24 (broadcastInDim S640000x1 ![0] bcast_S640000_S640000x1_0 : (⟨S640000, .i32⟩ : BufTy).Contents (Elt F) → (⟨S640000x1, .i32⟩ : BufTy).Contents (Elt F)),
    StableHlo.binary main_v11 main_v24 main_v25 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    StableHlo.binary main_v18 main_v25 main_v26 (mulf : (⟨S640000, .f32⟩ : BufTy).Contents (Elt F) → (⟨S640000, .f32⟩ : BufTy).Contents (Elt F) → (⟨S640000, .f32⟩ : BufTy).Contents (Elt F)) ]

/-- The buffers the operations of `e0` write. -/
abbrev e0_W : List (Ref sig .tc) :=
  [main_c, main_v12, main_v13, main_c_2, main_v14, main_v15, main_v16, main_v17, main_v18, main_c_3, main_v19, main_v20, main_c_4, main_v21, main_v22, main_v23, main_v24, main_v25, main_v26]

/-- 12 operations, ending at `main_v36`. -/
abbrev g0 : List (HloOp τ sig (Elt F)) :=
  [ StableHlo.nullary main_c_5 (constantI S_ 32 0#32),
    StableHlo.unary main_c_5 main_v27 (broadcastInDim S640000 ![] bcast_S_S640000 : (⟨S_, .i32⟩ : BufTy).Contents (Elt F) → (⟨S640000, .i32⟩ : BufTy).Contents (Elt F)),
    StableHlo.binary main_v1 main_v27 main_v28 (cmpi .slt : (⟨S640000, .i32⟩ : BufTy).Contents (Elt F) → (⟨S640000, .i32⟩ : BufTy).Contents (Elt F) → (⟨S640000, .i1⟩ : BufTy).Contents (Elt F)),
    StableHlo.nullary main_c_6 (constantI S_ 32 100000#32),
    StableHlo.unary main_c_6 main_v29 (broadcastInDim S640000 ![] bcast_S_S640000 : (⟨S_, .i32⟩ : BufTy).Contents (Elt F) → (⟨S640000, .i32⟩ : BufTy).Contents (Elt F)),
    StableHlo.binary main_v1 main_v29 main_v30 (addi : (⟨S640000, .i32⟩ : BufTy).Contents (Elt F) → (⟨S640000, .i32⟩ : BufTy).Contents (Elt F) → (⟨S640000, .i32⟩ : BufTy).Contents (Elt F)),
    StableHlo.ternary main_v28 main_v30 main_v1 main_v31 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v31 main_v32 (broadcastInDim S640000x1 ![0] bcast_S640000_S640000x1_0 : (⟨S640000, .i32⟩ : BufTy).Contents (Elt F) → (⟨S640000x1, .i32⟩ : BufTy).Contents (Elt F)),
    StableHlo.binary main_v4 main_v32 main_v33 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.unary main_v26 main_v34 (broadcastInDim S640000x1 ![0] bcast_S640000_S640000x1_0 : (⟨S640000, .f32⟩ : BufTy).Contents (Elt F) → (⟨S640000x1, .f32⟩ : BufTy).Contents (Elt F)),
    StableHlo.unary main_v34 main_v35 (broadcastInDim S640000x128 ![0, 1] bcast_S640000x1_S640000x128_0_1 : (⟨S640000x1, .f32⟩ : BufTy).Contents (Elt F) → (⟨S640000x128, .f32⟩ : BufTy).Contents (Elt F)),
    StableHlo.binary main_v33 main_v35 main_v36 (mulf : (⟨S640000x128, .f32⟩ : BufTy).Contents (Elt F) → (⟨S640000x128, .f32⟩ : BufTy).Contents (Elt F) → (⟨S640000x128, .f32⟩ : BufTy).Contents (Elt F)) ]

/-- The buffers the operations of `g0` write. -/
abbrev g0_W : List (Ref sig .tc) :=
  [main_c_5, main_v27, main_v28, main_c_6, main_v29, main_v30, main_v31, main_v32, main_v33, main_v34, main_v35, main_v36]

/-- 16 operations, ending at `main_v49`. -/
abbrev a0 : List (HloOp τ sig (Elt F)) :=
  [ StableHlo.nullary main_cst_7 (constant S_ .f32 0x00000000#32),
    StableHlo.unary main_cst_7 main_v37 (broadcastInDim S100000x128 ![] bcast_S_S100000x128 : (⟨S_, .f32⟩ : BufTy).Contents (Elt F) → (⟨S100000x128, .f32⟩ : BufTy).Contents (Elt F)),
    StableHlo.unary main_v3 main_v38 (broadcastInDim S640000x1 ![0] bcast_S640000_S640000x1_0 : (⟨S640000, .i32⟩ : BufTy).Contents (Elt F) → (⟨S640000x1, .i32⟩ : BufTy).Contents (Elt F)),
    StableHlo.ternary main_v37 main_v38 main_v36 main_v39 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.binary main_v11 main_v11 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x128 ![0, 1] bcast_S100000x1_S100000x128_0_1 : (⟨S100000x1, .f32⟩ : BufTy).Contents (Elt F) → (⟨S100000x128, .f32⟩ : BufTy).Contents (Elt F)),
    StableHlo.binary main_v4 main_v42 main_v43 (mulf : (⟨S100000x128, .f32⟩ : BufTy).Contents (Elt F) → (⟨S100000x128, .f32⟩ : BufTy).Contents (Elt F) → (⟨S100000x128, .f32⟩ : BufTy).Contents (Elt F)),
    StableHlo.binary main_v39 main_v43 main_v44 (addf : (⟨S100000x128, .f32⟩ : BufTy).Contents (Elt F) → (⟨S100000x128, .f32⟩ : BufTy).Contents (Elt F) → (⟨S100000x128, .f32⟩ : BufTy).Contents (Elt F)),
    StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v46 main_v47 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v47 : StableHlo.TRef sig ⟨S100000x128, .f32⟩) main_call0.v0 main_call0.v1 maximumf,
    StableHlo.binary main_v48 main_arg4 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers the operations of `a0` write. -/
abbrev a0_W : List (Ref sig .tc) :=
  [main_cst_7, main_v37, main_v38, main_v39, main_v40, main_v41, main_v42, main_v43, main_v44, main_v45, main_v46, main_v47, main_call0_cst, main_call0_v0, main_v48, main_v49]

/-- 10 operations, ending at `main_v56`. -/
abbrev d1 : List (HloOp τ sig (Elt F)) :=
  [ StableHlo.nullary main_cst_8 (constant S_ .f32 0x3F800000#32),
    StableHlo.unary main_cst_8 main_v50 (broadcastInDim S640000 ![] bcast_S_S640000 : (⟨S_, .f32⟩ : BufTy).Contents (Elt F) → (⟨S640000, .f32⟩ : BufTy).Contents (Elt F)),
    StableHlo.nullary main_cst_9 (constant S_ .f32 0x00000000#32),
    StableHlo.unary main_cst_9 main_v51 (broadcastInDim S100000 ![] bcast_S_S100000 : (⟨S_, .f32⟩ : BufTy).Contents (Elt F) → (⟨S100000, .f32⟩ : BufTy).Contents (Elt F)),
    StableHlo.unary main_v3 main_v52 (broadcastInDim S640000x1 ![0] bcast_S640000_S640000x1_0 : (⟨S640000, .i32⟩ : BufTy).Contents (Elt F) → (⟨S640000x1, .i32⟩ : BufTy).Contents (Elt F)),
    StableHlo.ternary main_v51 main_v52 main_v50 main_v53 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_10 (constant S_ .f32 0x3F800000#32),
    StableHlo.unary main_cst_10 main_v54 (broadcastInDim S100000 ![] bcast_S_S100000 : (⟨S_, .f32⟩ : BufTy).Contents (Elt F) → (⟨S100000, .f32⟩ : BufTy).Contents (Elt F)),
    StableHlo.binary main_v53 main_v54 main_v55 (addf : (⟨S100000, .f32⟩ : BufTy).Contents (Elt F) → (⟨S100000, .f32⟩ : BufTy).Contents (Elt F) → (⟨S100000, .f32⟩ : BufTy).Contents (Elt F)),
    StableHlo.unary main_v55 main_v56 (Host.rsqrt : (⟨S100000, .f32⟩ : BufTy).Contents (Elt F) → (⟨S100000, .f32⟩ : BufTy).Contents (Elt F)) ]

/-- The buffers the operations of `d1` write. -/
abbrev d1_W : List (Ref sig .tc) :=
  [main_cst_8, main_v50, main_cst_9, main_v51, main_v52, main_v53, main_cst_10, main_v54, main_v55, main_v56]

/-- 19 operations, ending at `main_v71`. -/
abbrev e1 : List (HloOp τ sig (Elt F)) :=
  [ StableHlo.nullary main_c_11 (constantI S_ 32 0#32),
    StableHlo.unary main_c_11 main_v57 (broadcastInDim S640000 ![] bcast_S_S640000 : (⟨S_, .i32⟩ : BufTy).Contents (Elt F) → (⟨S640000, .i32⟩ : BufTy).Contents (Elt F)),
    StableHlo.binary main_v1 main_v57 main_v58 (cmpi .slt : (⟨S640000, .i32⟩ : BufTy).Contents (Elt F) → (⟨S640000, .i32⟩ : BufTy).Contents (Elt F) → (⟨S640000, .i1⟩ : BufTy).Contents (Elt F)),
    StableHlo.nullary main_c_12 (constantI S_ 32 100000#32),
    StableHlo.unary main_c_12 main_v59 (broadcastInDim S640000 ![] bcast_S_S640000 : (⟨S_, .i32⟩ : BufTy).Contents (Elt F) → (⟨S640000, .i32⟩ : BufTy).Contents (Elt F)),
    StableHlo.binary main_v1 main_v59 main_v60 (addi : (⟨S640000, .i32⟩ : BufTy).Contents (Elt F) → (⟨S640000, .i32⟩ : BufTy).Contents (Elt F) → (⟨S640000, .i32⟩ : BufTy).Contents (Elt F)),
    StableHlo.ternary main_v58 main_v60 main_v1 main_v61 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v61 main_v62 (broadcastInDim S640000x1 ![0] bcast_S640000_S640000x1_0 : (⟨S640000, .i32⟩ : BufTy).Contents (Elt F) → (⟨S640000x1, .i32⟩ : BufTy).Contents (Elt F)),
    StableHlo.binary main_v56 main_v62 main_v63 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    StableHlo.nullary main_c_13 (constantI S_ 32 0#32),
    StableHlo.unary main_c_13 main_v64 (broadcastInDim S640000 ![] bcast_S_S640000 : (⟨S_, .i32⟩ : BufTy).Contents (Elt F) → (⟨S640000, .i32⟩ : BufTy).Contents (Elt F)),
    StableHlo.binary main_v3 main_v64 main_v65 (cmpi .slt : (⟨S640000, .i32⟩ : BufTy).Contents (Elt F) → (⟨S640000, .i32⟩ : BufTy).Contents (Elt F) → (⟨S640000, .i1⟩ : BufTy).Contents (Elt F)),
    StableHlo.nullary main_c_14 (constantI S_ 32 100000#32),
    StableHlo.unary main_c_14 main_v66 (broadcastInDim S640000 ![] bcast_S_S640000 : (⟨S_, .i32⟩ : BufTy).Contents (Elt F) → (⟨S640000, .i32⟩ : BufTy).Contents (Elt F)),
    StableHlo.binary main_v3 main_v66 main_v67 (addi : (⟨S640000, .i32⟩ : BufTy).Contents (Elt F) → (⟨S640000, .i32⟩ : BufTy).Contents (Elt F) → (⟨S640000, .i32⟩ : BufTy).Contents (Elt F)),
    StableHlo.ternary main_v65 main_v67 main_v3 main_v68 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v68 main_v69 (broadcastInDim S640000x1 ![0] bcast_S640000_S640000x1_0 : (⟨S640000, .i32⟩ : BufTy).Contents (Elt F) → (⟨S640000x1, .i32⟩ : BufTy).Contents (Elt F)),
    StableHlo.binary main_v56 main_v69 main_v70 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    StableHlo.binary main_v63 main_v70 main_v71 (mulf : (⟨S640000, .f32⟩ : BufTy).Contents (Elt F) → (⟨S640000, .f32⟩ : BufTy).Contents (Elt F) → (⟨S640000, .f32⟩ : BufTy).Contents (Elt F)) ]

/-- The buffers the operations of `e1` write. -/
abbrev e1_W : List (Ref sig .tc) :=
  [main_c_11, main_v57, main_v58, main_c_12, main_v59, main_v60, main_v61, main_v62, main_v63, main_c_13, main_v64, main_v65, main_c_14, main_v66, main_v67, main_v68, main_v69, main_v70, main_v71]

/-- 12 operations, ending at `main_v81`. -/
abbrev g1 : List (HloOp τ sig (Elt F)) :=
  [ StableHlo.nullary main_c_15 (constantI S_ 32 0#32),
    StableHlo.unary main_c_15 main_v72 (broadcastInDim S640000 ![] bcast_S_S640000 : (⟨S_, .i32⟩ : BufTy).Contents (Elt F) → (⟨S640000, .i32⟩ : BufTy).Contents (Elt F)),
    StableHlo.binary main_v1 main_v72 main_v73 (cmpi .slt : (⟨S640000, .i32⟩ : BufTy).Contents (Elt F) → (⟨S640000, .i32⟩ : BufTy).Contents (Elt F) → (⟨S640000, .i1⟩ : BufTy).Contents (Elt F)),
    StableHlo.nullary main_c_16 (constantI S_ 32 100000#32),
    StableHlo.unary main_c_16 main_v74 (broadcastInDim S640000 ![] bcast_S_S640000 : (⟨S_, .i32⟩ : BufTy).Contents (Elt F) → (⟨S640000, .i32⟩ : BufTy).Contents (Elt F)),
    StableHlo.binary main_v1 main_v74 main_v75 (addi : (⟨S640000, .i32⟩ : BufTy).Contents (Elt F) → (⟨S640000, .i32⟩ : BufTy).Contents (Elt F) → (⟨S640000, .i32⟩ : BufTy).Contents (Elt F)),
    StableHlo.ternary main_v73 main_v75 main_v1 main_v76 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v76 main_v77 (broadcastInDim S640000x1 ![0] bcast_S640000_S640000x1_0 : (⟨S640000, .i32⟩ : BufTy).Contents (Elt F) → (⟨S640000x1, .i32⟩ : BufTy).Contents (Elt F)),
    StableHlo.binary main_v49 main_v77 main_v78 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.unary main_v71 main_v79 (broadcastInDim S640000x1 ![0] bcast_S640000_S640000x1_0 : (⟨S640000, .f32⟩ : BufTy).Contents (Elt F) → (⟨S640000x1, .f32⟩ : BufTy).Contents (Elt F)),
    StableHlo.unary main_v79 main_v80 (broadcastInDim S640000x128 ![0, 1] bcast_S640000x1_S640000x128_0_1 : (⟨S640000x1, .f32⟩ : BufTy).Contents (Elt F) → (⟨S640000x128, .f32⟩ : BufTy).Contents (Elt F)),
    StableHlo.binary main_v78 main_v80 main_v81 (mulf : (⟨S640000x128, .f32⟩ : BufTy).Contents (Elt F) → (⟨S640000x128, .f32⟩ : BufTy).Contents (Elt F) → (⟨S640000x128, .f32⟩ : BufTy).Contents (Elt F)) ]

/-- The buffers the operations of `g1` write. -/
abbrev g1_W : List (Ref sig .tc) :=
  [main_c_15, main_v72, main_v73, main_c_16, main_v74, main_v75, main_v76, main_v77, main_v78, main_v79, main_v80, main_v81]

/-- 16 operations, ending at `main_v94`. -/
abbrev a1 : List (HloOp τ sig (Elt F)) :=
  [ StableHlo.nullary main_cst_17 (constant S_ .f32 0x00000000#32),
    StableHlo.unary main_cst_17 main_v82 (broadcastInDim S100000x128 ![] bcast_S_S100000x128 : (⟨S_, .f32⟩ : BufTy).Contents (Elt F) → (⟨S100000x128, .f32⟩ : BufTy).Contents (Elt F)),
    StableHlo.unary main_v3 main_v83 (broadcastInDim S640000x1 ![0] bcast_S640000_S640000x1_0 : (⟨S640000, .i32⟩ : BufTy).Contents (Elt F) → (⟨S640000x1, .i32⟩ : BufTy).Contents (Elt F)),
    StableHlo.ternary main_v82 main_v83 main_v81 main_v84 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.binary main_v56 main_v56 main_v85 (mulf : (⟨S100000, .f32⟩ : BufTy).Contents (Elt F) → (⟨S100000, .f32⟩ : BufTy).Contents (Elt F) → (⟨S100000, .f32⟩ : BufTy).Contents (Elt F)),
    StableHlo.unary main_v85 main_v86 (broadcastInDim S100000x1 ![0] bcast_S100000_S100000x1_0 : (⟨S100000, .f32⟩ : BufTy).Contents (Elt F) → (⟨S100000x1, .f32⟩ : BufTy).Contents (Elt F)),
    StableHlo.unary main_v86 main_v87 (broadcastInDim S100000x128 ![0, 1] bcast_S100000x1_S100000x128_0_1 : (⟨S100000x1, .f32⟩ : BufTy).Contents (Elt F) → (⟨S100000x128, .f32⟩ : BufTy).Contents (Elt F)),
    StableHlo.binary main_v49 main_v87 main_v88 (mulf : (⟨S100000x128, .f32⟩ : BufTy).Contents (Elt F) → (⟨S100000x128, .f32⟩ : BufTy).Contents (Elt F) → (⟨S100000x128, .f32⟩ : BufTy).Contents (Elt F)),
    StableHlo.binary main_v84 main_v88 main_v89 (addf : (⟨S100000x128, .f32⟩ : BufTy).Contents (Elt F) → (⟨S100000x128, .f32⟩ : BufTy).Contents (Elt F) → (⟨S100000x128, .f32⟩ : BufTy).Contents (Elt F)),
    StableHlo.unary main_arg5 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v91 main_v92 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v92 : StableHlo.TRef sig ⟨S100000x128, .f32⟩) main_call1.v0 main_call1.v1 maximumf,
    StableHlo.binary main_v93 main_arg6 main_v94 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers the operations of `a1` write. -/
abbrev a1_W : List (Ref sig .tc) :=
  [main_cst_17, main_v82, main_v83, main_v84, main_v85, main_v86, main_v87, main_v88, main_v89, main_v90, main_v91, main_v92, main_call1_cst, main_call1_v0, main_v93, main_v94]

/-- 5 operations, ending at `main_v97`. -/
abbrev d2a : List (HloOp τ sig (Elt F)) :=
  [ StableHlo.nullary main_cst_18 (constant S_ .f32 0x3F800000#32),
    StableHlo.unary main_cst_18 main_v95 (broadcastInDim S640000 ![] bcast_S_S640000 : (⟨S_, .f32⟩ : BufTy).Contents (Elt F) → (⟨S640000, .f32⟩ : BufTy).Contents (Elt F)),
    StableHlo.nullary main_cst_19 (constant S_ .f32 0x00000000#32),
    StableHlo.unary main_cst_19 main_v96 (broadcastInDim S100000 ![] bcast_S_S100000 : (⟨S_, .f32⟩ : BufTy).Contents (Elt F) → (⟨S100000, .f32⟩ : BufTy).Contents (Elt F)),
    StableHlo.unary main_v3 main_v97 (broadcastInDim S640000x1 ![0] bcast_S640000_S640000x1_0 : (⟨S640000, .i32⟩ : BufTy).Contents (Elt F) → (⟨S640000x1, .i32⟩ : BufTy).Contents (Elt F)) ]

/-- The buffers the operations of `d2a` write. -/
abbrev d2a_W : List (Ref sig .tc) :=
  [main_cst_18, main_v95, main_cst_19, main_v96, main_v97]

/-- 5 operations, ending at `main_v101`. -/
abbrev d2b : List (HloOp τ sig (Elt F)) :=
  [ StableHlo.ternary main_v96 main_v97 main_v95 main_v98 ((fun x i u => Host.scatterAdd scatter_S100000_S640000x1_S640000_n_0_0_1 x i u) : (⟨S100000, .f32⟩ : BufTy).Contents (Elt F) → (⟨S640000x1, .i32⟩ : BufTy).Contents (Elt F) → (⟨S640000, .f32⟩ : BufTy).Contents (Elt F) → (⟨S100000, .f32⟩ : BufTy).Contents (Elt F)),
    StableHlo.nullary main_cst_20 (constant S_ .f32 0x3F800000#32),
    StableHlo.unary main_cst_20 main_v99 (broadcastInDim S100000 ![] bcast_S_S100000 : (⟨S_, .f32⟩ : BufTy).Contents (Elt F) → (⟨S100000, .f32⟩ : BufTy).Contents (Elt F)),
    StableHlo.binary main_v98 main_v99 main_v100 (addf : (⟨S100000, .f32⟩ : BufTy).Contents (Elt F) → (⟨S100000, .f32⟩ : BufTy).Contents (Elt F) → (⟨S100000, .f32⟩ : BufTy).Contents (Elt F)),
    StableHlo.unary main_v100 main_v101 (Host.rsqrt : (⟨S100000, .f32⟩ : BufTy).Contents (Elt F) → (⟨S100000, .f32⟩ : BufTy).Contents (Elt F)) ]

/-- The buffers the operations of `d2b` write. -/
abbrev d2b_W : List (Ref sig .tc) :=
  [main_v98, main_cst_20, main_v99, main_v100, main_v101]

/-- 19 operations, ending at `main_v116`. -/
abbrev e2 : List (HloOp τ sig (Elt F)) :=
  [ StableHlo.nullary main_c_21 (constantI S_ 32 0#32),
    StableHlo.unary main_c_21 main_v102 (broadcastInDim S640000 ![] bcast_S_S640000 : (⟨S_, .i32⟩ : BufTy).Contents (Elt F) → (⟨S640000, .i32⟩ : BufTy).Contents (Elt F)),
    StableHlo.binary main_v1 main_v102 main_v103 (cmpi .slt : (⟨S640000, .i32⟩ : BufTy).Contents (Elt F) → (⟨S640000, .i32⟩ : BufTy).Contents (Elt F) → (⟨S640000, .i1⟩ : BufTy).Contents (Elt F)),
    StableHlo.nullary main_c_22 (constantI S_ 32 100000#32),
    StableHlo.unary main_c_22 main_v104 (broadcastInDim S640000 ![] bcast_S_S640000 : (⟨S_, .i32⟩ : BufTy).Contents (Elt F) → (⟨S640000, .i32⟩ : BufTy).Contents (Elt F)),
    StableHlo.binary main_v1 main_v104 main_v105 (addi : (⟨S640000, .i32⟩ : BufTy).Contents (Elt F) → (⟨S640000, .i32⟩ : BufTy).Contents (Elt F) → (⟨S640000, .i32⟩ : BufTy).Contents (Elt F)),
    StableHlo.ternary main_v103 main_v105 main_v1 main_v106 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v106 main_v107 (broadcastInDim S640000x1 ![0] bcast_S640000_S640000x1_0 : (⟨S640000, .i32⟩ : BufTy).Contents (Elt F) → (⟨S640000x1, .i32⟩ : BufTy).Contents (Elt F)),
    StableHlo.binary main_v101 main_v107 main_v108 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    StableHlo.nullary main_c_23 (constantI S_ 32 0#32),
    StableHlo.unary main_c_23 main_v109 (broadcastInDim S640000 ![] bcast_S_S640000 : (⟨S_, .i32⟩ : BufTy).Contents (Elt F) → (⟨S640000, .i32⟩ : BufTy).Contents (Elt F)),
    StableHlo.binary main_v3 main_v109 main_v110 (cmpi .slt : (⟨S640000, .i32⟩ : BufTy).Contents (Elt F) → (⟨S640000, .i32⟩ : BufTy).Contents (Elt F) → (⟨S640000, .i1⟩ : BufTy).Contents (Elt F)),
    StableHlo.nullary main_c_24 (constantI S_ 32 100000#32),
    StableHlo.unary main_c_24 main_v111 (broadcastInDim S640000 ![] bcast_S_S640000 : (⟨S_, .i32⟩ : BufTy).Contents (Elt F) → (⟨S640000, .i32⟩ : BufTy).Contents (Elt F)),
    StableHlo.binary main_v3 main_v111 main_v112 (addi : (⟨S640000, .i32⟩ : BufTy).Contents (Elt F) → (⟨S640000, .i32⟩ : BufTy).Contents (Elt F) → (⟨S640000, .i32⟩ : BufTy).Contents (Elt F)),
    StableHlo.ternary main_v110 main_v112 main_v3 main_v113 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v113 main_v114 (broadcastInDim S640000x1 ![0] bcast_S640000_S640000x1_0 : (⟨S640000, .i32⟩ : BufTy).Contents (Elt F) → (⟨S640000x1, .i32⟩ : BufTy).Contents (Elt F)),
    StableHlo.binary main_v101 main_v114 main_v115 ((fun x i => Host.gather gather_S100000_S640000x1_S640000_n_0_n_n_0_1_1 x i) : (⟨S100000, .f32⟩ : BufTy).Contents (Elt F) → (⟨S640000x1, .i32⟩ : BufTy).Contents (Elt F) → (⟨S640000, .f32⟩ : BufTy).Contents (Elt F)),
    StableHlo.binary main_v108 main_v115 main_v116 (mulf : (⟨S640000, .f32⟩ : BufTy).Contents (Elt F) → (⟨S640000, .f32⟩ : BufTy).Contents (Elt F) → (⟨S640000, .f32⟩ : BufTy).Contents (Elt F)) ]

/-- The buffers the operations of `e2` write. -/
abbrev e2_W : List (Ref sig .tc) :=
  [main_c_21, main_v102, main_v103, main_c_22, main_v104, main_v105, main_v106, main_v107, main_v108, main_c_23, main_v109, main_v110, main_c_24, main_v111, main_v112, main_v113, main_v114, main_v115, main_v116]

/-- 12 operations, ending at `main_v126`. -/
abbrev g2 : List (HloOp τ sig (Elt F)) :=
  [ StableHlo.nullary main_c_25 (constantI S_ 32 0#32),
    StableHlo.unary main_c_25 main_v117 (broadcastInDim S640000 ![] bcast_S_S640000 : (⟨S_, .i32⟩ : BufTy).Contents (Elt F) → (⟨S640000, .i32⟩ : BufTy).Contents (Elt F)),
    StableHlo.binary main_v1 main_v117 main_v118 (cmpi .slt : (⟨S640000, .i32⟩ : BufTy).Contents (Elt F) → (⟨S640000, .i32⟩ : BufTy).Contents (Elt F) → (⟨S640000, .i1⟩ : BufTy).Contents (Elt F)),
    StableHlo.nullary main_c_26 (constantI S_ 32 100000#32),
    StableHlo.unary main_c_26 main_v119 (broadcastInDim S640000 ![] bcast_S_S640000 : (⟨S_, .i32⟩ : BufTy).Contents (Elt F) → (⟨S640000, .i32⟩ : BufTy).Contents (Elt F)),
    StableHlo.binary main_v1 main_v119 main_v120 (addi : (⟨S640000, .i32⟩ : BufTy).Contents (Elt F) → (⟨S640000, .i32⟩ : BufTy).Contents (Elt F) → (⟨S640000, .i32⟩ : BufTy).Contents (Elt F)),
    StableHlo.ternary main_v118 main_v120 main_v1 main_v121 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v121 main_v122 (broadcastInDim S640000x1 ![0] bcast_S640000_S640000x1_0 : (⟨S640000, .i32⟩ : BufTy).Contents (Elt F) → (⟨S640000x1, .i32⟩ : BufTy).Contents (Elt F)),
    StableHlo.binary main_v94 main_v122 main_v123 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.unary main_v116 main_v124 (broadcastInDim S640000x1 ![0] bcast_S640000_S640000x1_0 : (⟨S640000, .f32⟩ : BufTy).Contents (Elt F) → (⟨S640000x1, .f32⟩ : BufTy).Contents (Elt F)),
    StableHlo.unary main_v124 main_v125 (broadcastInDim S640000x128 ![0, 1] bcast_S640000x1_S640000x128_0_1 : (⟨S640000x1, .f32⟩ : BufTy).Contents (Elt F) → (⟨S640000x128, .f32⟩ : BufTy).Contents (Elt F)),
    StableHlo.binary main_v123 main_v125 main_v126 (mulf : (⟨S640000x128, .f32⟩ : BufTy).Contents (Elt F) → (⟨S640000x128, .f32⟩ : BufTy).Contents (Elt F) → (⟨S640000x128, .f32⟩ : BufTy).Contents (Elt F)) ]

/-- The buffers the operations of `g2` write. -/
abbrev g2_W : List (Ref sig .tc) :=
  [main_c_25, main_v117, main_v118, main_c_26, main_v119, main_v120, main_v121, main_v122, main_v123, main_v124, main_v125, main_v126]

/-- 12 operations, ending at `main_v137`. -/
abbrev a2 : List (HloOp τ sig (Elt F)) :=
  [ StableHlo.nullary main_cst_27 (constant S_ .f32 0x00000000#32),
    StableHlo.unary main_cst_27 main_v127 (broadcastInDim S100000x128 ![] bcast_S_S100000x128 : (⟨S_, .f32⟩ : BufTy).Contents (Elt F) → (⟨S100000x128, .f32⟩ : BufTy).Contents (Elt F)),
    StableHlo.unary main_v3 main_v128 (broadcastInDim S640000x1 ![0] bcast_S640000_S640000x1_0 : (⟨S640000, .i32⟩ : BufTy).Contents (Elt F) → (⟨S640000x1, .i32⟩ : BufTy).Contents (Elt F)),
    StableHlo.ternary main_v127 main_v128 main_v126 main_v129 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    StableHlo.binary main_v101 main_v101 main_v130 (mulf : (⟨S100000, .f32⟩ : BufTy).Contents (Elt F) → (⟨S100000, .f32⟩ : BufTy).Contents (Elt F) → (⟨S100000, .f32⟩ : BufTy).Contents (Elt F)),
    StableHlo.unary main_v130 main_v131 (broadcastInDim S100000x1 ![0] bcast_S100000_S100000x1_0 : (⟨S100000, .f32⟩ : BufTy).Contents (Elt F) → (⟨S100000x1, .f32⟩ : BufTy).Contents (Elt F)),
    StableHlo.unary main_v131 main_v132 (broadcastInDim S100000x128 ![0, 1] bcast_S100000x1_S100000x128_0_1 : (⟨S100000x1, .f32⟩ : BufTy).Contents (Elt F) → (⟨S100000x128, .f32⟩ : BufTy).Contents (Elt F)),
    StableHlo.binary main_v94 main_v132 main_v133 (mulf : (⟨S100000x128, .f32⟩ : BufTy).Contents (Elt F) → (⟨S100000x128, .f32⟩ : BufTy).Contents (Elt F) → (⟨S100000x128, .f32⟩ : BufTy).Contents (Elt F)),
    StableHlo.binary main_v129 main_v133 main_v134 (addf : (⟨S100000x128, .f32⟩ : BufTy).Contents (Elt F) → (⟨S100000x128, .f32⟩ : BufTy).Contents (Elt F) → (⟨S100000x128, .f32⟩ : BufTy).Contents (Elt F)),
    StableHlo.unary main_arg7 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v134 main_v136 main_v137 (addf : (⟨S100000x128, .f32⟩ : BufTy).Contents (Elt F) → (⟨S100000x128, .f32⟩ : BufTy).Contents (Elt F) → (⟨S100000x128, .f32⟩ : BufTy).Contents (Elt F)) ]

/-- The buffers the operations of `a2` write. -/
abbrev a2_W : List (Ref sig .tc) :=
  [main_cst_27, main_v127, main_v128, main_v129, main_v130, main_v131, main_v132, main_v133, main_v134, main_v135, main_v136, main_v137]

/-- 19 operations, ending at `main_v142`. -/
abbrev t0 : List (HloOp τ sig (Elt F)) :=
  [ StableHlo.binary main_v137 main_arg8 main_v138 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg9 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S100000x128 ![0, 1] bcast_S1x128_S100000x128_0_1 : (⟨S1x128, .f32⟩ : BufTy).Contents (Elt F) → (⟨S100000x128, .f32⟩ : BufTy).Contents (Elt F)),
    StableHlo.binary main_v138 main_v140 main_v141 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v141 : StableHlo.TRef sig ⟨S100000x128, .f32⟩) main_call2.v0 main_call2.v1 (cmpf .ogt),
    StableHlo.TRef.nullary main_call2.cst_0 (constant S_ .f32 0x00000000#32),
    StableHlo.TRef.unary main_call2.cst_0 main_call2.v2 (broadcastInDim S100000x128 ![] bcast_S_S100000x128),
    StableHlo.TRef.binary (.of main_v141 : StableHlo.TRef sig ⟨S100000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x128 ![] bcast_S_S100000x128),
    StableHlo.TRef.ternary main_call2.v3 main_call2.call0.v1 (.of main_v141 : StableHlo.TRef sig ⟨S100000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x128 ![] bcast_S_S100000x128),
    StableHlo.TRef.binary main_call2.v6 main_call2.v5 main_call2.v7 mulf,
    StableHlo.TRef.ternary main_call2.v1 (.of main_v141 : StableHlo.TRef sig ⟨S100000x128, .f32⟩) main_call2.v7 main_call2.call1.v0 select ]

/-- The buffers the operations of `t0` write. -/
abbrev t0_W : List (Ref sig .tc) :=
  [main_v138, main_v139, main_v140, main_v141, main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v142]

/-- 19 operations, ending at `main_v147`. -/
abbrev t1 : List (HloOp τ sig (Elt F)) :=
  [ StableHlo.binary main_v142 main_arg10 main_v143 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),
    StableHlo.binary main_v143 main_v145 main_v146 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v146 : StableHlo.TRef sig ⟨S100000x128, .f32⟩) main_call3.v0 main_call3.v1 (cmpf .ogt),
    StableHlo.TRef.nullary main_call3.cst_0 (constant S_ .f32 0x00000000#32),
    StableHlo.TRef.unary main_call3.cst_0 main_call3.v2 (broadcastInDim S100000x128 ![] bcast_S_S100000x128),
    StableHlo.TRef.binary (.of main_v146 : StableHlo.TRef sig ⟨S100000x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S100000x128 ![] bcast_S_S100000x128),
    StableHlo.TRef.ternary main_call3.v3 main_call3.call0.v1 (.of main_v146 : StableHlo.TRef sig ⟨S100000x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S100000x128 ![] bcast_S_S100000x128),
    StableHlo.TRef.binary main_call3.v6 main_call3.v5 main_call3.v7 mulf,
    StableHlo.TRef.ternary main_call3.v1 (.of main_v146 : StableHlo.TRef sig ⟨S100000x128, .f32⟩) main_call3.v7 main_call3.call1.v0 select ]

/-- The buffers the operations of `t1` write. -/
abbrev t1_W : List (Ref sig .tc) :=
  [main_v143, main_v144, main_v145, main_v146, main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v147]

/-- 2 operations, ending at `main_v149`. -/
abbrev t2a : List (HloOp τ sig (Elt F)) :=
  [ StableHlo.binary main_v147 main_arg12 main_v148 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v149 (broadcastInDim S1x128 ![1] bcast_S128_S1x128_1 : (⟨S128, .f32⟩ : BufTy).Contents (Elt F) → (⟨S1x128, .f32⟩ : BufTy).Contents (Elt F)) ]

/-- The buffers the operations of `t2a` write. -/
abbrev t2a_W : List (Ref sig .tc) :=
  [main_v148, main_v149]

/-- 17 operations, ending at `main_v152`. -/
abbrev t2b : List (HloOp τ sig (Elt F)) :=
  [ StableHlo.unary main_v149 main_v150 (broadcastInDim S100000x128 ![0, 1] bcast_S1x128_S100000x128_0_1 : (⟨S1x128, .f32⟩ : BufTy).Contents (Elt F) → (⟨S100000x128, .f32⟩ : BufTy).Contents (Elt F)),
    StableHlo.binary main_v148 main_v150 main_v151 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v151 : StableHlo.TRef sig ⟨S100000x128, .f32⟩) main_call4.v0 main_call4.v1 (cmpf .ogt),
    StableHlo.TRef.nullary main_call4.cst_0 (constant S_ .f32 0x00000000#32),
    StableHlo.TRef.unary main_call4.cst_0 main_call4.v2 (broadcastInDim S100000x128 ![] bcast_S_S100000x128),
    StableHlo.TRef.binary (.of main_v151 : StableHlo.TRef sig ⟨S100000x128, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S100000x128 ![] bcast_S_S100000x128),
    StableHlo.TRef.ternary main_call4.v3 main_call4.call0.v1 (.of main_v151 : StableHlo.TRef sig ⟨S100000x128, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S100000x128 ![] bcast_S_S100000x128),
    StableHlo.TRef.binary main_call4.v6 main_call4.v5 main_call4.v7 mulf,
    StableHlo.TRef.ternary main_call4.v1 (.of main_v151 : StableHlo.TRef sig ⟨S100000x128, .f32⟩) main_call4.v7 main_call4.call1.v0 select ]

/-- The buffers the operations of `t2b` write. -/
abbrev t2b_W : List (Ref sig .tc) :=
  [main_v150, main_v151, main_call4_cst, main_call4_v0, main_call4_v1, main_call4_cst_0, main_call4_v2, main_call4_v3, main_call4_cst_1, main_call4_call0_v0, main_call4_call0_v1, main_call4_v4, main_call4_v5, main_call4_cst_2, main_call4_v6, main_call4_v7, main_v152]

/-- 19 operations, ending at `main_v157`. -/
abbrev t3 : List (HloOp τ sig (Elt F)) :=
  [ StableHlo.binary main_v152 main_arg14 main_v153 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    StableHlo.unary main_arg15 main_v154 (broadcastInDim S1x1 ![1] bcast_S1_S1x1_1 : (⟨S1, .f32⟩ : BufTy).Contents (Elt F) → (⟨S1x1, .f32⟩ : BufTy).Contents (Elt F)),
    StableHlo.unary main_v154 main_v155 (broadcastInDim S100000x1 ![0, 1] bcast_S1x1_S100000x1_0_1 : (⟨S1x1, .f32⟩ : BufTy).Contents (Elt F) → (⟨S100000x1, .f32⟩ : BufTy).Contents (Elt F)),
    StableHlo.binary main_v153 main_v155 main_v156 (addf : (⟨S100000x1, .f32⟩ : BufTy).Contents (Elt F) → (⟨S100000x1, .f32⟩ : BufTy).Contents (Elt F) → (⟨S100000x1, .f32⟩ : BufTy).Contents (Elt F)),
    StableHlo.TRef.nullary main_call5.cst (constant S_ .f32 0x00000000#32),
    StableHlo.TRef.unary main_call5.cst main_call5.v0 (broadcastInDim S100000x1 ![] bcast_S_S100000x1),
    StableHlo.TRef.binary (.of main_v156 : StableHlo.TRef sig ⟨S100000x1, .f32⟩) main_call5.v0 main_call5.v1 (cmpf .ogt),
    StableHlo.TRef.nullary main_call5.cst_0 (constant S_ .f32 0x00000000#32),
    StableHlo.TRef.unary main_call5.cst_0 main_call5.v2 (broadcastInDim S100000x1 ![] bcast_S_S100000x1),
    StableHlo.TRef.binary (.of main_v156 : StableHlo.TRef sig ⟨S100000x1, .f32⟩) main_call5.v2 main_call5.v3 (cmpf .ogt),
    StableHlo.TRef.nullary main_call5.cst_1 (constant S_ .f32 0x00000000#32),
    StableHlo.TRef.unary main_call5.cst_1 main_call5.call0.v0 id,
    StableHlo.TRef.unary main_call5.call0.v0 main_call5.call0.v1 (broadcastInDim S100000x1 ![] bcast_S_S100000x1),
    StableHlo.TRef.ternary main_call5.v3 main_call5.call0.v1 (.of main_v156 : StableHlo.TRef sig ⟨S100000x1, .f32⟩) main_call5.call0.v2 select,
    StableHlo.TRef.unary main_call5.call0.v2 main_call5.v5 Host.expm1,
    StableHlo.TRef.nullary main_call5.cst_2 (constant S_ .f32 0x3F800000#32),
    StableHlo.TRef.unary main_call5.cst_2 main_call5.v6 (broadcastInDim S100000x1 ![] bcast_S_S100000x1),
    StableHlo.TRef.binary main_call5.v6 main_call5.v5 main_call5.v7 mulf,
    StableHlo.TRef.ternary main_call5.v1 (.of main_v156 : StableHlo.TRef sig ⟨S100000x1, .f32⟩) main_call5.v7 main_call5.call1.v0 select ]

/-- The buffers the operations of `t3` write. -/
abbrev t3_W : List (Ref sig .tc) :=
  [main_v153, main_v154, main_v155, main_v156, main_call5_cst, main_call5_v0, main_call5_v1, main_call5_cst_0, main_call5_v2, main_call5_v3, main_call5_cst_1, main_call5_call0_v0, main_call5_call0_v1, main_call5_v4, main_call5_v5, main_call5_cst_2, main_call5_v6, main_call5_v7, main_v157]

/-- 8 operations, ending at `main_v163`. -/
abbrev t4 : List (HloOp τ sig (Elt F)) :=
  [ StableHlo.unary main_v157 main_v158 (Host.negf : (⟨S100000x1, .f32⟩ : BufTy).Contents (Elt F) → (⟨S100000x1, .f32⟩ : BufTy).Contents (Elt F)),
    StableHlo.unary main_v158 main_v159 (Host.exp : (⟨S100000x1, .f32⟩ : BufTy).Contents (Elt F) → (⟨S100000x1, .f32⟩ : BufTy).Contents (Elt F)),
    StableHlo.nullary main_cst_28 (constant S_ .f32 0x3F800000#32),
    StableHlo.unary main_cst_28 main_v160 (broadcastInDim S100000x1 ![] bcast_S_S100000x1 : (⟨S_, .f32⟩ : BufTy).Contents (Elt F) → (⟨S100000x1, .f32⟩ : BufTy).Contents (Elt F)),
    StableHlo.binary main_v160 main_v159 main_v161 (addf : (⟨S100000x1, .f32⟩ : BufTy).Contents (Elt F) → (⟨S100000x1, .f32⟩ : BufTy).Contents (Elt F) → (⟨S100000x1, .f32⟩ : BufTy).Contents (Elt F)),
    StableHlo.nullary main_cst_29 (constant S_ .f32 0x3F800000#32),
    StableHlo.unary main_cst_29 main_v162 (broadcastInDim S100000x1 ![] bcast_S_S100000x1 : (⟨S_, .f32⟩ : BufTy).Contents (Elt F) → (⟨S100000x1, .f32⟩ : BufTy).Contents (Elt F)),
    StableHlo.binary main_v162 main_v161 main_v163 (Host.divf : (⟨S100000x1, .f32⟩ : BufTy).Contents (Elt F) → (⟨S100000x1, .f32⟩ : BufTy).Contents (Elt F) → (⟨S100000x1, .f32⟩ : BufTy).Contents (Elt F)) ]

/-- The buffers the operations of `t4` write. -/
abbrev t4_W : List (Ref sig .tc) :=
  [main_v158, main_v159, main_cst_28, main_v160, main_v161, main_cst_29, main_v162, main_v163]

end Cert.ReferenceIdeal.RefOps

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.RefMain.lean ====
/-
  The reference program is a straight line of host operations.

  Each of the program's four windows is, by unfolding (the module-local functions at their call sites, sequencing
  reassociated), the run `seq` of the pieces of the operation table that fall in it (`part0_eq` … `part3_eq`); a run of a
  concatenation is the runs in order (`seq_append`), so the whole program is the run of the whole table (`main_eq`).
  Every operation touches TensorCore buffers only and allocates none (`ops_sub`, `ops_fresh`), and the signature
  scopes no buffer and no semaphore, so from any memory with zero counters every weakly fair execution terminates with
  each buffer at the fold of the operations over the launch contents (`run_main`).
-/
import proofs.«142762_j63788854280505_2_alg».proof.Proof.RefOps
import proofs.«142762_j63788854280505_2_alg».proof.Proof.LibAfter

noncomputable section

namespace Cert.ReferenceIdeal.RefMain

open Cert.ReferenceIdeal Idealize.ShloMosaic Idealize.ShloMosaic.TcCoe Idealize.SL.Sem Idealize.ShloMosaic.StableHlo
open Cert.ReferenceIdeal.RefOps Cert.LibAfter

variable {F : FTy → Type} [FloatOps F] [Facts]
open Facts₀ Facts

/-- The operations of the four windows. -/
abbrev P0 : List (HloOp τ sig (Elt F)) := s0 ++ (d0 ++ (e0 ++ (g0 ++ a0)))
abbrev P1 : List (HloOp τ sig (Elt F)) := d1 ++ (e1 ++ (g1 ++ (a1 ++ d2a)))
abbrev P2 : List (HloOp τ sig (Elt F)) := d2b ++ (e2 ++ (g2 ++ (a2 ++ (t0 ++ (t1 ++ t2a)))))
abbrev P3 : List (HloOp τ sig (Elt F)) := t2b ++ (t3 ++ t4)

/-- The whole line. -/
abbrev ops : List (HloOp τ sig (Elt F)) := P0 ++ (P1 ++ (P2 ++ P3))

set_option maxRecDepth 8192 in
theorem part0_eq (d : Dev nD) : main_part0 (F := F) d = seq P0 := rfl
set_option maxRecDepth 8192 in
theorem part1_eq (d : Dev nD) : main_part1 (F := F) d = seq P1 := rfl
set_option maxRecDepth 8192 in
theorem part2_eq (d : Dev nD) : main_part2 (F := F) d = seq P2 := rfl
set_option maxRecDepth 8192 in
theorem part3_eq (d : Dev nD) : main_part3 (F := F) d = seq P3 := rfl

/-- @main is the run of the whole line. -/
theorem main_eq (c : Dev nD) : main (F := F) c = seq ops := by
  have h : (seq (ops (F := F)) : Prog (TpuEff nD τ sig (Elt F) (Pipeline.Sig Λ₀ (Fin 0) fun p => (pcfgs (F := F) p).Adm) .tc) PUnit)
      = seq P0 >>= fun _ => seq P1 >>= fun _ => seq P2 >>= fun _ => seq P3 := by
    rw [seq_append P0, seq_append P1, seq_append P2]
  rw [h, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore buffers only: in each piece every operation is one of the five builders,
    whose buffers are TensorCore references. -/

theorem s0_sub : (s0 (F := F)).Forall fun op => op.bufs ⊆ tcRefs τ sig := by
  simp only [List.Forall, nullary_bufs_sub, unary_bufs_sub, binary_bufs_sub, ternary_bufs_sub, reshape_bufs_sub, and_self]
theorem d0_sub : (d0 (F := F)).Forall fun op => op.bufs ⊆ tcRefs τ sig := by
  simp only [List.Forall, nullary_bufs_sub, unary_bufs_sub, binary_bufs_sub, ternary_bufs_sub, reshape_bufs_sub, and_self]
theorem e0_sub : (e0 (F := F)).Forall fun op => op.bufs ⊆ tcRefs τ sig := by
  simp only [List.Forall, nullary_bufs_sub, unary_bufs_sub, binary_bufs_sub, ternary_bufs_sub, reshape_bufs_sub, and_self]
theorem g0_sub : (g0 (F := F)).Forall fun op => op.bufs ⊆ tcRefs τ sig := by
  simp only [List.Forall, nullary_bufs_sub, unary_bufs_sub, binary_bufs_sub, ternary_bufs_sub, reshape_bufs_sub, and_self]
theorem a0_sub : (a0 (F := F)).Forall fun op => op.bufs ⊆ tcRefs τ sig := by
  simp only [List.Forall, nullary_bufs_sub, unary_bufs_sub, binary_bufs_sub, ternary_bufs_sub, reshape_bufs_sub, and_self]
theorem d1_sub : (d1 (F := F)).Forall fun op => op.bufs ⊆ tcRefs τ sig := by
  simp only [List.Forall, nullary_bufs_sub, unary_bufs_sub, binary_bufs_sub, ternary_bufs_sub, reshape_bufs_sub, and_self]
theorem e1_sub : (e1 (F := F)).Forall fun op => op.bufs ⊆ tcRefs τ sig := by
  simp only [List.Forall, nullary_bufs_sub, unary_bufs_sub, binary_bufs_sub, ternary_bufs_sub, reshape_bufs_sub, and_self]
theorem g1_sub : (g1 (F := F)).Forall fun op => op.bufs ⊆ tcRefs τ sig := by
  simp only [List.Forall, nullary_bufs_sub, unary_bufs_sub, binary_bufs_sub, ternary_bufs_sub, reshape_bufs_sub, and_self]
theorem a1_sub : (a1 (F := F)).Forall fun op => op.bufs ⊆ tcRefs τ sig := by
  simp only [List.Forall, nullary_bufs_sub, unary_bufs_sub, binary_bufs_sub, ternary_bufs_sub, reshape_bufs_sub, and_self]
theorem d2a_sub : (d2a (F := F)).Forall fun op => op.bufs ⊆ tcRefs τ sig := by
  simp only [List.Forall, nullary_bufs_sub, unary_bufs_sub, binary_bufs_sub, ternary_bufs_sub, reshape_bufs_sub, and_self]
theorem d2b_sub : (d2b (F := F)).Forall fun op => op.bufs ⊆ tcRefs τ sig := by
  simp only [List.Forall, nullary_bufs_sub, unary_bufs_sub, binary_bufs_sub, ternary_bufs_sub, reshape_bufs_sub, and_self]
theorem e2_sub : (e2 (F := F)).Forall fun op => op.bufs ⊆ tcRefs τ sig := by
  simp only [List.Forall, nullary_bufs_sub, unary_bufs_sub, binary_bufs_sub, ternary_bufs_sub, reshape_bufs_sub, and_self]
theorem g2_sub : (g2 (F := F)).Forall fun op => op.bufs ⊆ tcRefs τ sig := by
  simp only [List.Forall, nullary_bufs_sub, unary_bufs_sub, binary_bufs_sub, ternary_bufs_sub, reshape_bufs_sub, and_self]
theorem a2_sub : (a2 (F := F)).Forall fun op => op.bufs ⊆ tcRefs τ sig := by
  simp only [List.Forall, nullary_bufs_sub, unary_bufs_sub, binary_bufs_sub, ternary_bufs_sub, reshape_bufs_sub, and_self]
theorem t0_sub : (t0 (F := F)).Forall fun op => op.bufs ⊆ tcRefs τ sig := by
  simp only [List.Forall, nullary_bufs_sub, unary_bufs_sub, binary_bufs_sub, ternary_bufs_sub, reshape_bufs_sub, and_self]
theorem t1_sub : (t1 (F := F)).Forall fun op => op.bufs ⊆ tcRefs τ sig := by
  simp only [List.Forall, nullary_bufs_sub, unary_bufs_sub, binary_bufs_sub, ternary_bufs_sub, reshape_bufs_sub, and_self]
theorem t2a_sub : (t2a (F := F)).Forall fun op => op.bufs ⊆ tcRefs τ sig := by
  simp only [List.Forall, nullary_bufs_sub, unary_bufs_sub, binary_bufs_sub, ternary_bufs_sub, reshape_bufs_sub, and_self]
theorem t2b_sub : (t2b (F := F)).Forall fun op => op.bufs ⊆ tcRefs τ sig := by
  simp only [List.Forall, nullary_bufs_sub, unary_bufs_sub, binary_bufs_sub, ternary_bufs_sub, reshape_bufs_sub, and_self]
theorem t3_sub : (t3 (F := F)).Forall fun op => op.bufs ⊆ tcRefs τ sig := by
  simp only [List.Forall, nullary_bufs_sub, unary_bufs_sub, binary_bufs_sub, ternary_bufs_sub, reshape_bufs_sub, and_self]
theorem t4_sub : (t4 (F := F)).Forall fun op => op.bufs ⊆ tcRefs τ sig := by
  simp only [List.Forall, nullary_bufs_sub, unary_bufs_sub, binary_bufs_sub, ternary_bufs_sub, reshape_bufs_sub, and_self]

theorem ops_sub : (ops (F := F)).Forall fun op => op.bufs ⊆ tcRefs τ sig :=
  Forall.append (Forall.append s0_sub (Forall.append d0_sub (Forall.append e0_sub (Forall.append g0_sub a0_sub))))
    (Forall.append (Forall.append d1_sub (Forall.append e1_sub (Forall.append g1_sub (Forall.append a1_sub d2a_sub))))
      (Forall.append
        (Forall.append d2b_sub (Forall.append e2_sub (Forall.append g2_sub (Forall.append a2_sub
          (Forall.append t0_sub (Forall.append t1_sub t2a_sub))))))
        (Forall.append t2b_sub (Forall.append t3_sub t4_sub))))

/-! No operation allocates a buffer: none of the five builders does. -/

theorem s0_fresh : (s0 (F := F)).Forall fun op => op.fresh = ∅ := by all_fresh s0
theorem d0_fresh : (d0 (F := F)).Forall fun op => op.fresh = ∅ := by all_fresh d0
theorem e0_fresh : (e0 (F := F)).Forall fun op => op.fresh = ∅ := by all_fresh e0
theorem g0_fresh : (g0 (F := F)).Forall fun op => op.fresh = ∅ := by all_fresh g0
theorem a0_fresh : (a0 (F := F)).Forall fun op => op.fresh = ∅ := by all_fresh a0
theorem d1_fresh : (d1 (F := F)).Forall fun op => op.fresh = ∅ := by all_fresh d1
theorem e1_fresh : (e1 (F := F)).Forall fun op => op.fresh = ∅ := by all_fresh e1
theorem g1_fresh : (g1 (F := F)).Forall fun op => op.fresh = ∅ := by all_fresh g1
theorem a1_fresh : (a1 (F := F)).Forall fun op => op.fresh = ∅ := by all_fresh a1
theorem d2a_fresh : (d2a (F := F)).Forall fun op => op.fresh = ∅ := by all_fresh d2a
theorem d2b_fresh : (d2b (F := F)).Forall fun op => op.fresh = ∅ := by all_fresh d2b
theorem e2_fresh : (e2 (F := F)).Forall fun op => op.fresh = ∅ := by all_fresh e2
theorem g2_fresh : (g2 (F := F)).Forall fun op => op.fresh = ∅ := by all_fresh g2
theorem a2_fresh : (a2 (F := F)).Forall fun op => op.fresh = ∅ := by all_fresh a2
theorem t0_fresh : (t0 (F := F)).Forall fun op => op.fresh = ∅ := by all_fresh t0
theorem t1_fresh : (t1 (F := F)).Forall fun op => op.fresh = ∅ := by all_fresh t1
theorem t2a_fresh : (t2a (F := F)).Forall fun op => op.fresh = ∅ := by all_fresh t2a
theorem t2b_fresh : (t2b (F := F)).Forall fun op => op.fresh = ∅ := by all_fresh t2b
theorem t3_fresh : (t3 (F := F)).Forall fun op => op.fresh = ∅ := by all_fresh t3
theorem t4_fresh : (t4 (F := F)).Forall fun op => op.fresh = ∅ := by all_fresh t4

theorem ops_fresh : (ops (F := F)).Forall fun op => op.fresh = ∅ :=
  Forall.append (Forall.append s0_fresh (Forall.append d0_fresh (Forall.append e0_fresh (Forall.append g0_fresh a0_fresh))))
    (Forall.append (Forall.append d1_fresh (Forall.append e1_fresh (Forall.append g1_fresh (Forall.append a1_fresh d2a_fresh))))
      (Forall.append
        (Forall.append d2b_fresh (Forall.append e2_fresh (Forall.append g2_fresh (Forall.append a2_fresh
          (Forall.append t0_fresh (Forall.append t1_fresh t2a_fresh))))))
        (Forall.append t2b_fresh (Forall.append t3_fresh t4_fresh))))

/-- From any memory with zero counters every weakly fair execution of @main terminates, and every final state has
    each TensorCore buffer at the fold of the line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ
    (fresh_of_forall_dev fun _ => ops_fresh)

end Cert.ReferenceIdeal.RefMain

end
-- ==== Proof.RStages.lean ====
/-
  The reference network as a composition of named stages, each the reference program's own host operations.

  `srcV` / `dstV` are the two rows of the edge list.  `col` makes an index vector a column (the form a scatter or
  gather takes its start indices in); `wrapCol` first adds the node count to the negative entries, as array
  indexing does.  `dinv` is `1 / sqrt (1 + in-degree)`, the in-degree counted by scattering ones along `dstV`.
  `conv xw s d b` is one graph convolution of already projected features `xw`: the scatter-sum over the edges of
  `xw[src] · (dinv[src] · dinv[dst])`, plus the self-loop term `xw · dinv²`, plus the bias.  `dot`, `lin`, `relu`,
  `elu`, `sigm` are the dense layers' pieces, and `refOut` the whole network.
-/
import proofs.«142762_j63788854280505_2_alg».proof.ReferenceIdeal
import Idealize.ShloMosaic.PureOps.Ideal

noncomputable section

namespace Cert.ReferenceIdeal.Stg

open Cert.ReferenceIdeal Idealize.ShloMosaic

variable [Facts]
open Facts₀ Facts

abbrev XV := FVec Ideal S100000x128 .f32
abbrev YV := FVec Ideal S100000x1 .f32
abbrev WV := FVec Ideal S128x128 .f32
abbrev BV := FVec Ideal S128 .f32
abbrev EV := IVec S640000 32
abbrev EI := IVec S2x640000 32

def zeroS : FVec Ideal S_ .f32 := constant (F := Ideal) S_ .f32 0x00000000#32
def oneS : FVec Ideal S_ .f32 := constant (F := Ideal) S_ .f32 0x3F800000#32

def srcV (ei : EI) : EV :=
  shapeCast S640000 (extractStridedSlice S1x640000 ![0, 0] ei slices_S2x640000_S1x640000_0_0) shapeCasts_S1x640000_S640000
def dstV (ei : EI) : EV :=
  shapeCast S640000 (extractStridedSlice S1x640000 ![1, 0] ei slices_S2x640000_S1x640000_1_0) shapeCasts_S1x640000_S640000

def col (v : EV) : IVec S640000x1 32 := broadcastInDim S640000x1 ![0] bcast_S640000_S640000x1_0 v

def wrapCol (v : EV) : IVec S640000x1 32 :=
  col (select (cmpi .slt v (broadcastInDim S640000 ![] bcast_S_S640000 (constantI S_ 32 0#32)))
    (addi v (broadcastInDim S640000 ![] bcast_S_S640000 (constantI S_ 32 100000#32))) v)

def dinv (d : EV) : FVec Ideal S100000 .f32 :=
  Host.rsqrt (addf
    (Host.scatterAdd scatter_S100000_S640000x1_S640000_n_0_0_1 (broadcastInDim S100000 ![] bcast_S_S100000 zeroS) (col d)
      (broadcastInDim S640000 ![] bcast_S_S640000 oneS))
    (broadcastInDim S100000 ![] bcast_S_S100000 oneS))

def conv (xw : XV) (s d : EV) (b : BV) : XV :=
  addf (addf
    (Host.scatterAdd scatter_S100000x128_S640000x1_S640000x128_1_0_0_1
      (broadcastInDim S100000x128 ![] bcast_S_S100000x128 zeroS) (col d)
      (mulf (Host.gather gather_S100000x128_S640000x1_S640000x128_1_0_n_n_0_1_1128 xw (wrapCol s))
        (broadcastInDim S640000x128 ![0, 1] bcast_S640000x1_S640000x128_0_1
          (broadcastInDim S640000x1 ![0] bcast_S640000_S640000x1_0
            (mulf (Host.gather gather_S100000_S640000x1_S640000_n_0_n_n_0_1_1 (dinv d) (wrapCol s))
              (Host.gather gather_S100000_S640000x1_S640000_n_0_n_n_0_1_1 (dinv d) (wrapCol d)))))))
    (mulf xw (broadcastInDim S100000x128 ![0, 1] bcast_S100000x1_S100000x128_0_1
      (broadcastInDim S100000x1 ![0] bcast_S100000_S100000x1_0 (mulf (dinv d) (dinv d))))))
    (broadcastInDim S100000x128 ![0, 1] bcast_S1x128_S100000x128_0_1 (broadcastInDim S1x128 ![1] bcast_S128_S1x128_1 b))

def relu (h : XV) : XV := maximumf h (broadcastInDim S100000x128 ![] bcast_S_S100000x128 zeroS)

def dot (h : XV) (w : WV) : XV := Host.dotGeneral dot_S100000x128_S128x128_S100000x128_1_0_0_1_n_n none h w

def lin (h : XV) (w : WV) (b : BV) : XV :=
  addf (dot h w)
    (broadcastInDim S100000x128 ![0, 1] bcast_S1x128_S100000x128_0_1 (broadcastInDim S1x128 ![1] bcast_S128_S1x128_1 b))

def elu (h : XV) : XV :=
  select (cmpf .ogt h (broadcastInDim S100000x128 ![] bcast_S_S100000x128 zeroS)) h
    (mulf (broadcastInDim S100000x128 ![] bcast_S_S100000x128 oneS)
      (Host.expm1 (select (cmpf .ogt h (broadcastInDim S100000x128 ![] bcast_S_S100000x128 zeroS))
        (broadcastInDim S100000x128 ![] bcast_S_S100000x128 zeroS) h)))

def dot1 (h : XV) (w : FVec Ideal S128x1 .f32) : YV := Host.dotGeneral dot_S100000x128_S128x1_S100000x1_1_0_0_1_n_n none h w

def lin1 (h : XV) (w : FVec Ideal S128x1 .f32) (b : FVec Ideal S1 .f32) : YV :=
  addf (dot1 h w)
    (broadcastInDim S100000x1 ![0, 1] bcast_S1x1_S100000x1_0_1 (broadcastInDim S1x1 ![1] bcast_S1_S1x1_1 b))

def elu1 (h : YV) : YV :=
  select (cmpf .ogt h (broadcastInDim S100000x1 ![] bcast_S_S100000x1 zeroS)) h
    (mulf (broadcastInDim S100000x1 ![] bcast_S_S100000x1 oneS)
      (Host.expm1 (select (cmpf .ogt h (broadcastInDim S100000x1 ![] bcast_S_S100000x1 zeroS))
        (broadcastInDim S100000x1 ![] bcast_S_S100000x1 zeroS) h)))

def sigm (h : YV) : YV :=
  Host.divf (broadcastInDim S100000x1 ![] bcast_S_S100000x1 oneS)
    (addf (broadcastInDim S100000x1 ![] bcast_S_S100000x1 oneS) (Host.exp (Host.negf h)))

/-- The reference network: three graph convolutions (positive part after the first two, each followed by the next
    projection), three dense layers of width 128 and one of width 1, each with the exponential linear unit, and the
    logistic function. -/
def refOut (x : XV) (ei : EI) (w0 : WV) (b0 : BV) (w1 : WV) (b1 : BV) (w2 : WV) (b2 : BV)
    (lw0 : WV) (lb0 : BV) (lw1 : WV) (lb1 : BV) (lw2 : WV) (lb2 : BV) (lw3 : FVec Ideal S128x1 .f32) (lb3 : FVec Ideal S1 .f32) : YV :=
  let s := srcV ei
  let d := dstV ei
  let h0 : XV := relu (conv (dot x w0) s d b0)
  let h1 : XV := relu (conv (dot h0 w1) s d b1)
  let h2 : XV := conv (dot h1 w2) s d b2
  let g0 : XV := elu (lin h2 lw0 lb0)
  let g1 : XV := elu (lin g0 lw1 lb1)
  let g2 : XV := elu (lin g1 lw2 lb2)
  sigm (elu1 (lin1 g2 lw3 lb3))

end Cert.ReferenceIdeal.Stg

end
-- ==== Proof.RefBase.lean ====
/-
  A straight line of host operations run piece by piece: what a piece leaves alone, and what every prefix of the
  reference program's line keeps.

  An operation writes one buffer. If every buffer a piece of the line writes is in a list W, a buffer outside W holds
  after the piece what it held before (`keeps_of_writes`). Every piece of the reference program's line after the first
  four operations leaves alone the sixteen arguments and the two rows of the edge list (`keepRefs`), so after every
  prefix of the line the arguments hold their launch contents and the two index vectors hold the rows of the second
  argument (`Base`, carried along one piece at a time by `Base.step`). All of it for any float values.
-/
import proofs.«142762_j63788854280505_2_alg».proof.Proof.RStages
import Idealize.ShloMosaic.Lib.StableHlo.Run

noncomputable section

namespace Cert.ReferenceIdeal.RefBase

open Cert.ReferenceIdeal Idealize.ShloMosaic Idealize.ShloMosaic.TcCoe Idealize.SL.Sem Idealize.ShloMosaic.StableHlo

variable {F : FTy → Type} [FloatOps F] [Facts]

/-- The buffer contents of one device. -/
abbrev Vl (F : FTy → Type) := Valuation τ sig (Elt F)

/-- An operation whose one written buffer is in the list `W` writes inside `W`. -/
theorem writes_ok {W : List (Ref sig .tc)} {y : Ref sig .tc} (h : y ∈ W) :
    ({Proc.devRef (τ := τ) .tc y} : Finset (DevRef τ sig)) ⊆ (W.map (Proc.devRef (τ := τ) .tc)).toFinset := by
  rw [Finset.singleton_subset_iff, List.mem_toFinset]
  exact List.mem_map_of_mem h

/-- The sixteen arguments. -/
abbrev argRefs : List (Ref sig .tc) :=
  [main_arg0, main_arg1, main_arg2, main_arg3, main_arg4, main_arg5, main_arg6, main_arg7, main_arg8, main_arg9,
    main_arg10, main_arg11, main_arg12, main_arg13, main_arg14, main_arg15]

/-- The arguments and the two rows of the edge list: what every piece after the first leaves alone. -/
abbrev keepRefs : List (Ref sig .tc) := argRefs ++ [main_v1, main_v3]

/-- A piece all of whose written buffers are in `W`, none of them among `keepRefs`, leaves `keepRefs` alone. -/
theorem keeps_of_writes {seg : List (HloOp τ sig (Elt F))} {W : List (Ref sig .tc)}
    (hW : seg.Forall fun op => op.writes ⊆ (W.map (Proc.devRef (τ := τ) .tc)).toFinset)
    (hd : ∀ r ∈ keepRefs, r ∉ W) (V : Vl F) :
    ∀ r ∈ keepRefs, after seg V (Proc.devRef .tc r) = V (Proc.devRef .tc r) :=
  fun r hr => after_of_writes_sub seg V hW (hd r hr)

/-- What the contents `W` after a prefix of the line keep of the launch contents `V`: the arguments unchanged, the two
    index vectors the rows of the edge list. -/
structure Base (V W : Vl F) : Prop where
  args : ∀ r ∈ argRefs, W (Proc.devRef .tc r) = V (Proc.devRef .tc r)
  src : W (Proc.devRef .tc main_v1) = Stg.srcV (V (Proc.devRef .tc main_arg1))
  dst : W (Proc.devRef .tc main_v3) = Stg.dstV (V (Proc.devRef .tc main_arg1))

/-- One more piece that leaves `keepRefs` alone keeps it. -/
theorem Base.step {V W : Vl F} (h : Base V W) {seg : List (HloOp τ sig (Elt F))}
    (hk : ∀ r ∈ keepRefs, after seg W (Proc.devRef .tc r) = W (Proc.devRef .tc r)) : Base V (after seg W) where
  args r hr := (hk r (List.mem_append_left _ hr)).trans (h.args r hr)
  src := (hk main_v1 (by decide)).trans h.src
  dst := (hk main_v3 (by decide)).trans h.dst

end Cert.ReferenceIdeal.RefBase

end
-- ==== Proof.RefPieces.lean ====
/-
  The reference network's stages for any float values.

  `RStages` spells the stages at the ideal values. The same stages are spelt here for any instance of the float
  operations (at which nothing about them can be computed, only compared), a graph convolution cut where the program's
  line of operations is cut: the normalisation `dinv d`; the edge weights `ew di s d` (the product of `di` at the two ends
  of every edge); the messages `msg xw w s` (the rows of `xw` at the edges' sources, each scaled by its edge's weight); the
  combination `agg xw di m d b` (the messages summed into their destinations, plus `xw` scaled by `di²` row by row, plus
  the bias row). At the ideal values each is `RStages`' stage by unfolding, and so is the whole network (`net_eq`).
-/
import proofs.«142762_j63788854280505_2_alg».proof.Proof.RStages

noncomputable section

namespace Cert.ReferenceIdeal.Pc

open Cert.ReferenceIdeal Idealize.ShloMosaic
open Cert.ReferenceIdeal.Stg (EV EI)

variable {F : FTy → Type} [FloatOps F] [Facts]
open Facts₀ Facts

/-- The float vectors of the network: node features, one number per node (as a vector and as a column), one per
    edge, one row per edge, a weight matrix, a bias row. -/
abbrev XV (F : FTy → Type) := FVec F S100000x128 .f32
abbrev DV (F : FTy → Type) := FVec F S100000 .f32
abbrev YV (F : FTy → Type) := FVec F S100000x1 .f32
abbrev QV (F : FTy → Type) := FVec F S640000 .f32
abbrev MV (F : FTy → Type) := FVec F S640000x128 .f32
abbrev WV (F : FTy → Type) := FVec F S128x128 .f32
abbrev BV (F : FTy → Type) := FVec F S128 .f32

def zeroS : FVec F S_ .f32 := constant (F := F) S_ .f32 0x00000000#32
def oneS : FVec F S_ .f32 := constant (F := F) S_ .f32 0x3F800000#32

/-- `1 / sqrt (1 + in-degree)`. -/
def dinv (d : EV) : DV F :=
  Host.rsqrt (addf
    (Host.scatterAdd scatter_S100000_S640000x1_S640000_n_0_0_1 (broadcastInDim S100000 ![] bcast_S_S100000 zeroS) (Stg.col d)
      (broadcastInDim S640000 ![] bcast_S_S640000 oneS))
    (broadcastInDim S100000 ![] bcast_S_S100000 oneS))

/-- The weight of every edge: `di` at its source times `di` at its destination. -/
def ew (di : DV F) (s d : EV) : QV F :=
  mulf (Host.gather gather_S100000_S640000x1_S640000_n_0_n_n_0_1_1 di (Stg.wrapCol s))
    (Host.gather gather_S100000_S640000x1_S640000_n_0_n_n_0_1_1 di (Stg.wrapCol d))

/-- The message of every edge: the row of `xw` at its source, scaled by the edge's weight. -/
def msg (xw : XV F) (w : QV F) (s : EV) : MV F :=
  mulf (Host.gather gather_S100000x128_S640000x1_S640000x128_1_0_n_n_0_1_1128 xw (Stg.wrapCol s))
    (broadcastInDim S640000x128 ![0, 1] bcast_S640000x1_S640000x128_0_1
      (broadcastInDim S640000x1 ![0] bcast_S640000_S640000x1_0 w))

/-- The messages summed into their destinations, plus the self-loop term `xw · di²`, plus the bias row. -/
def agg (xw : XV F) (di : DV F) (m : MV F) (d : EV) (b : BV F) : XV F :=
  addf (addf
    (Host.scatterAdd scatter_S100000x128_S640000x1_S640000x128_1_0_0_1
      (broadcastInDim S100000x128 ![] bcast_S_S100000x128 zeroS) (Stg.col d) m)
    (mulf xw (broadcastInDim S100000x128 ![0, 1] bcast_S100000x1_S100000x128_0_1
      (broadcastInDim S100000x1 ![0] bcast_S100000_S100000x1_0 (mulf di di)))))
    (broadcastInDim S100000x128 ![0, 1] bcast_S1x128_S100000x128_0_1 (broadcastInDim S1x128 ![1] bcast_S128_S1x128_1 b))

/-- One graph convolution of already projected features. -/
def conv (xw : XV F) (s d : EV) (b : BV F) : XV F := agg xw (dinv d) (msg xw (ew (dinv d) s d) s) d b

def relu (h : XV F) : XV F := maximumf h (broadcastInDim S100000x128 ![] bcast_S_S100000x128 zeroS)

def dot (h : XV F) (w : WV F) : XV F := Host.dotGeneral dot_S100000x128_S128x128_S100000x128_1_0_0_1_n_n none h w

def lin (h : XV F) (w : WV F) (b : BV F) : XV F :=
  addf (dot h w)
    (broadcastInDim S100000x128 ![0, 1] bcast_S1x128_S100000x128_0_1 (broadcastInDim S1x128 ![1] bcast_S128_S1x128_1 b))

def elu (h : XV F) : XV F :=
  select (cmpf .ogt h (broadcastInDim S100000x128 ![] bcast_S_S100000x128 zeroS)) h
    (mulf (broadcastInDim S100000x128 ![] bcast_S_S100000x128 oneS)
      (Host.expm1 (select (cmpf .ogt h (broadcastInDim S100000x128 ![] bcast_S_S100000x128 zeroS))
        (broadcastInDim S100000x128 ![] bcast_S_S100000x128 zeroS) h)))

def dot1 (h : XV F) (w : FVec F S128x1 .f32) : YV F := Host.dotGeneral dot_S100000x128_S128x1_S100000x1_1_0_0_1_n_n none h w

def lin1 (h : XV F) (w : FVec F S128x1 .f32) (b : FVec F S1 .f32) : YV F :=
  addf (dot1 h w)
    (broadcastInDim S100000x1 ![0, 1] bcast_S1x1_S100000x1_0_1 (broadcastInDim S1x1 ![1] bcast_S1_S1x1_1 b))

def elu1 (h : YV F) : YV F :=
  select (cmpf .ogt h (broadcastInDim S100000x1 ![] bcast_S_S100000x1 zeroS)) h
    (mulf (broadcastInDim S100000x1 ![] bcast_S_S100000x1 oneS)
      (Host.expm1 (select (cmpf .ogt h (broadcastInDim S100000x1 ![] bcast_S_S100000x1 zeroS))
        (broadcastInDim S100000x1 ![] bcast_S_S100000x1 zeroS) h)))

def sigm (h : YV F) : YV F :=
  Host.divf (broadcastInDim S100000x1 ![] bcast_S_S100000x1 oneS)
    (addf (broadcastInDim S100000x1 ![] bcast_S_S100000x1 oneS) (Host.exp (Host.negf h)))

/-- The dense tail: three layers of width 128 and one of width 1, each with the exponential linear unit, and the
    logistic function. -/
def dense (h : XV F) (lw0 : WV F) (lb0 : BV F) (lw1 : WV F) (lb1 : BV F) (lw2 : WV F) (lb2 : BV F)
    (lw3 : FVec F S128x1 .f32) (lb3 : FVec F S1 .f32) : YV F :=
  sigm (elu1 (lin1 (elu (lin (elu (lin (elu (lin h lw0 lb0)) lw1 lb1)) lw2 lb2)) lw3 lb3))

/-! ## At the ideal values these are the stages of `RStages` -/

theorem dinv_eq (d : EV) : dinv (F := Ideal) d = Stg.dinv d := rfl
theorem conv_eq (xw : XV Ideal) (s d : EV) (b : BV Ideal) : conv xw s d b = Stg.conv xw s d b := rfl
theorem relu_eq (h : XV Ideal) : relu h = Stg.relu h := rfl
theorem dot_eq (h : XV Ideal) (w : WV Ideal) : dot h w = Stg.dot h w := rfl
theorem lin_eq (h : XV Ideal) (w : WV Ideal) (b : BV Ideal) : lin h w b = Stg.lin h w b := rfl
theorem elu_eq (h : XV Ideal) : elu h = Stg.elu h := rfl
theorem lin1_eq (h : XV Ideal) (w : FVec Ideal S128x1 .f32) (b : FVec Ideal S1 .f32) : lin1 h w b = Stg.lin1 h w b := rfl
theorem elu1_eq (h : YV Ideal) : elu1 h = Stg.elu1 h := rfl
theorem sigm_eq (h : YV Ideal) : sigm h = Stg.sigm h := rfl

/-- The three convolutions and the dense tail are the reference network. -/
theorem net_eq (x : XV Ideal) (ei : EI) (w0 : WV Ideal) (b0 : BV Ideal) (w1 : WV Ideal) (b1 : BV Ideal) (w2 : WV Ideal)
    (b2 : BV Ideal) (lw0 : WV Ideal) (lb0 : BV Ideal) (lw1 : WV Ideal) (lb1 : BV Ideal) (lw2 : WV Ideal) (lb2 : BV Ideal)
    (lw3 : FVec Ideal S128x1 .f32) (lb3 : FVec Ideal S1 .f32) :
    dense (conv (dot (relu (conv (dot (relu (conv (dot x w0) (Stg.srcV ei) (Stg.dstV ei) b0)) w1)
        (Stg.srcV ei) (Stg.dstV ei) b1)) w2) (Stg.srcV ei) (Stg.dstV ei) b2) lw0 lb0 lw1 lb1 lw2 lb2 lw3 lb3
      = Stg.refOut x ei w0 b0 w1 b1 w2 b2 lw0 lb0 lw1 lb1 lw2 lb2 lw3 lb3 := by
  simp only [dense, conv_eq, relu_eq, dot_eq, lin_eq, elu_eq, lin1_eq, elu1_eq, sigm_eq]
  rfl

end Cert.ReferenceIdeal.Pc

end
-- ==== Proof.RefL0.lean ====
/-
  The first four operations and the first graph convolution of the reference program's line, read back, for any
  float values.

  The first piece cuts the edge list into its two rows. The layer is four pieces: the projection `x · w0` and the
  normalisation `dinv` (`d0`); the edge weights (`e0`); the messages (`g0`); their sum into the destinations, the
  self-loop term, the bias, the positive part and the next layer's projection (`a0`). Each piece is read at an arbitrary
  valuation: the buffer it ends at holds the stage's function of what its input buffers held, every buffer it does not
  write holds what it held. Chained, after the five pieces the arguments are unchanged, the index vectors are the rows
  of the edge list, and `main_v49` holds `relu (conv (x · w0)) · w1` (`layer0`).
-/
import proofs.«142762_j63788854280505_2_alg».proof.Proof.RefOps
import proofs.«142762_j63788854280505_2_alg».proof.Proof.RefBase
import proofs.«142762_j63788854280505_2_alg».proof.Proof.RefPieces

noncomputable section

namespace Cert.ReferenceIdeal.RefL0

open Cert.ReferenceIdeal Idealize.ShloMosaic Idealize.ShloMosaic.TcCoe Idealize.SL.Sem Idealize.ShloMosaic.StableHlo
open Cert.ReferenceIdeal.RefOps Cert.ReferenceIdeal.RefBase Cert.ReferenceIdeal.Pc
open Cert.ReferenceIdeal.Stg (EV)

variable {F : FTy → Type} [FloatOps F] [Facts]
open Facts₀ Facts

/-! ## The two rows of the edge list -/

theorem s0_writes : (s0 (F := F)).Forall fun op => op.writes ⊆ (s0_W.map (Proc.devRef (τ := τ) .tc)).toFinset := by
  simp only [List.Forall]
  and_intros <;> exact writes_ok (by decide)

theorem s0_src (V : Vl F) :
    after (s0 (F := F)) V (Proc.devRef .tc main_v1) = Stg.srcV (V (Proc.devRef .tc main_arg1)) := by
  after_results_simp
  rfl

theorem s0_dst (V : Vl F) :
    after (s0 (F := F)) V (Proc.devRef .tc main_v3) = Stg.dstV (V (Proc.devRef .tc main_arg1)) := by
  after_results_simp
  rfl

/-- After the first piece: the arguments unchanged, the index vectors the rows of the edge list. -/
theorem start (V : Vl F) : Base V (after (s0 (F := F)) V) where
  args r hr := after_of_writes_sub s0 V s0_writes ((by decide : ∀ r ∈ argRefs, r ∉ s0_W) r hr)
  src := s0_src V
  dst := s0_dst V

/-! ## The projection and the normalisation -/

theorem d0_writes : (d0 (F := F)).Forall fun op => op.writes ⊆ (d0_W.map (Proc.devRef (τ := τ) .tc)).toFinset := by
  simp only [List.Forall]
  and_intros <;> exact writes_ok (by decide)

theorem d0_keeps (V : Vl F) : ∀ r ∈ keepRefs, after (d0 (F := F)) V (Proc.devRef .tc r) = V (Proc.devRef .tc r) :=
  keeps_of_writes d0_writes (by decide) V

theorem d0_dot (V : Vl F) {x : XV F} {w : WV F} (hx : V (Proc.devRef .tc main_arg0) = x)
    (hw : V (Proc.devRef .tc main_arg2) = w) :
    after (d0 (F := F)) V (Proc.devRef .tc main_v4) = dot x w := by
  subst hx hw
  after_results_simp
  rfl

theorem d0_dinv (V : Vl F) {d : EV} (hd : V (Proc.devRef .tc main_v3) = d) :
    after (d0 (F := F)) V (Proc.devRef .tc main_v11) = dinv d := by
  subst hd
  after_results_simp
  rfl

/-! ## The edge weights -/

theorem e0_writes : (e0 (F := F)).Forall fun op => op.writes ⊆ (e0_W.map (Proc.devRef (τ := τ) .tc)).toFinset := by
  simp only [List.Forall]
  and_intros <;> exact writes_ok (by decide)

theorem e0_keeps (V : Vl F) : ∀ r ∈ keepRefs, after (e0 (F := F)) V (Proc.devRef .tc r) = V (Proc.devRef .tc r) :=
  keeps_of_writes e0_writes (by decide) V

theorem e0_fr (V : Vl F) {r : Ref sig .tc} (hr : r ∉ e0_W) :
    after (e0 (F := F)) V (Proc.devRef .tc r) = V (Proc.devRef .tc r) :=
  after_of_writes_sub e0 V e0_writes hr

theorem e0_out (V : Vl F) {di : DV F} {s d : EV} (hdi : V (Proc.devRef .tc main_v11) = di)
    (hs : V (Proc.devRef .tc main_v1) = s) (hd : V (Proc.devRef .tc main_v3) = d) :
    after (e0 (F := F)) V (Proc.devRef .tc main_v26) = ew di s d := by
  subst hdi hs hd
  after_results_simp
  rfl

/-! ## The messages -/

theorem g0_writes : (g0 (F := F)).Forall fun op => op.writes ⊆ (g0_W.map (Proc.devRef (τ := τ) .tc)).toFinset := by
  simp only [List.Forall]
  and_intros <;> exact writes_ok (by decide)

theorem g0_keeps (V : Vl F) : ∀ r ∈ keepRefs, after (g0 (F := F)) V (Proc.devRef .tc r) = V (Proc.devRef .tc r) :=
  keeps_of_writes g0_writes (by decide) V

theorem g0_fr (V : Vl F) {r : Ref sig .tc} (hr : r ∉ g0_W) :
    after (g0 (F := F)) V (Proc.devRef .tc r) = V (Proc.devRef .tc r) :=
  after_of_writes_sub g0 V g0_writes hr

theorem g0_out (V : Vl F) {xw : XV F} {w : QV F} {s : EV} (hxw : V (Proc.devRef .tc main_v4) = xw)
    (hw : V (Proc.devRef .tc main_v26) = w) (hs : V (Proc.devRef .tc main_v1) = s) :
    after (g0 (F := F)) V (Proc.devRef .tc main_v36) = msg xw w s := by
  subst hxw hw hs
  after_results_simp
  rfl

/-! ## The combination, the positive part and the next projection -/

theorem a0_writes : (a0 (F := F)).Forall fun op => op.writes ⊆ (a0_W.map (Proc.devRef (τ := τ) .tc)).toFinset := by
  simp only [List.Forall]
  and_intros <;> exact writes_ok (by decide)

theorem a0_keeps (V : Vl F) : ∀ r ∈ keepRefs, after (a0 (F := F)) V (Proc.devRef .tc r) = V (Proc.devRef .tc r) :=
  keeps_of_writes a0_writes (by decide) V

theorem a0_out (V : Vl F) {xw : XV F} {di : DV F} {m : MV F} {d : EV} {b : BV F} {w : WV F}
    (hxw : V (Proc.devRef .tc main_v4) = xw) (hdi : V (Proc.devRef .tc main_v11) = di)
    (hm : V (Proc.devRef .tc main_v36) = m) (hd : V (Proc.devRef .tc main_v3) = d)
    (hb : V (Proc.devRef .tc main_arg3) = b) (hw : V (Proc.devRef .tc main_arg4) = w) :
    after (a0 (F := F)) V (Proc.devRef .tc main_v49) = dot (relu (agg xw di m d b)) w := by
  subst hxw hdi hm hd hb hw
  after_results_simp
  simp only [TRef.toBuf, TRef.ofBuf, cast_eq]
  rfl

/-! ## The layer -/

/-- After the first graph convolution's pieces, run from contents `W` that keep the arguments and the index vectors:
    those are kept, and `main_v49` holds the layer's result projected for the next layer. -/
theorem layer0 (V W : Vl F) (h : Base V W) :
    Base V (after (a0 (F := F)) (after (g0 (F := F)) (after (e0 (F := F)) (after (d0 (F := F)) W))))
    ∧ after (a0 (F := F)) (after (g0 (F := F)) (after (e0 (F := F)) (after (d0 (F := F)) W)))
        (Proc.devRef .tc main_v49)
      = dot (relu (conv (dot (V (Proc.devRef .tc main_arg0)) (V (Proc.devRef .tc main_arg2)))
          (Stg.srcV (V (Proc.devRef .tc main_arg1))) (Stg.dstV (V (Proc.devRef .tc main_arg1)))
          (V (Proc.devRef .tc main_arg3)))) (V (Proc.devRef .tc main_arg4)) := by
  have b1 := h.step (d0_keeps W)
  have x1 := d0_dot W (h.args main_arg0 (by decide)) (h.args main_arg2 (by decide))
  have i1 := d0_dinv W h.dst
  generalize after (d0 (F := F)) W = W1 at b1 x1 i1 ⊢
  have b2 := b1.step (e0_keeps W1)
  have q2 := e0_out W1 i1 b1.src b1.dst
  have x2 := (e0_fr W1 (r := main_v4) (by decide)).trans x1
  have i2 := (e0_fr W1 (r := main_v11) (by decide)).trans i1
  generalize after (e0 (F := F)) W1 = W2 at b2 q2 x2 i2 ⊢
  have b3 := b2.step (g0_keeps W2)
  have m3 := g0_out W2 x2 q2 b2.src
  have x3 := (g0_fr W2 (r := main_v4) (by decide)).trans x2
  have i3 := (g0_fr W2 (r := main_v11) (by decide)).trans i2
  generalize after (g0 (F := F)) W2 = W3 at b3 m3 x3 i3 ⊢
  refine ⟨b3.step (a0_keeps W3), ?_⟩
  unfold conv
  exact a0_out W3 x3 i3 m3 b3.dst (b3.args main_arg3 (by decide)) (b3.args main_arg4 (by decide))

end Cert.ReferenceIdeal.RefL0

end
-- ==== Proof.RefL1.lean ====
/-
  The second graph convolution of the reference program's line, read back, for any float values.

  Four pieces: the normalisation `dinv` (`d1`); the edge weights (`e1`); the messages of the features `main_v49` holds
  (`g1`); their sum into the destinations, the self-loop term, the bias, the positive part and the next layer's
  projection (`a1`). Each piece is read at an arbitrary valuation; chained, the arguments and the index vectors are
  kept and `main_v94` holds `relu (conv h) · w2` for the features `h` the layer started from (`layer1`).
-/
import proofs.«142762_j63788854280505_2_alg».proof.Proof.RefOps
import proofs.«142762_j63788854280505_2_alg».proof.Proof.RefBase
import proofs.«142762_j63788854280505_2_alg».proof.Proof.RefPieces

noncomputable section

namespace Cert.ReferenceIdeal.RefL1

open Cert.ReferenceIdeal Idealize.ShloMosaic Idealize.ShloMosaic.TcCoe Idealize.SL.Sem Idealize.ShloMosaic.StableHlo
open Cert.ReferenceIdeal.RefOps Cert.ReferenceIdeal.RefBase Cert.ReferenceIdeal.Pc
open Cert.ReferenceIdeal.Stg (EV)

variable {F : FTy → Type} [FloatOps F] [Facts]
open Facts₀ Facts

/-! ## The normalisation -/

theorem d1_writes : (d1 (F := F)).Forall fun op => op.writes ⊆ (d1_W.map (Proc.devRef (τ := τ) .tc)).toFinset := by
  simp only [List.Forall]
  and_intros <;> exact writes_ok (by decide)

theorem d1_keeps (V : Vl F) : ∀ r ∈ keepRefs, after (d1 (F := F)) V (Proc.devRef .tc r) = V (Proc.devRef .tc r) :=
  keeps_of_writes d1_writes (by decide) V

theorem d1_fr (V : Vl F) {r : Ref sig .tc} (hr : r ∉ d1_W) :
    after (d1 (F := F)) V (Proc.devRef .tc r) = V (Proc.devRef .tc r) :=
  after_of_writes_sub d1 V d1_writes hr

theorem d1_dinv (V : Vl F) {d : EV} (hd : V (Proc.devRef .tc main_v3) = d) :
    after (d1 (F := F)) V (Proc.devRef .tc main_v56) = dinv d := by
  subst hd
  after_results_simp
  rfl

/-! ## The edge weights -/

theorem e1_writes : (e1 (F := F)).Forall fun op => op.writes ⊆ (e1_W.map (Proc.devRef (τ := τ) .tc)).toFinset := by
  simp only [List.Forall]
  and_intros <;> exact writes_ok (by decide)

theorem e1_keeps (V : Vl F) : ∀ r ∈ keepRefs, after (e1 (F := F)) V (Proc.devRef .tc r) = V (Proc.devRef .tc r) :=
  keeps_of_writes e1_writes (by decide) V

theorem e1_fr (V : Vl F) {r : Ref sig .tc} (hr : r ∉ e1_W) :
    after (e1 (F := F)) V (Proc.devRef .tc r) = V (Proc.devRef .tc r) :=
  after_of_writes_sub e1 V e1_writes hr

theorem e1_out (V : Vl F) {di : DV F} {s d : EV} (hdi : V (Proc.devRef .tc main_v56) = di)
    (hs : V (Proc.devRef .tc main_v1) = s) (hd : V (Proc.devRef .tc main_v3) = d) :
    after (e1 (F := F)) V (Proc.devRef .tc main_v71) = ew di s d := by
  subst hdi hs hd
  after_results_simp
  rfl

/-! ## The messages -/

theorem g1_writes : (g1 (F := F)).Forall fun op => op.writes ⊆ (g1_W.map (Proc.devRef (τ := τ) .tc)).toFinset := by
  simp only [List.Forall]
  and_intros <;> exact writes_ok (by decide)

theorem g1_keeps (V : Vl F) : ∀ r ∈ keepRefs, after (g1 (F := F)) V (Proc.devRef .tc r) = V (Proc.devRef .tc r) :=
  keeps_of_writes g1_writes (by decide) V

theorem g1_fr (V : Vl F) {r : Ref sig .tc} (hr : r ∉ g1_W) :
    after (g1 (F := F)) V (Proc.devRef .tc r) = V (Proc.devRef .tc r) :=
  after_of_writes_sub g1 V g1_writes hr

theorem g1_out (V : Vl F) {xw : XV F} {w : QV F} {s : EV} (hxw : V (Proc.devRef .tc main_v49) = xw)
    (hw : V (Proc.devRef .tc main_v71) = w) (hs : V (Proc.devRef .tc main_v1) = s) :
    after (g1 (F := F)) V (Proc.devRef .tc main_v81) = msg xw w s := by
  subst hxw hw hs
  after_results_simp
  rfl

/-! ## The combination, the positive part and the next projection -/

theorem a1_writes : (a1 (F := F)).Forall fun op => op.writes ⊆ (a1_W.map (Proc.devRef (τ := τ) .tc)).toFinset := by
  simp only [List.Forall]
  and_intros <;> exact writes_ok (by decide)

theorem a1_keeps (V : Vl F) : ∀ r ∈ keepRefs, after (a1 (F := F)) V (Proc.devRef .tc r) = V (Proc.devRef .tc r) :=
  keeps_of_writes a1_writes (by decide) V

theorem a1_out (V : Vl F) {xw : XV F} {di : DV F} {m : MV F} {d : EV} {b : BV F} {w : WV F}
    (hxw : V (Proc.devRef .tc main_v49) = xw) (hdi : V (Proc.devRef .tc main_v56) = di)
    (hm : V (Proc.devRef .tc main_v81) = m) (hd : V (Proc.devRef .tc main_v3) = d)
    (hb : V (Proc.devRef .tc main_arg5) = b) (hw : V (Proc.devRef .tc main_arg6) = w) :
    after (a1 (F := F)) V (Proc.devRef .tc main_v94) = dot (relu (agg xw di m d b)) w := by
  subst hxw hdi hm hd hb hw
  after_results_simp
  simp only [TRef.toBuf, TRef.ofBuf, cast_eq]
  rfl

/-! ## The layer -/

/-- After the second graph convolution's pieces, run from contents `W` that keep the arguments and the index vectors
    and hold the features `x` at `main_v49`: those are kept, and `main_v94` holds the layer's result projected for the next
    layer. -/
theorem layer1 (V W : Vl F) (h : Base V W) {x : XV F} (hx : W (Proc.devRef .tc main_v49) = x) :
    Base V (after (a1 (F := F)) (after (g1 (F := F)) (after (e1 (F := F)) (after (d1 (F := F)) W))))
    ∧ after (a1 (F := F)) (after (g1 (F := F)) (after (e1 (F := F)) (after (d1 (F := F)) W)))
        (Proc.devRef .tc main_v94)
      = dot (relu (conv x (Stg.srcV (V (Proc.devRef .tc main_arg1))) (Stg.dstV (V (Proc.devRef .tc main_arg1)))
          (V (Proc.devRef .tc main_arg5)))) (V (Proc.devRef .tc main_arg6)) := by
  have b1 := h.step (d1_keeps W)
  have x1 := (d1_fr W (r := main_v49) (by decide)).trans hx
  have i1 := d1_dinv W h.dst
  generalize after (d1 (F := F)) W = W1 at b1 x1 i1 ⊢
  have b2 := b1.step (e1_keeps W1)
  have q2 := e1_out W1 i1 b1.src b1.dst
  have x2 := (e1_fr W1 (r := main_v49) (by decide)).trans x1
  have i2 := (e1_fr W1 (r := main_v56) (by decide)).trans i1
  generalize after (e1 (F := F)) W1 = W2 at b2 q2 x2 i2 ⊢
  have b3 := b2.step (g1_keeps W2)
  have m3 := g1_out W2 x2 q2 b2.src
  have x3 := (g1_fr W2 (r := main_v49) (by decide)).trans x2
  have i3 := (g1_fr W2 (r := main_v56) (by decide)).trans i2
  generalize after (g1 (F := F)) W2 = W3 at b3 m3 x3 i3 ⊢
  refine ⟨b3.step (a1_keeps W3), ?_⟩
  unfold conv
  exact a1_out W3 x3 i3 m3 b3.dst (b3.args main_arg5 (by decide)) (b3.args main_arg6 (by decide))

end Cert.ReferenceIdeal.RefL1

end
-- ==== Proof.RefL2.lean ====
/-
  The third graph convolution of the reference program's line, read back, for any float values.

  Five pieces: the normalisation `dinv`, cut in two where the program's second window ends (`d2a`, `d2b`); the edge
  weights (`e2`); the messages of the features `main_v94` holds (`g2`); their sum into the destinations, the self-loop term
  and the bias (`a2`: this layer has no positive part). Each piece is read at an arbitrary valuation; chained, the
  arguments and the index vectors are kept and `main_v137` holds `conv h` for the features `h` the layer started from
  (`layer2`).
-/
import proofs.«142762_j63788854280505_2_alg».proof.Proof.RefOps
import proofs.«142762_j63788854280505_2_alg».proof.Proof.RefBase
import proofs.«142762_j63788854280505_2_alg».proof.Proof.RefPieces

noncomputable section

namespace Cert.ReferenceIdeal.RefL2

open Cert.ReferenceIdeal Idealize.ShloMosaic Idealize.ShloMosaic.TcCoe Idealize.SL.Sem Idealize.ShloMosaic.StableHlo
open Cert.ReferenceIdeal.RefOps Cert.ReferenceIdeal.RefBase Cert.ReferenceIdeal.Pc
open Cert.ReferenceIdeal.Stg (EV)

variable {F : FTy → Type} [FloatOps F] [Facts]
open Facts₀ Facts

/-! ## The normalisation, in two pieces -/

theorem d2a_writes : (d2a (F := F)).Forall fun op => op.writes ⊆ (d2a_W.map (Proc.devRef (τ := τ) .tc)).toFinset := by
  simp only [List.Forall]
  and_intros <;> exact writes_ok (by decide)

theorem d2a_keeps (V : Vl F) : ∀ r ∈ keepRefs, after (d2a (F := F)) V (Proc.devRef .tc r) = V (Proc.devRef .tc r) :=
  keeps_of_writes d2a_writes (by decide) V

theorem d2a_fr (V : Vl F) {r : Ref sig .tc} (hr : r ∉ d2a_W) :
    after (d2a (F := F)) V (Proc.devRef .tc r) = V (Proc.devRef .tc r) :=
  after_of_writes_sub d2a V d2a_writes hr

theorem d2b_writes : (d2b (F := F)).Forall fun op => op.writes ⊆ (d2b_W.map (Proc.devRef (τ := τ) .tc)).toFinset := by
  simp only [List.Forall]
  and_intros <;> exact writes_ok (by decide)

theorem d2b_keeps (V : Vl F) : ∀ r ∈ keepRefs, after (d2b (F := F)) V (Proc.devRef .tc r) = V (Proc.devRef .tc r) :=
  keeps_of_writes d2b_writes (by decide) V

theorem d2b_fr (V : Vl F) {r : Ref sig .tc} (hr : r ∉ d2b_W) :
    after (d2b (F := F)) V (Proc.devRef .tc r) = V (Proc.devRef .tc r) :=
  after_of_writes_sub d2b V d2b_writes hr

theorem d2_dinv (V : Vl F) {d : EV} (hd : V (Proc.devRef .tc main_v3) = d) :
    after (d2b (F := F)) (after (d2a (F := F)) V) (Proc.devRef .tc main_v101) = dinv d := by
  subst hd
  after_results_simp
  rfl

/-! ## The edge weights -/

theorem e2_writes : (e2 (F := F)).Forall fun op => op.writes ⊆ (e2_W.map (Proc.devRef (τ := τ) .tc)).toFinset := by
  simp only [List.Forall]
  and_intros <;> exact writes_ok (by decide)

theorem e2_keeps (V : Vl F) : ∀ r ∈ keepRefs, after (e2 (F := F)) V (Proc.devRef .tc r) = V (Proc.devRef .tc r) :=
  keeps_of_writes e2_writes (by decide) V

theorem e2_fr (V : Vl F) {r : Ref sig .tc} (hr : r ∉ e2_W) :
    after (e2 (F := F)) V (Proc.devRef .tc r) = V (Proc.devRef .tc r) :=
  after_of_writes_sub e2 V e2_writes hr

theorem e2_out (V : Vl F) {di : DV F} {s d : EV} (hdi : V (Proc.devRef .tc main_v101) = di)
    (hs : V (Proc.devRef .tc main_v1) = s) (hd : V (Proc.devRef .tc main_v3) = d) :
    after (e2 (F := F)) V (Proc.devRef .tc main_v116) = ew di s d := by
  subst hdi hs hd
  after_results_simp
  rfl

/-! ## The messages -/

theorem g2_writes : (g2 (F := F)).Forall fun op => op.writes ⊆ (g2_W.map (Proc.devRef (τ := τ) .tc)).toFinset := by
  simp only [List.Forall]
  and_intros <;> exact writes_ok (by decide)

theorem g2_keeps (V : Vl F) : ∀ r ∈ keepRefs, after (g2 (F := F)) V (Proc.devRef .tc r) = V (Proc.devRef .tc r) :=
  keeps_of_writes g2_writes (by decide) V

theorem g2_fr (V : Vl F) {r : Ref sig .tc} (hr : r ∉ g2_W) :
    after (g2 (F := F)) V (Proc.devRef .tc r) = V (Proc.devRef .tc r) :=
  after_of_writes_sub g2 V g2_writes hr

theorem g2_out (V : Vl F) {xw : XV F} {w : QV F} {s : EV} (hxw : V (Proc.devRef .tc main_v94) = xw)
    (hw : V (Proc.devRef .tc main_v116) = w) (hs : V (Proc.devRef .tc main_v1) = s) :
    after (g2 (F := F)) V (Proc.devRef .tc main_v126) = msg xw w s := by
  subst hxw hw hs
  after_results_simp
  rfl

/-! ## The combination -/

theorem a2_writes : (a2 (F := F)).Forall fun op => op.writes ⊆ (a2_W.map (Proc.devRef (τ := τ) .tc)).toFinset := by
  simp only [List.Forall]
  and_intros <;> exact writes_ok (by decide)

theorem a2_keeps (V : Vl F) : ∀ r ∈ keepRefs, after (a2 (F := F)) V (Proc.devRef .tc r) = V (Proc.devRef .tc r) :=
  keeps_of_writes a2_writes (by decide) V

theorem a2_out (V : Vl F) {xw : XV F} {di : DV F} {m : MV F} {d : EV} {b : BV F}
    (hxw : V (Proc.devRef .tc main_v94) = xw) (hdi : V (Proc.devRef .tc main_v101) = di)
    (hm : V (Proc.devRef .tc main_v126) = m) (hd : V (Proc.devRef .tc main_v3) = d)
    (hb : V (Proc.devRef .tc main_arg7) = b) :
    after (a2 (F := F)) V (Proc.devRef .tc main_v137) = agg xw di m d b := by
  subst hxw hdi hm hd hb
  after_results_simp
  rfl

/-! ## The layer -/

/-- After the third graph convolution's pieces, run from contents `W` that keep the arguments and the index vectors
    and hold the features `x` at `main_v94`: those are kept, and `main_v137` holds the layer's result. -/
theorem layer2 (V W : Vl F) (h : Base V W) {x : XV F} (hx : W (Proc.devRef .tc main_v94) = x) :
    Base V (after (a2 (F := F)) (after (g2 (F := F)) (after (e2 (F := F))
      (after (d2b (F := F)) (after (d2a (F := F)) W)))))
    ∧ after (a2 (F := F)) (after (g2 (F := F)) (after (e2 (F := F))
        (after (d2b (F := F)) (after (d2a (F := F)) W)))) (Proc.devRef .tc main_v137)
      = conv x (Stg.srcV (V (Proc.devRef .tc main_arg1))) (Stg.dstV (V (Proc.devRef .tc main_arg1)))
          (V (Proc.devRef .tc main_arg7)) := by
  have b0 := h.step (d2a_keeps W)
  have x0 := (d2a_fr W (r := main_v94) (by decide)).trans hx
  have i1 := d2_dinv W h.dst
  generalize after (d2a (F := F)) W = W0 at b0 x0 i1 ⊢
  have b1 := b0.step (d2b_keeps W0)
  have x1 := (d2b_fr W0 (r := main_v94) (by decide)).trans x0
  generalize after (d2b (F := F)) W0 = W1 at b1 x1 i1 ⊢
  have b2 := b1.step (e2_keeps W1)
  have q2 := e2_out W1 i1 b1.src b1.dst
  have x2 := (e2_fr W1 (r := main_v94) (by decide)).trans x1
  have i2 := (e2_fr W1 (r := main_v101) (by decide)).trans i1
  generalize after (e2 (F := F)) W1 = W2 at b2 q2 x2 i2 ⊢
  have b3 := b2.step (g2_keeps W2)
  have m3 := g2_out W2 x2 q2 b2.src
  have x3 := (g2_fr W2 (r := main_v94) (by decide)).trans x2
  have i3 := (g2_fr W2 (r := main_v101) (by decide)).trans i2
  generalize after (g2 (F := F)) W2 = W3 at b3 m3 x3 i3 ⊢
  refine ⟨b3.step (a2_keeps W3), ?_⟩
  unfold conv
  exact a2_out W3 x3 i3 m3 b3.dst (b3.args main_arg7 (by decide))

end Cert.ReferenceIdeal.RefL2

end
-- ==== Proof.RefTail.lean ====
/-
  The dense tail of the reference program's line, read back, for any float values.

  Six pieces: three dense layers of width 128 (`t0`, `t1`, and `t2a` with `t2b`, the third cut in two where the
  program's third window ends), each a product with a weight matrix, a bias row and the exponential linear unit; the
  layer of width 1 (`t3`); and the logistic function (`t4`). Each piece is read at an arbitrary valuation: the buffer
  it ends at holds the stage's function of what its input buffers held, and every buffer it does not write holds what
  it held. Chained from contents that keep the arguments and hold features `x` in `main_v137`, the arguments and the
  index vectors are kept and `main_v163` holds the dense tail of `x` (`tail`).
-/
import proofs.«142762_j63788854280505_2_alg».proof.Proof.RefOps
import proofs.«142762_j63788854280505_2_alg».proof.Proof.RefBase
import proofs.«142762_j63788854280505_2_alg».proof.Proof.RefPieces

noncomputable section

namespace Cert.ReferenceIdeal.RefTail

open Cert.ReferenceIdeal Idealize.ShloMosaic Idealize.ShloMosaic.TcCoe Idealize.SL.Sem Idealize.ShloMosaic.StableHlo
open Cert.ReferenceIdeal.RefOps Cert.ReferenceIdeal.RefBase Cert.ReferenceIdeal.Pc
open Cert.ReferenceIdeal.Stg (EV)

variable {F : FTy → Type} [FloatOps F] [Facts]
open Facts₀ Facts

/-! ## The first dense layer -/

theorem t0_writes : (t0 (F := F)).Forall fun op => op.writes ⊆ (t0_W.map (Proc.devRef (τ := τ) .tc)).toFinset := by
  simp only [List.Forall]
  and_intros <;> exact writes_ok (by decide)

theorem t0_keeps (V : Vl F) : ∀ r ∈ keepRefs, after (t0 (F := F)) V (Proc.devRef .tc r) = V (Proc.devRef .tc r) :=
  keeps_of_writes t0_writes (by decide) V

theorem t0_fr (V : Vl F) {r : Ref sig .tc} (hr : r ∉ t0_W) :
    after (t0 (F := F)) V (Proc.devRef .tc r) = V (Proc.devRef .tc r) :=
  after_of_writes_sub t0 V t0_writes hr

theorem t0_out (V : Vl F) {x : XV F} {w : WV F} {b : BV F} (hx : V (Proc.devRef .tc main_v137) = x)
    (hw : V (Proc.devRef .tc main_arg8) = w) (hb : V (Proc.devRef .tc main_arg9) = b) :
    after (t0 (F := F)) V (Proc.devRef .tc main_v142) = elu (lin x w b) := by
  subst hx hw hb
  after_results_simp
  simp only [TRef.toBuf, TRef.ofBuf, cast_eq]
  rfl

/-! ## The second dense layer -/

theorem t1_writes : (t1 (F := F)).Forall fun op => op.writes ⊆ (t1_W.map (Proc.devRef (τ := τ) .tc)).toFinset := by
  simp only [List.Forall]
  and_intros <;> exact writes_ok (by decide)

theorem t1_keeps (V : Vl F) : ∀ r ∈ keepRefs, after (t1 (F := F)) V (Proc.devRef .tc r) = V (Proc.devRef .tc r) :=
  keeps_of_writes t1_writes (by decide) V

theorem t1_fr (V : Vl F) {r : Ref sig .tc} (hr : r ∉ t1_W) :
    after (t1 (F := F)) V (Proc.devRef .tc r) = V (Proc.devRef .tc r) :=
  after_of_writes_sub t1 V t1_writes hr

theorem t1_out (V : Vl F) {x : XV F} {w : WV F} {b : BV F} (hx : V (Proc.devRef .tc main_v142) = x)
    (hw : V (Proc.devRef .tc main_arg10) = w) (hb : V (Proc.devRef .tc main_arg11) = b) :
    after (t1 (F := F)) V (Proc.devRef .tc main_v147) = elu (lin x w b) := by
  subst hx hw hb
  after_results_simp
  simp only [TRef.toBuf, TRef.ofBuf, cast_eq]
  rfl

/-! ## The third dense layer, in two pieces -/

theorem t2a_writes : (t2a (F := F)).Forall fun op => op.writes ⊆ (t2a_W.map (Proc.devRef (τ := τ) .tc)).toFinset := by
  simp only [List.Forall]
  and_intros <;> exact writes_ok (by decide)

theorem t2a_keeps (V : Vl F) : ∀ r ∈ keepRefs, after (t2a (F := F)) V (Proc.devRef .tc r) = V (Proc.devRef .tc r) :=
  keeps_of_writes t2a_writes (by decide) V

theorem t2a_fr (V : Vl F) {r : Ref sig .tc} (hr : r ∉ t2a_W) :
    after (t2a (F := F)) V (Proc.devRef .tc r) = V (Proc.devRef .tc r) :=
  after_of_writes_sub t2a V t2a_writes hr

theorem t2b_writes : (t2b (F := F)).Forall fun op => op.writes ⊆ (t2b_W.map (Proc.devRef (τ := τ) .tc)).toFinset := by
  simp only [List.Forall]
  and_intros <;> exact writes_ok (by decide)

theorem t2b_keeps (V : Vl F) : ∀ r ∈ keepRefs, after (t2b (F := F)) V (Proc.devRef .tc r) = V (Proc.devRef .tc r) :=
  keeps_of_writes t2b_writes (by decide) V

theorem t2b_fr (V : Vl F) {r : Ref sig .tc} (hr : r ∉ t2b_W) :
    after (t2b (F := F)) V (Proc.devRef .tc r) = V (Proc.devRef .tc r) :=
  after_of_writes_sub t2b V t2b_writes hr

theorem t2_out (V : Vl F) {x : XV F} {w : WV F} {b : BV F} (hx : V (Proc.devRef .tc main_v147) = x)
    (hw : V (Proc.devRef .tc main_arg12) = w) (hb : V (Proc.devRef .tc main_arg13) = b) :
    after (t2b (F := F)) (after (t2a (F := F)) V) (Proc.devRef .tc main_v152) = elu (lin x w b) := by
  subst hx hw hb
  after_results_simp
  simp only [TRef.toBuf, TRef.ofBuf, cast_eq]
  rfl

/-! ## The layer of width one -/

theorem t3_writes : (t3 (F := F)).Forall fun op => op.writes ⊆ (t3_W.map (Proc.devRef (τ := τ) .tc)).toFinset := by
  simp only [List.Forall]
  and_intros <;> exact writes_ok (by decide)

theorem t3_keeps (V : Vl F) : ∀ r ∈ keepRefs, after (t3 (F := F)) V (Proc.devRef .tc r) = V (Proc.devRef .tc r) :=
  keeps_of_writes t3_writes (by decide) V

theorem t3_fr (V : Vl F) {r : Ref sig .tc} (hr : r ∉ t3_W) :
    after (t3 (F := F)) V (Proc.devRef .tc r) = V (Proc.devRef .tc r) :=
  after_of_writes_sub t3 V t3_writes hr

theorem t3_out (V : Vl F) {x : XV F} {w : FVec F S128x1 .f32} {b : FVec F S1 .f32}
    (hx : V (Proc.devRef .tc main_v152) = x) (hw : V (Proc.devRef .tc main_arg14) = w)
    (hb : V (Proc.devRef .tc main_arg15) = b) :
    after (t3 (F := F)) V (Proc.devRef .tc main_v157) = elu1 (lin1 x w b) := by
  subst hx hw hb
  after_results_simp
  simp only [TRef.toBuf, TRef.ofBuf, cast_eq]
  rfl

/-! ## The logistic function -/

theorem t4_writes : (t4 (F := F)).Forall fun op => op.writes ⊆ (t4_W.map (Proc.devRef (τ := τ) .tc)).toFinset := by
  simp only [List.Forall]
  and_intros <;> exact writes_ok (by decide)

theorem t4_keeps (V : Vl F) : ∀ r ∈ keepRefs, after (t4 (F := F)) V (Proc.devRef .tc r) = V (Proc.devRef .tc r) :=
  keeps_of_writes t4_writes (by decide) V

theorem t4_fr (V : Vl F) {r : Ref sig .tc} (hr : r ∉ t4_W) :
    after (t4 (F := F)) V (Proc.devRef .tc r) = V (Proc.devRef .tc r) :=
  after_of_writes_sub t4 V t4_writes hr

theorem t4_out (V : Vl F) {x : YV F} (hx : V (Proc.devRef .tc main_v157) = x) :
    after (t4 (F := F)) V (Proc.devRef .tc main_v163) = sigm x := by
  subst hx
  after_results_simp
  rfl

/-! ## The tail -/

/-- After the dense tail's pieces, run from contents `W` that keep the arguments and the index vectors and hold `x` in
    `main_v137`: those are kept, and `main_v163` holds the dense tail of `x`. -/
theorem tail (V W : Vl F) (h : Base V W) {x : XV F} (hx : W (Proc.devRef .tc main_v137) = x) :
    Base V (after (t4 (F := F)) (after (t3 (F := F)) (after (t2b (F := F)) (after (t2a (F := F))
      (after (t1 (F := F)) (after (t0 (F := F)) W))))))
    ∧ after (t4 (F := F)) (after (t3 (F := F)) (after (t2b (F := F)) (after (t2a (F := F))
        (after (t1 (F := F)) (after (t0 (F := F)) W))))) (Proc.devRef .tc main_v163)
      = dense x (V (Proc.devRef .tc main_arg8)) (V (Proc.devRef .tc main_arg9)) (V (Proc.devRef .tc main_arg10))
          (V (Proc.devRef .tc main_arg11)) (V (Proc.devRef .tc main_arg12)) (V (Proc.devRef .tc main_arg13))
          (V (Proc.devRef .tc main_arg14)) (V (Proc.devRef .tc main_arg15)) := by
  have b1 := h.step (t0_keeps W)
  have x1 := t0_out W hx (h.args main_arg8 (by decide)) (h.args main_arg9 (by decide))
  generalize after (t0 (F := F)) W = W1 at b1 x1 ⊢
  have b2 := b1.step (t1_keeps W1)
  have x2 := t1_out W1 x1 (b1.args main_arg10 (by decide)) (b1.args main_arg11 (by decide))
  generalize after (t1 (F := F)) W1 = W2 at b2 x2 ⊢
  have b3 := (b2.step (t2a_keeps W2)).step (t2b_keeps (after (t2a (F := F)) W2))
  have x3 := t2_out W2 x2 (b2.args main_arg12 (by decide)) (b2.args main_arg13 (by decide))
  generalize after (t2b (F := F)) (after (t2a (F := F)) W2) = W3 at b3 x3 ⊢
  have b4 := b3.step (t3_keeps W3)
  have x4 := t3_out W3 x3 (b3.args main_arg14 (by decide)) (b3.args main_arg15 (by decide))
  generalize after (t3 (F := F)) W3 = W4 at b4 x4 ⊢
  refine ⟨b4.step (t4_keeps W4), ?_⟩
  unfold dense
  exact t4_out W4 x4

end Cert.ReferenceIdeal.RefTail

end
-- ==== Proof.RefRun.lean ====
/-
  The run of the reference program: it ends with the network's result of the arguments, the arguments unchanged.

  The program is the run of its line of operations (`RefMain.run_main`): every weakly fair execution terminates with each
  buffer at the fold of the line over the launch contents. The fold of a concatenation is the folds in order, so the
  fold of the whole line is read piece by piece: after the first four operations the index vectors are the rows of the
  edge list (`RefL0.start`); each graph convolution's pieces keep that and leave the layer's result (`layer0`, `layer1`,
  `layer2`); the dense tail's pieces leave the network's result (`RefTail.tail`). That holds for any float values; at the
  ideal values the network so composed is `Stg.refOut` (`Pc.net_eq`).
-/
import proofs.«142762_j63788854280505_2_alg».proof.Proof.RefMain
import proofs.«142762_j63788854280505_2_alg».proof.Proof.RefL0
import proofs.«142762_j63788854280505_2_alg».proof.Proof.RefL1
import proofs.«142762_j63788854280505_2_alg».proof.Proof.RefL2
import proofs.«142762_j63788854280505_2_alg».proof.Proof.RefTail

noncomputable section

namespace Cert.ReferenceIdeal.RefRun

open Cert.ReferenceIdeal Idealize.ShloMosaic Idealize.ShloMosaic.TcCoe Idealize.SL.Sem Idealize.ShloMosaic.StableHlo
open Cert.ReferenceIdeal.RefOps Cert.ReferenceIdeal.RefBase Cert.ReferenceIdeal.RefMain Cert.ReferenceIdeal.Pc
open Cert.LibAfter

section Fold

variable {F : FTy → Type} [FloatOps F] [Facts]
open Facts₀ Facts

/-- The fold of the whole line, for any float values: the arguments are kept, and the result buffer holds the three
    graph convolutions and the dense tail of the arguments. -/
theorem ops_read (V : Vl F) :
    Base V (after (ops (F := F)) V)
    ∧ after (ops (F := F)) V (Proc.devRef .tc main_v163)
      = dense (conv (dot (relu (conv (dot (relu (conv (dot (V (Proc.devRef .tc main_arg0)) (V (Proc.devRef .tc main_arg2)))
            (Stg.srcV (V (Proc.devRef .tc main_arg1))) (Stg.dstV (V (Proc.devRef .tc main_arg1)))
            (V (Proc.devRef .tc main_arg3)))) (V (Proc.devRef .tc main_arg4)))
          (Stg.srcV (V (Proc.devRef .tc main_arg1))) (Stg.dstV (V (Proc.devRef .tc main_arg1)))
          (V (Proc.devRef .tc main_arg5)))) (V (Proc.devRef .tc main_arg6)))
        (Stg.srcV (V (Proc.devRef .tc main_arg1))) (Stg.dstV (V (Proc.devRef .tc main_arg1)))
        (V (Proc.devRef .tc main_arg7)))
        (V (Proc.devRef .tc main_arg8)) (V (Proc.devRef .tc main_arg9)) (V (Proc.devRef .tc main_arg10))
        (V (Proc.devRef .tc main_arg11)) (V (Proc.devRef .tc main_arg12)) (V (Proc.devRef .tc main_arg13))
        (V (Proc.devRef .tc main_arg14)) (V (Proc.devRef .tc main_arg15)) := by
  simp only [ops, P0, P1, P2, P3, after_append]
  obtain ⟨b1, h1⟩ := RefL0.layer0 V _ (RefL0.start V)
  obtain ⟨b2, h2⟩ := RefL1.layer1 V _ b1 h1
  obtain ⟨b3, h3⟩ := RefL2.layer2 V _ b2 h2
  exact RefTail.tail V _ b3 h3

end Fold

variable [Facts]
open Facts₀ Facts

/-- At the ideal values the result buffer holds the reference network of the arguments. -/
theorem out_eq (V : Vl Ideal) :
    after (ops (F := Ideal)) V (Proc.devRef .tc main_v163)
      = Stg.refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14))
          (V (Proc.devRef .tc main_arg15)) :=
  (ops_read V).2.trans (net_eq _ _ _ _ _ _ _ _ _ _ _ _ _ _ _ _)

/-- On every device, from any memory with zero counters: every weakly fair execution of the reference program
    terminates with the result buffer at the reference network of the arguments' launch contents and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v163)
        = Stg.refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => by
    have B := (ops_read (launchContents m c)).1
    exact ⟨(h c main_v163).trans (out_eq (launchContents m c)),
      (h c main_arg0).trans (B.args main_arg0 (by decide)), (h c main_arg1).trans (B.args main_arg1 (by decide)),
      (h c main_arg2).trans (B.args main_arg2 (by decide)), (h c main_arg3).trans (B.args main_arg3 (by decide)),
      (h c main_arg4).trans (B.args main_arg4 (by decide)), (h c main_arg5).trans (B.args main_arg5 (by decide)),
      (h c main_arg6).trans (B.args main_arg6 (by decide)), (h c main_arg7).trans (B.args main_arg7 (by decide)),
      (h c main_arg8).trans (B.args main_arg8 (by decide)), (h c main_arg9).trans (B.args main_arg9 (by decide)),
      (h c main_arg10).trans (B.args main_arg10 (by decide)), (h c main_arg11).trans (B.args main_arg11 (by decide)),
      (h c main_arg12).trans (B.args main_arg12 (by decide)), (h c main_arg13).trans (B.args main_arg13 (by decide)),
      (h c main_arg14).trans (B.args main_arg14 (by decide)), (h c main_arg15).trans (B.args main_arg15 (by decide))⟩)
    (run_main m ρ)

end Cert.ReferenceIdeal.RefRun

end
-- ==== Proof.LibRowOps.lean ====
/-
  Rows of a matrix taken and accumulated by an index vector, read at an index.

  What `x[idx]` of a matrix `x : [N, C]` at an integer vector `idx : [E]` lowers to is a gather whose start indices
  are `idx` as a column `[E, 1]`: result row `e` is row `idx[e]` of `x`, the start read as a signed integer and clamped
  into `[0, N - 1]`.  What `segment_sum(u, idx, N)` of `u : [E, C]` lowers to is an accumulating scatter with the same
  column of indices: row `v` of the result is row `v` of the operand plus the sum of the rows `u[e]` over the `e` with
  `idx[e] = v`, the index read signed and NOT clamped (a row whose index is outside `[0, N)` lands nowhere).
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-! ## The row gather -/

section Gather
variable {α : Type}

/-- The dimension numbers of a row gather: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A start index read signed and clamped into `[0, N - 1]`: the row a gather reads. -/
def clampRow (N : Nat) (hN : 0 < N) {w : Nat} (z : BitVec w) : Fin N := ⟨min z.toInt.toNat (N - 1), by omega⟩

/-- THE ROW GATHER READ AT `(e, c)`: the operand at row `idx[e]` (signed, clamped), column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    unfold GatherDims.start
    rw [dif_neg (show (1 : Fin 2) ∉ ([0] : List (Fin 2)) by decide)]
    unfold GatherDims.offCoord
    have hk : (1 : Fin 2) ∈ (rowGatherDims N E C wf).sKept :=
      show (1 : Fin 2) ∈ (List.finRange 2).filter (· ∉ (([0] : List (Fin 2)) ++ [])) from by decide
    rw [dif_pos hk]
    simp only [Nat.zero_add]
    rfl

end Gather

/-! ## The accumulating row scatter -/

section Scatter

/-- The dimension numbers of a row scatter: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w)

/-- On the row axis an update's window starts at its index, read signed … -/
theorem rowScatter_start0 (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl
/-- … and has no extent (the row axis is inserted); -/
theorem rowScatter_window0 (j : (⟨2, ![E, C]⟩ : Shape).Idx) : (rowScatterDims N E C wf).window j 0 = 0 := by
  unfold ScatterDims.window
  have hk : (0 : Fin 2) ∉ (rowScatterDims N E C wf).sKept :=
    show (0 : Fin 2) ∉ (List.finRange 2).filter (· ∉ ([0] : List (Fin 2))) from by decide
  rw [dif_neg hk]
/-- on the column axis it starts at `0` … -/
theorem rowScatter_start1 (j : (⟨2, ![E, C]⟩ : Shape).Idx) : (rowScatterDims N E C wf).start j idx 1 = 0 := by
  unfold ScatterDims.start
  rw [dif_neg (show (1 : Fin 2) ∉ ([0] : List (Fin 2)) by decide)]
/-- … and the window coordinate is the update's column. -/
theorem rowScatter_window1 (j : (⟨2, ![E, C]⟩ : Shape).Idx) : (rowScatterDims N E C wf).window j 1 = (j 1).val := by
  unfold ScatterDims.window
  have hk : (1 : Fin 2) ∈ (rowScatterDims N E C wf).sKept :=
    show (1 : Fin 2) ∈ (List.finRange 2).filter (· ∉ ([0] : List (Fin 2))) from by decide
  rw [dif_pos hk]
  rfl

/-- Update `(e, b)` lands at `(v, c)` exactly when `idx[e] = v` as integers and `b = c`. -/
theorem rowScatter_lands_iff (e : Fin E) (b : Fin C) (v : Fin N) (c : Fin C) :
    (rowScatterDims N E C wf).resultIdx? (ix2 e b) idx = some (ix2 v c)
      ↔ (idx (ix2 e (0 : Fin 1))).toInt = (v.val : ℤ) ∧ b = c := by
  unfold ScatterDims.resultIdx?
  have s0 := rowScatter_start0 wf idx (ix2 e b)
  have w0 := rowScatter_window0 wf (ix2 e b)
  have s1 := rowScatter_start1 wf idx (ix2 e b)
  have w1 := rowScatter_window1 wf (ix2 e b)
  have e0 : (ix2 e b : (⟨2, ![E, C]⟩ : Shape).Idx) 0 = e := rfl
  have e1 : ((ix2 e b : (⟨2, ![E, C]⟩ : Shape).Idx) 1).val = b.val := rfl
  rw [e0] at s0
  rw [e1] at w1
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only at h0 h1
      have hv : ((ix2 v c : (⟨2, ![N, C]⟩ : Shape).Idx) 0).val = v.val := rfl
      have hc : ((ix2 v c : (⟨2, ![N, C]⟩ : Shape).Idx) 1).val = c.val := rfl
      rw [hv] at h0; rw [hc] at h1
      have hh0 := (h 0).1
      rw [s0, w0] at h0 hh0
      rw [s1, w1] at h1
      refine ⟨by omega, Fin.ext (by omega)⟩
    · rintro ⟨hz, rfl⟩
      funext a
      refine Fin.ext ?_
      match a with
      | ⟨0, _⟩ =>
        show ((rowScatterDims N E C wf).start (ix2 e b) idx 0 + ((rowScatterDims N E C wf).window (ix2 e b) 0 : ℕ)).toNat = v.val
        rw [s0, w0, hz]; simp
      | ⟨1, _⟩ =>
        show ((rowScatterDims N E C wf).start (ix2 e b) idx 1 + ((rowScatterDims N E C wf).window (ix2 e b) 1 : ℕ)).toNat = b.val
        rw [s1, w1]; simp
  · rename_i h
    constructor
    · intro hf; exact absurd hf (by simp)
    · rintro ⟨hz, rfl⟩
      exfalso; apply h
      intro a
      match a with
      | ⟨0, _⟩ =>
        show 0 ≤ (rowScatterDims N E C wf).start (ix2 e b) idx 0 + ((rowScatterDims N E C wf).window (ix2 e b) 0 : ℕ)
          ∧ (rowScatterDims N E C wf).start (ix2 e b) idx 0 + ((rowScatterDims N E C wf).window (ix2 e b) 0 : ℕ) < (N : ℤ)
        rw [s0, w0, hz]; have := v.isLt; constructor <;> omega
      | ⟨1, _⟩ =>
        show 0 ≤ (rowScatterDims N E C wf).start (ix2 e b) idx 1 + ((rowScatterDims N E C wf).window (ix2 e b) 1 : ℕ)
          ∧ (rowScatterDims N E C wf).start (ix2 e b) idx 1 + ((rowScatterDims N E C wf).window (ix2 e b) 1 : ℕ) < (C : ℤ)
        rw [s1, w1]; have := b.isLt; constructor <;> omega

/-- THE ACCUMULATING ROW SCATTER READ AT `(v, c)`: the operand there plus the sum, over the update rows `e` whose
    index is `v`, of the update at `(e, c)`. -/
theorem rowScatterAdd_apply (x : (⟨2, ![N, C]⟩ : Shape).Idx → EReal) (upd : (⟨2, ![E, C]⟩ : Shape).Idx → EReal)
    (v : Fin N) (c : Fin C) :
    Ideal.hostScatterAdd (rowScatterDims N E C wf) x idx upd (ix2 v c)
      = x (ix2 v c) + ∑ e ∈ Finset.univ.filter (fun e : Fin E => (idx (ix2 e (0 : Fin 1))).toInt = (v.val : ℤ)),
          upd (ix2 e c) := by
  unfold Ideal.hostScatterAdd
  congr 1
  rw [Finset.sum_filter, sum_idx2, Finset.sum_filter]
  refine Finset.sum_congr rfl fun e _ => ?_
  simp only [rowScatter_lands_iff wf idx]
  by_cases hz : (idx (ix2 e (0 : Fin 1))).toInt = (v.val : ℤ)
  · simp only [hz, true_and, if_true]
    rw [Finset.sum_ite_eq' Finset.univ c]
    simp
  · simp [hz]

end Scatter

end Idealize.ShloMosaic.RowOps

end
-- ==== Proof.LibScatterScale.lean ====
/-
  GENERAL LEMMAS: pulling a factor out of an accumulating scatter, over the extended reals.

  Over the extended reals a product does not distribute over a sum in general (`+∞` and `-∞` among the summands),
  but a factor `k` with `0 ≤ k` and `k ≠ +∞` does come out of any finite sum, whatever the summands are
  (`mul_sum_of_nonneg`).  So for an accumulating float scatter read at the ideal values (each operand element plus
  the sum of the updates that land on it): if every update landing on element `i` is `k` times the matching update
  of a second scatter over the same indices, and the operand is zero at `i`, the first result at `i` is `k` times
  the second (`hostScatterAdd_scale`) — for any dimension numbers and shapes.
  Such factors arise as an inverse square root: `rsqrt x` of a positive extended real `x` (finite or `+∞`) is not
  negative and not `+∞` (`rsqrt_of_pos`), and so is the guarded form `where(x > 0, rsqrt x, 0)`
  (`select_rsqrt_good`).  Nothing here needs a finiteness hypothesis on the data.  Imports the library only.
-/
import Idealize.ShloMosaic.PureOps.Ideal.Laws
import Idealize.ShloMosaic.Lib.ValueIdx

noncomputable section

open scoped BigOperators

namespace Cert.ScatterScale

open Idealize.ShloMosaic Idealize.ShloMosaic.ValueIdx

/-! ## A factor that is not negative and not `+∞` comes out of a finite sum -/

theorem mul_sum_of_nonneg {ι : Type} (s : Finset ι) (g : ι → EReal) (k : EReal) (h0 : 0 ≤ k) (ht : k ≠ ⊤) :
    ∑ j ∈ s, k * g j = k * ∑ j ∈ s, g j := by
  classical
  induction s using Finset.induction_on with
  | empty => simp
  | insert a s ha ih =>
    rw [Finset.sum_insert ha, Finset.sum_insert ha, ih, EReal.left_distrib_of_nonneg_of_ne_top h0 ht]

/-- An accumulating scatter from zero whose landing updates are all `k` times another scatter's: the result is `k`
    times the other's, for `k` not negative and not `+∞`. -/
theorem hostScatterAdd_scale {s si su : Shape} (d : ScatterDims s si su) {w : Nat} (x : s.Idx → EReal) (idx : IVec si w)
    (u1 u2 : su.Idx → EReal) (i : s.Idx) (k : EReal) (hx : x i = 0) (h0 : 0 ≤ k) (ht : k ≠ ⊤)
    (hu : ∀ j, d.resultIdx? j idx = some i → u1 j = k * u2 j) :
    Ideal.hostScatterAdd d x idx u1 i = k * Ideal.hostScatterAdd d x idx u2 i := by
  unfold Ideal.hostScatterAdd
  rw [hx, zero_add, zero_add, ← mul_sum_of_nonneg _ _ k h0 ht]
  exact Finset.sum_congr rfl fun j hj => hu j (Finset.mem_filter.mp hj).2

/-! ## An inverse square root of a positive number is such a factor -/

theorem rsqrt_of_pos (x : EReal) (hx : 0 < x) : 0 ≤ Ideal.rsqrt x ∧ Ideal.rsqrt x ≠ ⊤ := by
  induction x using EReal.rec with
  | bot => exact absurd hx (by simp)
  | top => simp
  | coe r =>
    have hr : 0 < r := by exact_mod_cast hx
    rw [Ideal.rsqrt_coe, if_neg (not_lt.mpr hr.le), if_neg hr.ne']
    exact ⟨by exact_mod_cast inv_nonneg.mpr (Real.sqrt_nonneg r), EReal.coe_ne_top _⟩

/-- Zero, or the inverse square root of a positive extended real: not negative, not `+∞`. -/
theorem select_rsqrt_good (g : EReal) :
    0 ≤ Scalar.select (Ideal.cmp .ogt g 0) (Ideal.rsqrt g) 0 ∧ Scalar.select (Ideal.cmp .ogt g 0) (Ideal.rsqrt g) 0 ≠ ⊤ := by
  by_cases hd : (0 : EReal) < g
  · have hc : Ideal.cmp .ogt g 0 = 1#1 := by simp [Ideal.cmp, hd]
    rw [hc, ValueIdx.select_one]
    exact rsqrt_of_pos _ hd
  · have hc : Ideal.cmp .ogt g 0 = 0#1 := by simp [Ideal.cmp, hd]
    rw [hc, ValueIdx.select_zero]
    exact ⟨le_refl _, EReal.zero_ne_top⟩

end Cert.ScatterScale

end
-- ==== Proof.VecGather.lean ====
/-
  A vector indexed by an index column, read at an index.

  What `x[idx]` of a vector `x : [N]` at an integer vector `idx : [E]` lowers to is a gather whose start indices are
  `idx` as a column `[E, 1]`: result entry `e` is entry `idx[e]` of `x`, the start read as a signed integer and clamped
  into `[0, N - 1]` — the same row a row gather of a matrix reads (`RowOps.clampRow`).
-/
import Idealize.ShloMosaic.PureOps.Ideal
import Idealize.ShloMosaic.Lib.ValueIdx
import proofs.«142762_j63788854280505_2_alg».proof.Proof.LibRowOps

noncomputable section

namespace Cert.VecOps

open Idealize.ShloMosaic Idealize.ShloMosaic.ValueIdx Idealize.ShloMosaic.RowOps

/-- The dimension numbers of that gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather read at `e`: the operand at `idx[e]`, read signed and clamped. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.VecOps

end
-- ==== Proof.Pointwise.lean ====
/-
  The network's scalar identities over the extended reals.

  * The exponential linear unit written two ways agrees at every extended real `x`: where `x > 0` both pick `x`;
    elsewhere `min x 0 = x`, and the guarded argument `where(x > 0, 0, x)` is `x` too, so both take `eˣ − 1`
    (the second one times `1`).
  * The logistic quotient `1 / (1 + e^(0 − x))` with its ones written as float words and `0 − x` as a negation.
  * An accumulating scatter of non-negative updates into a non-negative operand is non-negative; hence one plus a
    count is positive, and its inverse square root is a factor that is neither negative nor `+∞`.
  * An index word whose signed value is a node number `v < N` is left alone by the wrap `where(i < 0, i + N, i)` and
    by the clamp into `[0, N − 1]`.
-/
import Idealize.ShloMosaic.PureOps.Ideal.Laws
import Idealize.ShloMosaic.Lib.ValueIdx
import Idealize.ShloMosaic.Lib.IdealHost
import proofs.«142762_j63788854280505_2_alg».proof.Proof.LibRowOps
import proofs.«142762_j63788854280505_2_alg».proof.Proof.LibScatterScale

noncomputable section

open scoped BigOperators

namespace Cert.Pointwise

open Idealize.ShloMosaic Idealize.ShloMosaic.ValueIdx Idealize.ShloMosaic.RowOps

/-- The comparison `x > 0` decided. -/
theorem cmp_ogt_of_pos {x : EReal} (h : 0 < x) : Ideal.cmp .ogt x 0 = 1#1 := by simp [Ideal.cmp, h]
theorem cmp_ogt_of_not_pos {x : EReal} (h : ¬ 0 < x) : Ideal.cmp .ogt x 0 = 0#1 := by simp [Ideal.cmp, h]

/-- The exponential linear unit: `min x 0` under the exponential against the guarded argument, times one. -/
theorem elu_pt (x : EReal) :
    Scalar.select (Ideal.cmp .ogt x 0) x (Ideal.exp (min x 0) - 1)
      = Scalar.select (Ideal.cmp .ogt x 0) x (1 * (Ideal.exp (Scalar.select (Ideal.cmp .ogt x 0) 0 x) - 1)) := by
  by_cases h : (0 : EReal) < x
  · rw [cmp_ogt_of_pos h, select_one, select_one]
  · rw [cmp_ogt_of_not_pos h, select_zero, select_zero, select_zero, one_mul, min_eq_left (not_lt.mp h)]

/-- The logistic quotient: `0 − x` is `−x`. -/
theorem sigm_pt (x : EReal) : Ideal.div 1 (1 + Ideal.exp (0 - x)) = Ideal.div 1 (1 + Ideal.exp (-x)) := by
  rw [zero_sub]

/-- An accumulating scatter of non-negative updates into a non-negative element is non-negative there. -/
theorem hostScatterAdd_nonneg {s si su : Shape} (d : ScatterDims s si su) {w : Nat} (x : s.Idx → EReal) (idx : IVec si w)
    (u : su.Idx → EReal) (i : s.Idx) (hx : 0 ≤ x i) (hu : ∀ j, 0 ≤ u j) : 0 ≤ Ideal.hostScatterAdd d x idx u i := by
  unfold Ideal.hostScatterAdd
  exact add_nonneg hx (Finset.sum_nonneg fun j _ => hu j)

/-- The inverse square root of a non-negative number plus one is neither negative nor `+∞`. -/
theorem rsqrt_succ_good (g : EReal) (hg : 0 ≤ g) : 0 ≤ Ideal.rsqrt (g + 1) ∧ Ideal.rsqrt (g + 1) ≠ ⊤ :=
  Cert.ScatterScale.rsqrt_of_pos _ (lt_of_lt_of_le zero_lt_one (le_add_of_nonneg_left hg))

/-- An index word whose signed value is `v < N`: the wrap `where(i < 0, i + K, i)` keeps it and the clamp into
    `[0, N − 1]` reads `v`. -/
theorem clampRow_wrap (N : Nat) (hN : 0 < N) (K : BitVec 32) (z : BitVec 32) (v : Fin N) (hz : z.toInt = (v.val : ℤ)) :
    clampRow N hN (Scalar.select (IntOp.cmpi .slt z 0#32) (IntOp.addi z K) z) = v := by
  have hs : IntOp.cmpi .slt z 0#32 = 0#1 := by
    have : z.slt 0#32 = false := by
      rw [BitVec.slt_eq_decide]
      have h0 : (0#32 : BitVec 32).toInt = 0 := by decide
      rw [h0, hz]
      exact decide_eq_false (by omega)
    show BitVec.ofBool (z.slt 0#32) = 0#1
    rw [this]; rfl
  rw [hs, select_zero]
  refine Fin.ext ?_
  show min z.toInt.toNat (N - 1) = v.val
  rw [hz]
  have := v.isLt
  omega

/-- The clamp alone, at such a word. -/
theorem clampRow_of_toInt (N : Nat) (hN : 0 < N) (z : BitVec 32) (v : Fin N) (hz : z.toInt = (v.val : ℤ)) :
    clampRow N hN z = v := by
  refine Fin.ext ?_
  show min z.toInt.toNat (N - 1) = v.val
  rw [hz]
  have := v.isLt
  omega

end Cert.Pointwise

end
-- ==== Proof.Reads.lean ====
/-
  Layout operations of the two host programs read at an index.

  A vector made a column (`[E] → [E, 1]`), a column repeated along the rows' entries (`[R, 1] → [R, C]`), a vector made
  a row (`[C] → [1, C]`), a row repeated over all rows (`[1, C] → [R, C]`), a vector recast as a column
  (`[N] → [N, 1]`), and a scalar constant spread over any shape: each reads one entry of its operand.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.Reads

open Idealize.ShloMosaic Idealize.ShloMosaic.ValueIdx

variable {α : Type}

/-- A vector made a column reads, at `(e, ·)`, its entry `e`. -/
theorem col_apply {E : Nat} (v : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h v (ix2 e u) = v (ix1 e) := by
  have he : e.val < E := e.isLt
  exact broadcastInDim_apply ![0] h v (ix2 e u) (ix1 e) fun a => by
    match a with
    | ⟨0, _⟩ => show e.val = if E = 1 then 0 else e.val; split <;> omega

/-- A column repeated along each row reads, at `(r, c)`, the column's entry `r`. -/
theorem colBcast_apply {R C : Nat} (x : (⟨2, ![R, 1]⟩ : Shape).Idx → α)
    (h : (⟨2, ![R, 1]⟩ : Shape).BroadcastsInDim ⟨2, ![R, C]⟩ ![0, 1]) (r : Fin R) (c : Fin C) :
    broadcastInDim ⟨2, ![R, C]⟩ ![0, 1] h x (ix2 r c) = x (ix2 r (0 : Fin 1)) := by
  have hr : r.val < R := r.isLt
  exact broadcastInDim_apply ![0, 1] h x (ix2 r c) (ix2 r (0 : Fin 1)) fun a => by
    match a with
    | ⟨0, _⟩ => show r.val = if R = 1 then 0 else r.val; split <;> omega
    | ⟨1, _⟩ => show 0 = if 1 = 1 then 0 else c.val; rfl

/-- A vector made a row reads, at `(·, c)`, its entry `c`. -/
theorem row_apply {C : Nat} (v : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h v (ix2 u c) = v (ix1 c) := by
  have hc : c.val < C := c.isLt
  exact broadcastInDim_apply ![1] h v (ix2 u c) (ix1 c) fun a => by
    match a with
    | ⟨0, _⟩ => show c.val = if C = 1 then 0 else c.val; split <;> omega

/-- A row repeated over all rows reads, at `(r, c)`, the row's entry `c`. -/
theorem rowBcast_apply {R C : Nat} (x : (⟨2, ![1, C]⟩ : Shape).Idx → α)
    (h : (⟨2, ![1, C]⟩ : Shape).BroadcastsInDim ⟨2, ![R, C]⟩ ![0, 1]) (r : Fin R) (c : Fin C) :
    broadcastInDim ⟨2, ![R, C]⟩ ![0, 1] h x (ix2 r c) = x (ix2 (0 : Fin 1) c) := by
  have hc : c.val < C := c.isLt
  exact broadcastInDim_apply ![0, 1] h x (ix2 r c) (ix2 (0 : Fin 1) c) fun a => by
    match a with
    | ⟨0, _⟩ => show 0 = if 1 = 1 then 0 else r.val; rfl
    | ⟨1, _⟩ => show c.val = if C = 1 then 0 else c.val; split <;> omega

/-- A vector made a row and then repeated over all rows reads, at `(r, c)`, its entry `c`. -/
theorem rowsOf_apply {R C : Nat} (v : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (r : Fin R) (c : Fin C) :
    broadcastInDim ⟨2, ![R, C]⟩ ![0, 1] h2 (broadcastInDim ⟨2, ![1, C]⟩ ![1] h1 v) (ix2 r c) = v (ix1 c) :=
  (rowBcast_apply _ h2 r c).trans (row_apply v h1 0 c)

/-- A vector made a column and then repeated along each row reads, at `(r, c)`, its entry `r`. -/
theorem colsOf_apply {R C : Nat} (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (r : Fin R) (c : Fin C) :
    broadcastInDim ⟨2, ![R, C]⟩ ![0, 1] h2 (broadcastInDim ⟨2, ![R, 1]⟩ ![0] h1 v) (ix2 r c) = v (ix1 r) :=
  (colBcast_apply _ h2 r c).trans (col_apply v h1 r 0)

/-- A vector recast as a column reads, at `(r, ·)`, its entry `r`. -/
theorem castCol_apply {N : Nat} (v : (⟨1, ![N]⟩ : Shape).Idx → α)
    (h : (⟨1, ![N]⟩ : Shape).ShapeCasts ⟨2, ![N, 1]⟩) (r : Fin N) (u : Fin 1) :
    shapeCast ⟨2, ![N, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A scalar float constant spread over any shape reads the number its word denotes. -/
theorem splat_apply {T : Shape} (h : (⟨0, ![]⟩ : Shape).BroadcastsInDim T ![]) (b : BitVec 32) (j : T.Idx) :
    broadcastInDim T ![] h (constant (F := Ideal) (⟨0, ![]⟩ : Shape) .f32 b) j = Ideal.ofBits .f32 b :=
  broadcastInDim_scalar_apply h _ j

/-- A scalar integer constant spread over any shape reads its word. -/
theorem splatI_apply {T : Shape} (h : (⟨0, ![]⟩ : Shape).BroadcastsInDim T ![]) (b : BitVec 32) (j : T.Idx) :
    broadcastInDim T ![] h (constantI (⟨0, ![]⟩ : Shape) 32 b) j = b :=
  broadcastInDim_scalar_apply h _ j

end Cert.Reads

end
-- ==== Proof.Layer.lean ====
/-
  One graph convolution, written two ways, over the extended reals.

  With `xw` the projected features, `dv` one scale per node, `s'` an edge's (wrapped and clamped) source and `d'` its
  (wrapped and clamped) target, the first way scales the rows first and the sum afterwards:
      (0 + Σ_{e lands at v} xw[s' e, c] · dv[s' e]) · dv[v] + xw[v, c] · (dv · dv)[v] + b[c]
  and the second way scales every edge's row by both ends' scales before summing:
      (0 + Σ_{e lands at v} xw[s' e, c] · (dv[s' e] · dv[d' e])) + xw[v, c] · (dv · dv)[v] + b[c].
  An edge lands at `v` exactly when its raw target, read signed, is `v`; for such an edge `d' e = v` (hypothesis
  `hwd`), so every landing term of the second sum is `dv[v]` times the matching term of the first, and a factor that
  is neither negative nor `+∞` (hypothesis `hdv`) comes out of the sum.  Stated for any node count `N`, edge count
  `E` and width `C`, with the host operations the two programs spell.
-/
import proofs.«142762_j63788854280505_2_alg».proof.Proof.Math
import proofs.«142762_j63788854280505_2_alg».proof.Proof.LibRowOps
import proofs.«142762_j63788854280505_2_alg».proof.Proof.LibScatterScale
import proofs.«142762_j63788854280505_2_alg».proof.Proof.VecGather
import proofs.«142762_j63788854280505_2_alg».proof.Proof.Pointwise
import proofs.«142762_j63788854280505_2_alg».proof.Proof.Reads

noncomputable section

open scoped BigOperators

namespace Cert.Layer

open Idealize.ShloMosaic Idealize.ShloMosaic.ValueIdx Idealize.ShloMosaic.RowOps Cert.Linear Cert.VecOps Cert.Reads

/-- The shape of a vector of length `n`. -/
abbrev Vc (n : Nat) : Shape := ⟨1, ![n]⟩

variable {N E C : Nat}

/-- A row scatter from zero whose landing rows are `k` times another's is the other's result times `k`. -/
theorem scatter_scale_rows (wfS : ScatterDims.WF (Mat N C) (Mat E 1) (Mat E C) [1] [0] [0] 1)
    (Z : (Mat N C).Idx → EReal) (cd : IVec (Mat E 1) 32) (uK uR : (Mat E C).Idx → EReal)
    (v : Fin N) (c : Fin C) (k : EReal) (hZ : Z (ix2 v c) = 0) (h0 : 0 ≤ k) (ht : k ≠ ⊤)
    (hu : ∀ e : Fin E, (cd (ix2 e (0 : Fin 1))).toInt = (v.val : ℤ) → uR (ix2 e c) = k * uK (ix2 e c)) :
    Ideal.hostScatterAdd (rowScatterDims N E C wfS) Z cd uR (ix2 v c)
      = Ideal.hostScatterAdd (rowScatterDims N E C wfS) Z cd uK (ix2 v c) * k := by
  rw [mul_comm]
  refine Cert.ScatterScale.hostScatterAdd_scale _ Z cd uR uK (ix2 v c) k hZ h0 ht fun j hj => ?_
  obtain ⟨e, b, rfl⟩ : ∃ (e : Fin E) (b : Fin C), j = ix2 e b := ⟨j 0, j 1, eq_ix2 j⟩
  obtain ⟨hz, rfl⟩ := (rowScatter_lands_iff wfS cd e b v c).mp hj
  exact hu e hz

section
variable (hN : 0 < N)
  (wfG : GatherDims.WF (Mat N C) (Mat E 1) (Mat E C) [1] [0] [] [0] [] 1 ![1, C])
  (wfg : GatherDims.WF (Vc N) (Mat E 1) (Vc E) [] [0] [] [0] [] 1 ![1])
  (hE1 : (Vc E).BroadcastsInDim (Mat E 1) ![0]) (hEC : (Mat E 1).BroadcastsInDim (Mat E C) ![0, 1])
  (hNC : (Mat N 1).BroadcastsInDim (Mat N C) ![0, 1])
  (cN : (Vc N).ShapeCasts (Mat N 1))
  (xw : FVec Ideal (Mat N C) .f32) (ws wd : IVec (Mat E 1) 32) (dv : FVec Ideal (Vc N) .f32)

/-- The first way's update rows: the scaled features gathered along the sources. -/
theorem updK_apply (e : Fin E) (c : Fin C) :
    Host.gather (rowGatherDims N E C wfG)
        (mulf xw (broadcastInDim (Mat N C) ![0, 1] hNC (shapeCast (Mat N 1) dv cN))) ws (ix2 e c)
      = xw (ix2 (clampRow N hN (ws (ix2 e (0 : Fin 1)))) c) * dv (ix1 (clampRow N hN (ws (ix2 e (0 : Fin 1))))) := by
  rw [rowGather_apply hN wfG]
  show xw _ * broadcastInDim (Mat N C) ![0, 1] hNC (shapeCast (Mat N 1) dv cN) (ix2 _ c) = _
  rw [colBcast_apply, castCol_apply]

/-- The second way's update rows: the features gathered along the sources, times both ends' scales. -/
theorem updR_apply (e : Fin E) (c : Fin C) :
    mulf (Host.gather (rowGatherDims N E C wfG) xw ws)
        (broadcastInDim (Mat E C) ![0, 1] hEC (broadcastInDim (Mat E 1) ![0] hE1
          (mulf (Host.gather (vecGatherDims N E wfg) dv ws) (Host.gather (vecGatherDims N E wfg) dv wd)))) (ix2 e c)
      = xw (ix2 (clampRow N hN (ws (ix2 e (0 : Fin 1)))) c)
          * (dv (ix1 (clampRow N hN (ws (ix2 e (0 : Fin 1))))) * dv (ix1 (clampRow N hN (wd (ix2 e (0 : Fin 1)))))) := by
  show Host.gather (rowGatherDims N E C wfG) xw ws (ix2 e c)
      * broadcastInDim (Mat E C) ![0, 1] hEC (broadcastInDim (Mat E 1) ![0] hE1
          (mulf (Host.gather (vecGatherDims N E wfg) dv ws) (Host.gather (vecGatherDims N E wfg) dv wd))) (ix2 e c) = _
  rw [rowGather_apply hN wfG, colsOf_apply]
  show _ * (Host.gather (vecGatherDims N E wfg) dv ws (ix1 e) * Host.gather (vecGatherDims N E wfg) dv wd (ix1 e)) = _
  rw [vecGather_apply hN wfg, vecGather_apply hN wfg]

end

/-- ONE GRAPH CONVOLUTION, the two ways equal. -/
theorem conv_eq (hN : 0 < N)
    (wfS : ScatterDims.WF (Mat N C) (Mat E 1) (Mat E C) [1] [0] [0] 1)
    (wfG : GatherDims.WF (Mat N C) (Mat E 1) (Mat E C) [1] [0] [] [0] [] 1 ![1, C])
    (wfg : GatherDims.WF (Vc N) (Mat E 1) (Vc E) [] [0] [] [0] [] 1 ![1])
    (hE1 : (Vc E).BroadcastsInDim (Mat E 1) ![0]) (hEC : (Mat E 1).BroadcastsInDim (Mat E C) ![0, 1])
    (hN1 : (Vc N).BroadcastsInDim (Mat N 1) ![0]) (hNC : (Mat N 1).BroadcastsInDim (Mat N C) ![0, 1])
    (hC1 : (Vc C).BroadcastsInDim (Mat 1 C) ![1]) (hCN : (Mat 1 C).BroadcastsInDim (Mat N C) ![0, 1])
    (cN : (Vc N).ShapeCasts (Mat N 1)) (cC : (Vc C).ShapeCasts (Mat 1 C))
    (xw Z : FVec Ideal (Mat N C) .f32) (hZ : ∀ i, Z i = 0)
    (cd ws wd : IVec (Mat E 1) 32) (dv : FVec Ideal (Vc N) .f32) (b : FVec Ideal (Vc C) .f32)
    (hdv : ∀ v : Fin N, 0 ≤ dv (ix1 v) ∧ dv (ix1 v) ≠ ⊤)
    (hwd : ∀ (e : Fin E) (v : Fin N), (cd (ix2 e (0 : Fin 1))).toInt = (v.val : ℤ)
      → clampRow N hN (wd (ix2 e (0 : Fin 1))) = v) :
    Cert.Gcn.comb
        (Host.scatterAdd (rowScatterDims N E C wfS) Z cd
          (Host.gather (rowGatherDims N E C wfG)
            (mulf xw (broadcastInDim (Mat N C) ![0, 1] hNC (shapeCast (Mat N 1) dv cN))) ws))
        xw (shapeCast (Mat N 1) dv cN) (shapeCast (Mat N 1) (mulf dv dv) cN) (shapeCast (Mat 1 C) b cC)
      = addf (addf
          (Host.scatterAdd (rowScatterDims N E C wfS) Z cd
            (mulf (Host.gather (rowGatherDims N E C wfG) xw ws)
              (broadcastInDim (Mat E C) ![0, 1] hEC (broadcastInDim (Mat E 1) ![0] hE1
                (mulf (Host.gather (vecGatherDims N E wfg) dv ws) (Host.gather (vecGatherDims N E wfg) dv wd))))))
          (mulf xw (broadcastInDim (Mat N C) ![0, 1] hNC (broadcastInDim (Mat N 1) ![0] hN1 (mulf dv dv)))))
        (broadcastInDim (Mat N C) ![0, 1] hCN (broadcastInDim (Mat 1 C) ![1] hC1 b)) := by
  funext i
  obtain ⟨v, c, rfl⟩ : ∃ (v : Fin N) (c : Fin C), i = ix2 v c := ⟨i 0, i 1, eq_ix2 i⟩
  have hS := scatter_scale_rows wfS Z cd
    (Host.gather (rowGatherDims N E C wfG)
      (mulf xw (broadcastInDim (Mat N C) ![0, 1] hNC (shapeCast (Mat N 1) dv cN))) ws)
    (mulf (Host.gather (rowGatherDims N E C wfG) xw ws)
      (broadcastInDim (Mat E C) ![0, 1] hEC (broadcastInDim (Mat E 1) ![0] hE1
        (mulf (Host.gather (vecGatherDims N E wfg) dv ws) (Host.gather (vecGatherDims N E wfg) dv wd)))))
    v c (dv (ix1 v)) (hZ _) (hdv v).1 (hdv v).2 (fun e hz => by
      rw [updR_apply hN wfG wfg hE1 hEC xw ws wd dv e c, updK_apply hN wfG hNC cN xw ws dv e c, hwd e v hz]
      exact (mul_assoc _ _ _).symm.trans (mul_comm _ _))
  show Ideal.hostScatterAdd (rowScatterDims N E C wfS) Z cd _ (ix2 v c) * shapeCast (Mat N 1) dv cN (ix2 v (0 : Fin 1))
        + xw (ix2 v c) * shapeCast (Mat N 1) (mulf dv dv) cN (ix2 v (0 : Fin 1))
        + shapeCast (Mat 1 C) b cC (ix2 (0 : Fin 1) c)
      = Ideal.hostScatterAdd (rowScatterDims N E C wfS) Z cd _ (ix2 v c)
        + xw (ix2 v c) * broadcastInDim (Mat N C) ![0, 1] hNC (broadcastInDim (Mat N 1) ![0] hN1 (mulf dv dv)) (ix2 v c)
        + broadcastInDim (Mat N C) ![0, 1] hCN (broadcastInDim (Mat 1 C) ![1] hC1 b) (ix2 v c)
  rw [hS, castCol_apply, castCol_apply, shapeCast_a_1a_apply, colsOf_apply, rowsOf_apply]

end Cert.Layer

end
-- ==== Proof.Dense.lean ====
/-
  The dense layers' pieces, written two ways, over the extended reals.

  A matrix product is the host's `dot_general` (under a record that contracts columns with rows); a bias row added to
  every row is the host's two broadcasts of the bias vector, added; the positive part is the maximum with a zero
  splat; the exponential linear unit `where(x > 0, x, e^(min x 0) − 1)` is the host's
  `where(x > 0, x, 1 · expm1(where(x > 0, 0, x)))`; and `1 / (1 + e^(0 − x))` is the host's quotient with a negation.
  Stated for any number of rows and any widths.
-/
import proofs.«142762_j63788854280505_2_alg».proof.Proof.Math
import proofs.«142762_j63788854280505_2_alg».proof.Proof.Pointwise
import proofs.«142762_j63788854280505_2_alg».proof.Proof.Reads

noncomputable section

open scoped BigOperators

namespace Cert.Dense

open Idealize.ShloMosaic Idealize.ShloMosaic.ValueIdx Cert.Linear Cert.Reads Cert.Pointwise

/-- The shape of a vector of length `n`. -/
abbrev Vc (n : Nat) : Shape := ⟨1, ![n]⟩
/-- The shape of a scalar. -/
abbrev S0 : Shape := ⟨0, ![]⟩

variable {R K N : Nat}

/-- A product is the host's `dot_general`. -/
theorem dot_eq {d : DotDims (Mat R K) (Mat K N) (Mat R N)} (hd : Contracts d) (prec : Option ContractPrecision)
    (h : FVec Ideal (Mat R K) .f32) (w : FVec Ideal (Mat K N) .f32) :
    matProd h w = Host.dotGeneral d prec h w := (dotGeneral_eq hd prec .single h w).symm

/-- A bias row added to every row. -/
theorem bias_eq (hC1 : (Vc N).BroadcastsInDim (Mat 1 N) ![1]) (hCN : (Mat 1 N).BroadcastsInDim (Mat R N) ![0, 1])
    (cC : (Vc N).ShapeCasts (Mat 1 N)) (L : FVec Ideal (Mat R N) .f32) (b : FVec Ideal (Vc N) .f32) :
    Cert.Gcn.bias L (shapeCast (Mat 1 N) b cC)
      = addf L (broadcastInDim (Mat R N) ![0, 1] hCN (broadcastInDim (Mat 1 N) ![1] hC1 b)) := by
  funext i
  obtain ⟨p, q, rfl⟩ : ∃ (p : Fin R) (q : Fin N), i = ix2 p q := ⟨i 0, i 1, eq_ix2 i⟩
  show L (ix2 p q) + shapeCast (Mat 1 N) b cC (ix2 (0 : Fin 1) q)
    = L (ix2 p q) + broadcastInDim (Mat R N) ![0, 1] hCN (broadcastInDim (Mat 1 N) ![1] hC1 b) (ix2 p q)
  rw [shapeCast_a_1a_apply, rowsOf_apply]

/-- The positive part. -/
theorem relu_eq (h0 : S0.BroadcastsInDim (Mat R N) ![]) (L : FVec Ideal (Mat R N) .f32) :
    Cert.Gcn.relu L = maximumf L (broadcastInDim (Mat R N) ![] h0 (constant (F := Ideal) S0 .f32 0x00000000#32)) := by
  funext i
  show max (L i) 0 = max (L i) (broadcastInDim (Mat R N) ![] h0 (constant (F := Ideal) S0 .f32 0x00000000#32) i)
  rw [splat_apply, Ideal.ofBits_zero_f32]

/-- The exponential linear unit. -/
theorem elu_eq (h0 : S0.BroadcastsInDim (Mat R N) ![]) (L : FVec Ideal (Mat R N) .f32) :
    Cert.Gcn.elu L
      = select (cmpf .ogt L (broadcastInDim (Mat R N) ![] h0 (constant (F := Ideal) S0 .f32 0x00000000#32))) L
          (mulf (broadcastInDim (Mat R N) ![] h0 (constant (F := Ideal) S0 .f32 0x3F800000#32))
            (Host.expm1 (select (cmpf .ogt L (broadcastInDim (Mat R N) ![] h0 (constant (F := Ideal) S0 .f32 0x00000000#32)))
              (broadcastInDim (Mat R N) ![] h0 (constant (F := Ideal) S0 .f32 0x00000000#32)) L))) := by
  funext i
  show Scalar.select (Ideal.cmp .ogt (L i) 0) (L i) (Ideal.exp (min (L i) 0) - 1)
    = Scalar.select (Ideal.cmp .ogt (L i) (broadcastInDim (Mat R N) ![] h0 (constant (F := Ideal) S0 .f32 0x00000000#32) i)) (L i)
        (broadcastInDim (Mat R N) ![] h0 (constant (F := Ideal) S0 .f32 0x3F800000#32) i
          * (Ideal.exp (Scalar.select
              (Ideal.cmp .ogt (L i) (broadcastInDim (Mat R N) ![] h0 (constant (F := Ideal) S0 .f32 0x00000000#32) i))
              (broadcastInDim (Mat R N) ![] h0 (constant (F := Ideal) S0 .f32 0x00000000#32) i) (L i)) - 1))
  rw [splat_apply, splat_apply, Ideal.ofBits_zero_f32, Ideal.ofBits_one_f32]
  exact elu_pt (L i)

/-- The logistic quotient. -/
theorem sigm_eq (h0 : S0.BroadcastsInDim (Mat R N) ![]) (L : FVec Ideal (Mat R N) .f32) :
    Cert.Gcn.sigm L
      = Host.divf (broadcastInDim (Mat R N) ![] h0 (constant (F := Ideal) S0 .f32 0x3F800000#32))
          (addf (broadcastInDim (Mat R N) ![] h0 (constant (F := Ideal) S0 .f32 0x3F800000#32)) (Host.exp (Host.negf L))) := by
  funext i
  show Ideal.div 1 (1 + Ideal.exp (0 - L i))
    = Ideal.div (broadcastInDim (Mat R N) ![] h0 (constant (F := Ideal) S0 .f32 0x3F800000#32) i)
        (broadcastInDim (Mat R N) ![] h0 (constant (F := Ideal) S0 .f32 0x3F800000#32) i + Ideal.exp (-(L i)))
  rw [splat_apply, Ideal.ofBits_one_f32, zero_sub]

end Cert.Dense

end
-- ==== Proof.Degree.lean ====
/-
  The degree scale and the wrapped target column.

  * `dinv_good`: the inverse square root of (a scatter of ones into zeros, plus one) is, at every element, neither
    negative nor `+∞`: the scatter's result is a zero plus a finite sum of ones, so it is not negative, and one more
    is positive.
  * `clamp_wrapCol`: where the raw index column reads, as a signed integer, a row number `v < N`, the wrapped column
    `where(i < 0, i + K, i)` read signed and clamped into `[0, N − 1]` is `v`.
-/
import proofs.«142762_j63788854280505_2_alg».proof.Proof.LibMatProd
import proofs.«142762_j63788854280505_2_alg».proof.Proof.LibRowOps
import proofs.«142762_j63788854280505_2_alg».proof.Proof.Pointwise
import proofs.«142762_j63788854280505_2_alg».proof.Proof.Reads

noncomputable section

open scoped BigOperators

namespace Cert.Degree

open Idealize.ShloMosaic Idealize.ShloMosaic.ValueIdx Idealize.ShloMosaic.RowOps Cert.Linear Cert.Reads Cert.Pointwise

/-- The shape of a vector of length `n`. -/
abbrev Vc (n : Nat) : Shape := ⟨1, ![n]⟩
/-- The shape of a scalar. -/
abbrev S0 : Shape := ⟨0, ![]⟩

/-- `1 / sqrt (count + 1)`, the count a scatter of ones into zeros: not negative, not `+∞`. -/
theorem dinv_good {s si su : Shape} (d1 : ScatterDims s si su) (h0 : S0.BroadcastsInDim s ![])
    (h1 : S0.BroadcastsInDim su ![]) {w : Nat} (idx : IVec si w) (i : s.Idx) :
    0 ≤ Host.rsqrt (addf
          (Host.scatterAdd d1 (broadcastInDim s ![] h0 (constant (F := Ideal) S0 .f32 0x00000000#32)) idx
            (broadcastInDim su ![] h1 (constant (F := Ideal) S0 .f32 0x3F800000#32)))
          (broadcastInDim s ![] h0 (constant (F := Ideal) S0 .f32 0x3F800000#32))) i
      ∧ Host.rsqrt (addf
          (Host.scatterAdd d1 (broadcastInDim s ![] h0 (constant (F := Ideal) S0 .f32 0x00000000#32)) idx
            (broadcastInDim su ![] h1 (constant (F := Ideal) S0 .f32 0x3F800000#32)))
          (broadcastInDim s ![] h0 (constant (F := Ideal) S0 .f32 0x3F800000#32))) i ≠ ⊤ := by
  show 0 ≤ Ideal.rsqrt (Ideal.hostScatterAdd d1 _ idx _ i
        + broadcastInDim s ![] h0 (constant (F := Ideal) S0 .f32 0x3F800000#32) i)
    ∧ Ideal.rsqrt (Ideal.hostScatterAdd d1 _ idx _ i
        + broadcastInDim s ![] h0 (constant (F := Ideal) S0 .f32 0x3F800000#32) i) ≠ ⊤
  rw [splat_apply, Ideal.ofBits_one_f32]
  exact rsqrt_succ_good _ (hostScatterAdd_nonneg d1 _ idx _ i
    (le_of_eq (by rw [splat_apply, Ideal.ofBits_zero_f32]))
    (fun j => by rw [splat_apply, Ideal.ofBits_one_f32]; exact zero_le_one))

/-- The wrapped index column, clamped, at an entry whose raw index is a row number. -/
theorem clamp_wrapCol {N E : Nat} (hN : 0 < N) (hE1 : (Vc E).BroadcastsInDim (Mat E 1) ![0])
    (h0 : S0.BroadcastsInDim (Vc E) ![]) (K : BitVec 32) (d : IVec (Vc E) 32) (e : Fin E) (v : Fin N)
    (hz : (broadcastInDim (Mat E 1) ![0] hE1 d (ix2 e (0 : Fin 1))).toInt = (v.val : ℤ)) :
    clampRow N hN (broadcastInDim (Mat E 1) ![0] hE1
      (select (cmpi .slt d (broadcastInDim (Vc E) ![] h0 (constantI S0 32 0#32)))
        (addi d (broadcastInDim (Vc E) ![] h0 (constantI S0 32 K))) d) (ix2 e (0 : Fin 1))) = v := by
  rw [col_apply] at hz ⊢
  show clampRow N hN (Scalar.select
      (IntOp.cmpi .slt (d (ix1 e)) (broadcastInDim (Vc E) ![] h0 (constantI S0 32 0#32) (ix1 e)))
      (IntOp.addi (d (ix1 e)) (broadcastInDim (Vc E) ![] h0 (constantI S0 32 K) (ix1 e))) (d (ix1 e))) = v
  rw [splatI_apply, splatI_apply]
  exact clampRow_wrap N hN K _ v hz

end Cert.Degree

end
-- ==== Proof.StageEqs.lean ====
/-
  The two programs' stages compared.

  The edge-list rows, the index columns and the degree scale are the same operations in both programs. One graph
  convolution of the kernel program (the combine of its neighbourhood sum, the projected features, the scale columns
  and the bias row) is the reference's convolution stage; a matrix product is the reference's `dot_general`; a bias row
  added to a product is the reference's linear stage; the positive part, the exponential linear unit and the logistic
  quotient are the reference's stages of those names.
-/
import proofs.«142762_j63788854280505_2_alg».proof.Proof.KStages
import proofs.«142762_j63788854280505_2_alg».proof.Proof.RStages
import proofs.«142762_j63788854280505_2_alg».proof.Proof.LibDotLists
import proofs.«142762_j63788854280505_2_alg».proof.Proof.Layer
import proofs.«142762_j63788854280505_2_alg».proof.Proof.Dense
import proofs.«142762_j63788854280505_2_alg».proof.Proof.Degree

noncomputable section

open scoped BigOperators

namespace Cert.Bridge

open Idealize.ShloMosaic Idealize.ShloMosaic.ValueIdx Idealize.ShloMosaic.RowOps Cert.Linear

variable [Cert.KernelIdeal.Facts] [Cert.ReferenceIdeal.Facts]

abbrev XV := FVec Ideal ⟨2, ![100000, 128]⟩ .f32
abbrev YV := FVec Ideal ⟨2, ![100000, 1]⟩ .f32
abbrev WV := FVec Ideal ⟨2, ![128, 128]⟩ .f32
abbrev W1V := FVec Ideal ⟨2, ![128, 1]⟩ .f32
abbrev BV := FVec Ideal ⟨1, ![128]⟩ .f32
abbrev B1V := FVec Ideal ⟨1, ![1]⟩ .f32
abbrev EV := IVec ⟨1, ![640000]⟩ 32
abbrev EI := IVec ⟨2, ![2, 640000]⟩ 32

/-! ## The shared stages -/

theorem srcV_eq (ei : EI) : Cert.KernelIdeal.Stg.srcV ei = Cert.ReferenceIdeal.Stg.srcV ei := rfl
theorem dstV_eq (ei : EI) : Cert.KernelIdeal.Stg.dstV ei = Cert.ReferenceIdeal.Stg.dstV ei := rfl
theorem col_eq (v : EV) : Cert.KernelIdeal.Stg.col v = Cert.ReferenceIdeal.Stg.col v := rfl
theorem wrapCol_eq (v : EV) : Cert.KernelIdeal.Stg.wrapCol v = Cert.ReferenceIdeal.Stg.wrapCol v := rfl
theorem dinv_eq (d : EV) : Cert.KernelIdeal.Stg.dinv d = Cert.ReferenceIdeal.Stg.dinv d := rfl

/-! ## One graph convolution -/

theorem conv_layer (xw : XV) (s d : EV) (b : BV) :
    Cert.Gcn.comb (Cert.KernelIdeal.Stg.agg xw s d) xw (Cert.KernelIdeal.Stg.dcol d) (Cert.KernelIdeal.Stg.d2col d)
        (Cert.KernelIdeal.Stg.brow b)
      = Cert.ReferenceIdeal.Stg.conv xw s d b := by
  unfold Cert.KernelIdeal.Stg.agg Cert.KernelIdeal.Stg.dcol Cert.KernelIdeal.Stg.d2col Cert.KernelIdeal.Stg.brow
    Cert.ReferenceIdeal.Stg.conv
  rw [← wrapCol_eq, ← wrapCol_eq, ← col_eq, ← dinv_eq]
  exact Cert.Layer.conv_eq (N := 100000) (E := 640000) (C := 128) (by norm_num) _ _ _ _ _ _ _ _ _ _ _ xw _
    (fun i => (Cert.Reads.splat_apply _ _ i).trans Ideal.ofBits_zero_f32)
    (Cert.KernelIdeal.Stg.col d) (Cert.KernelIdeal.Stg.wrapCol s) (Cert.KernelIdeal.Stg.wrapCol d)
    (Cert.KernelIdeal.Stg.dinv d) b
    (fun v => Cert.Degree.dinv_good _ _ _ _ (ix1 v))
    (fun e v hz => Cert.Degree.clamp_wrapCol (by norm_num) _ _ _ d e v hz)

/-! ## The dense pieces -/

theorem dot_eq (h : XV) (w : WV) : Cert.Linear.matProd h w = Cert.ReferenceIdeal.Stg.dot h w :=
  Cert.Dense.dot_eq (contracts_of_lists _ rfl rfl rfl rfl rfl rfl) none h w

theorem dot1_eq (h : XV) (w : W1V) : Cert.Linear.matProd h w = Cert.ReferenceIdeal.Stg.dot1 h w :=
  Cert.Dense.dot_eq (contracts_of_lists _ rfl rfl rfl rfl rfl rfl) none h w

theorem bias_lin (h : XV) (w : WV) (b : BV) :
    Cert.Gcn.bias (Cert.ReferenceIdeal.Stg.dot h w) (Cert.KernelIdeal.Stg.brow b) = Cert.ReferenceIdeal.Stg.lin h w b :=
  Cert.Dense.bias_eq _ _ _ (Cert.ReferenceIdeal.Stg.dot h w) b

theorem bias_lin1 (h : XV) (w : W1V) (b : B1V) :
    Cert.Gcn.bias (Cert.ReferenceIdeal.Stg.dot1 h w) (Cert.KernelIdeal.Stg.b11 b) = Cert.ReferenceIdeal.Stg.lin1 h w b :=
  Cert.Dense.bias_eq _ _ _ (Cert.ReferenceIdeal.Stg.dot1 h w) b

theorem relu_eq (h : XV) : Cert.Gcn.relu h = Cert.ReferenceIdeal.Stg.relu h := Cert.Dense.relu_eq _ h
theorem elu_eq (h : XV) : Cert.Gcn.elu h = Cert.ReferenceIdeal.Stg.elu h := Cert.Dense.elu_eq _ h
theorem elu1_eq (h : YV) : Cert.Gcn.elu h = Cert.ReferenceIdeal.Stg.elu1 h := Cert.Dense.elu_eq _ h
theorem sigm_eq (h : YV) : Cert.Gcn.sigm h = Cert.ReferenceIdeal.Stg.sigm h := Cert.Dense.sigm_eq _ h

end Cert.Bridge

end
-- ==== Proof.Bridge.lean ====
/-
  The kernel program's result, as a function of its arguments, is the reference program's.

  Both results are compositions of stages. Reading the kernel program's from the inside out: its first projection is
  the reference's `dot_general`; each graph convolution's combine of the neighbourhood sum, the projected features, the
  scale columns and the bias row is the reference's convolution stage; the positive part, the following projections,
  the bias rows, the exponential linear units and the logistic quotient are the reference's stages of the same
  names; and the edge-list rows are the same slices. After these rewrites the two sides are the same term.
-/
import proofs.«142762_j63788854280505_2_alg».proof.Proof.KStages
import proofs.«142762_j63788854280505_2_alg».proof.Proof.RStages
import proofs.«142762_j63788854280505_2_alg».proof.Proof.StageEqs

noncomputable section

open scoped BigOperators

namespace Cert.Bridge

open Idealize.ShloMosaic

theorem kerOut_eq_refOut [Cert.KernelIdeal.Facts] [Cert.ReferenceIdeal.Facts]
    (x : FVec Ideal ⟨2, ![100000, 128]⟩ .f32) (ei : IVec ⟨2, ![2, 640000]⟩ 32)
    (w0 : FVec Ideal ⟨2, ![128, 128]⟩ .f32) (b0 : FVec Ideal ⟨1, ![128]⟩ .f32)
    (w1 : FVec Ideal ⟨2, ![128, 128]⟩ .f32) (b1 : FVec Ideal ⟨1, ![128]⟩ .f32)
    (w2 : FVec Ideal ⟨2, ![128, 128]⟩ .f32) (b2 : FVec Ideal ⟨1, ![128]⟩ .f32)
    (lw0 : FVec Ideal ⟨2, ![128, 128]⟩ .f32) (lb0 : FVec Ideal ⟨1, ![128]⟩ .f32)
    (lw1 : FVec Ideal ⟨2, ![128, 128]⟩ .f32) (lb1 : FVec Ideal ⟨1, ![128]⟩ .f32)
    (lw2 : FVec Ideal ⟨2, ![128, 128]⟩ .f32) (lb2 : FVec Ideal ⟨1, ![128]⟩ .f32)
    (lw3 : FVec Ideal ⟨2, ![128, 1]⟩ .f32) (lb3 : FVec Ideal ⟨1, ![1]⟩ .f32) :
    Cert.KernelIdeal.Stg.kerOut x ei w0 b0 w1 b1 w2 b2 lw0 lb0 lw1 lb1 lw2 lb2 lw3 lb3
      = Cert.ReferenceIdeal.Stg.refOut x ei w0 b0 w1 b1 w2 b2 lw0 lb0 lw1 lb1 lw2 lb2 lw3 lb3 := by
  unfold Cert.KernelIdeal.Stg.kerOut Cert.ReferenceIdeal.Stg.refOut Cert.Gcn.tail Cert.Gcn.convNext
  simp only [dot_eq, dot1_eq, conv_layer, relu_eq, bias_lin, bias_lin1, elu_eq, elu1_eq, sigm_eq, srcV_eq, dstV_eq]

end Cert.Bridge

end
-- ==== Proof.lean ====
/-
  The certificate's claims, assembled.

  Both programs compute a graph network over 100000 nodes and 640000 edges: three graph convolutions (the first two
  followed by the positive part), three dense layers of width 128 and one of width 1, each followed by the
  exponential linear unit, and the logistic function.  A convolution of projected features `xw` leaves at node `v`
    Σ over the edges e into v of  xw[src e] · (dinv[src e] · dinv[v])  +  xw[v] · dinv[v]²  +  b,
  with `dinv = 1 / sqrt (1 + in-degree)`.  The reference scales every edge's row by both factors before the sum; the
  kernel program scales the rows by `dinv` once before gathering them along the edges and by `dinv[v]` after the sum.
  On the extended reals a factor comes out of a finite sum when it is neither negative nor `+∞`, which `dinv[v]` is
  (the degree count plus one is at least one); no finiteness of the data is needed.  The kernels work on blocks of
  10000 rows; every step of theirs acts on each row by itself, so ten blocks give the whole arrays' function.

  * The frames of the two kernel programs are the generated frame certificates; the reference's is its run with the
    result dropped.
  * The ideal pass rewrote no operation, so there is nothing to preserve.
  * The kernel program's run ends with its result buffer at `Stg.kerOut` of its arguments (`Run.run`), the
    reference's at `Stg.refOut` of its arguments (`RefRun.run`), and the two are one function (`Bridge`).
-/
import proofs.«142762_j63788854280505_2_alg».proof.Defs
import proofs.«142762_j63788854280505_2_alg».proof.Proof.Gen.Kernel
import proofs.«142762_j63788854280505_2_alg».proof.Proof.Gen.Kernel.Frame
import proofs.«142762_j63788854280505_2_alg».proof.Proof.Gen.KernelIdeal
import proofs.«142762_j63788854280505_2_alg».proof.Proof.Gen.KernelIdeal.Frame
import proofs.«142762_j63788854280505_2_alg».proof.Proof.Gen.ReferenceIdeal
import proofs.«142762_j63788854280505_2_alg».proof.Proof.Gen.Pre_finite_inputs
import proofs.«142762_j63788854280505_2_alg».proof.Proof.KRun
import proofs.«142762_j63788854280505_2_alg».proof.Proof.RefRun
import proofs.«142762_j63788854280505_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.RefRun.run m ρ)

/-- From memories that agree on the arguments the two programs end with the same result: each ends at its result
    function of its own arguments, the arguments are the same arrays, and the two functions are one. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ?_) (Cert.ReferenceIdeal.RefRun.run m' ρ')
  obtain ⟨e0, e1, e2, e3, e4, e5, e6, e7, e8, e9, e10, e11, e12, e13, e14, e15⟩ := hagree c
  refine ⟨(h c).1.trans ?_, (h c).2⟩
  rw [e0, e1, e2, e3, e4, e5, e6, e7, e8, e9, e10, e11, e12, e13, e14, e15]
  exact (Cert.Bridge.kerOut_eq_refOut _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
